-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256 : Shape := ⟨3, ![2, 256, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2x256x256 .f32) (main_arg1 : FVec F S512x256 .f32) (main_arg2 : FVec F S256 .f32) (main_arg3 : FVec F S256x1 .f32) (main_arg4 : FVec F S1 .f32) : IVec S_ 1 :=
  let main_v0 : FVec F S2x256x256 .f32 := Host.absf main_arg0
  let main_cst : FVec F S_ .f32 := constant S_ .f32 0x7F800000#32
  let main_v1 : FVec F S2x256x256 .f32 := broadcastInDim S2x256x256 ![] bcast_S_S2x256x256 main_cst
  let main_v2 : IVec S2x256x256 1 := cmpf .olt main_v0 main_v1
  let main_c : IVec S_ 1 := constantI S_ 1 1#1
  let main_v3 : IVec S_ 1 := (fun x v => Host.reduce IntOp.andi x v reducesTo_S2x256x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S2x256x256 : Shape := ⟨3, ![2, 256, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x256 : Shape := ⟨2, ![1, 256]⟩
abbrev S256x256 : Shape := ⟨2, ![256, 256]⟩
abbrev S1x256x256 : Shape := ⟨3, ![1, 256, 256]⟩
abbrev S1x1x256 : Shape := ⟨3, ![1, 1, 256]⟩

abbrev nBuf : Space → Nat
  | .hbm => 9
  | .vmem => 6
  | .smem => 0
  | _ => 0

abbrev bufTy : (tb : Table) → Fin (tcTables nBuf tb) → BufTy
  | .hbm, ⟨0, _⟩ => ⟨S2x256x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1x1, .f32⟩
  | .hbm, ⟨7, _⟩ => ⟨S1x256, .f32⟩
  | .hbm, ⟨8, _⟩ => ⟨S2x256x256, .f32⟩
  | .local _ .vmem, ⟨0, _⟩ => ⟨S2x256x256, .f32⟩
  | .local _ .vmem, ⟨1, _⟩ => ⟨S512x256, .f32⟩
  | .local _ .vmem, ⟨2, _⟩ => ⟨S256x1, .f32⟩
  | .local _ .vmem, ⟨3, _⟩ => ⟨S1x256, .f32⟩
  | .local _ .vmem, ⟨4, _⟩ => ⟨S1x1, .f32⟩
  | .local _ .vmem, ⟨5, _⟩ => ⟨S2x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class K0.Facts₀ : Prop where
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S2x256x256.size a
  hwx0_0 : ∀ i : grid0.Coords, EltTy.bits .f32 = 32 ∨ (Rect.block (s := S2x256x256) S2x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x256x256.size a ≤ S2x256x256.size a
  hwx0_5 : ∀ i : grid0.Coords, EltTy.bits .f32 = 32 ∨ (Rect.block (s := S2x256x256) S2x256x256.size (cc0_transform_5 i) (hinb0_5 i)).WholeWords (EltTy.packing .f32)

class Shapes1.Facts₀ : Prop where
  shapeCasts_S256_S256x1 : S256.ShapeCasts S256x1
  shapeCasts_S1_S1x1 : S1.ShapeCasts S1x1
  shapeCasts_S256x1_S1x256 : S256x1.ShapeCasts S1x256
  inb_S512x256_S256x256_0_0 : ∀ a, (![0, 0] : Fin 2 → Nat) a + S256x256.size a ≤ S512x256.size a
  h_S256x256 : 0 < S256x256.numel
  bitsLt_bf16_f32 : FTy.bits .bf16 < FTy.bits .f32
  inb_S512x256_S256x256_256_0 : ∀ a, (![256, 0] : Fin 2 → Nat) a + S256x256.size a ≤ S512x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  natLt_1_32 : 1 < 32
  slices_S256x256_o0_0_S256x1 : S256x256.Slices ![0, 0] S256x1
  slices_S256x256_o0_0_S1x256 : S256x256.Slices ![0, 0] S1x256
  inb_S2x256x256_S1x1x256_0_0_0 : ∀ a, (![0, 0, 0] : Fin 3 → Nat) a + S1x1x256.size a ≤ S2x256x256.size a
  h_S1x1x256 : 0 < S1x1x256.numel
  shapeCasts_S1x1x256_S1x256 : S1x1x256.ShapeCasts S1x256
  shapeCasts_S1x256_S1x1x256 : S1x256.ShapeCasts S1x1x256
  slices_S256x256_o0_1_S256x1 : S256x256.Slices ![0, 1] S256x1
  slices_S256x256_o1_0_S1x256 : S256x256.Slices ![1, 0] S1x256
  inb_S2x256x256_S1x1x256_0_1_0 : ∀ a, (![0, 1, 0] : Fin 3 → Nat) a + S1x1x256.size a ≤ S2x256x256.size a
  slices_S256x256_o0_2_S256x1 : S256x256.Slices ![0, 2] S256x1
  slices_S256x256_o2_0_S1x256 : S256x256.Slices ![2, 0] S1x256
  inb_S2x256x256_S1x1x256_0_2_0 : ∀ a, (![0, 2, 0] : Fin 3 → Nat) a + S1x1x256.size a ≤ S2x256x256.size a
  slices_S256x256_o0_3_S256x1 : S256x256.Slices ![0, 3] S256x1
  slices_S256x256_o3_0_S1x256 : S256x256.Slices ![3, 0] S1x256
  inb_S2x256x256_S1x1x256_0_3_0 : ∀ a, (![0, 3, 0] : Fin 3 → Nat) a + S1x1x256.size a ≤ S2x256x256.size a
  slices_S256x256_o0_4_S256x1 : S256x256.Slices ![0, 4] S256x1
  slices_S256x256_o4_0_S1x256 : S256x256.Slices ![4, 0] S1x256
  inb_S2x256x256_S1x1x256_0_4_0 : ∀ a, (![0, 4, 0] : Fin 3 → Nat) a + S1x1x256.size a ≤ S2x256x256.size a
  slices_S256x256_o0_5_S256x1 : S256x256.Slices ![0, 5] S256x1
  slices_S256x256_o5_0_S1x256 : S256x256.Slices ![5, 0] S1x256
  inb_S2x256x256_S1x1x256_0_5_0 : ∀ a, (![0, 5, 0] : Fin 3 → Nat) a + S1x1x256.size a ≤ S2x256x256.size a
  slices_S256x256_o0_6_S256x1 : S256x256.Slices ![0, 6] S256x1
  slices_S256x256_o6_0_S1x256 : S256x256.Slices ![6, 0] S1x256
  inb_S2x256x256_S1x1x256_0_6_0 : ∀ a, (![0, 6, 0] : Fin 3 → Nat) a + S1x1x256.size a ≤ S2x256x256.size a
  slices_S256x256_o0_7_S256x1 : S256x256.Slices ![0, 7] S256x1
  slices_S256x256_o7_0_S1x256 : S256x256.Slices ![7, 0] S1x256
  inb_S2x256x256_S1x1x256_0_7_0 : ∀ a, (![0, 7, 0] : Fin 3 → Nat) a + S1x1x256.size a ≤ S2x256x256.size a
  slices_S256x256_o0_8_S256x1 : S256x256.Slices ![0, 8] S256x1
  slices_S256x256_o8_0_S1x256 : S256x256.Slices ![8, 0] S1x256
  inb_S2x256x256_S1x1x256_0_8_0 : ∀ a, (![0, 8, 0] : Fin 3 → Nat) a + S1x1x256.size a ≤ S2x256x256.size a
  slices_S256x256_o0_9_S256x1 : S256x256.Slices ![0, 9] S256x1
  slices_S256x256_o9_0_S1x256 : S256x256.Slices ![9, 0] S1x256
  inb_S2x256x256_S1x1x256_0_9_0 : ∀ a, (![0, 9, 0] : Fin 3 → Nat) a + S1x1x256.size a ≤ S2x256x256.size a
  slices_S256x256_o0_10_S256x1 : S256x256.Slices ![0, 10] S256x1
  slices_S256x256_o10_0_S1x256 : S256x256.Slices ![10, 0] S1x256
  inb_S2x256x256_S1x1x256_0_10_0 : ∀ a, (![0, 10, 0] : Fin 3 → Nat) a + S1x1x256.size a ≤ S2x256x256.size a
  slices_S256x256_o0_11_S256x1 : S256x256.Slices ![0, 11] S256x1
  slices_S256x256_o11_0_S1x256 : S256x256.Slices ![11, 0] S1x256
  inb_S2x256x256_S1x1x256_0_11_0 : ∀ a, (![0, 11, 0] : Fin 3 → Nat) a + S1x1x256.size a ≤ S2x256x256.size a
  slices_S256x256_o0_12_S256x1 : S256x256.Slices ![0, 12] S256x1
  slices_S256x256_o12_0_S1x256 : S256x256.Slices ![12, 0] S1x256
  inb_S2x256x256_S1x1x256_0_12_0 : ∀ a, (![0, 12, 0] : Fin 3 → Nat) a + S1x1x256.size a ≤ S2x256x256.size a
  slices_S256x256_o0_13_S256x1 : S256x256.Slices ![0, 13] S256x1
  slices_S256x256_o13_0_S1x256 : S256x256.Slices ![13, 0] S1x256
  inb_S2x256x256_S1x1x256_0_13_0 : ∀ a, (![0, 13, 0] : Fin 3 → Nat) a + S1x1x256.size a ≤ S2x256x256.size a
  slices_S256x256_o0_14_S256x1 : S256x256.Slices ![0, 14] S256x1
  slices_S256x256_o14_0_S1x256 : S256x256.Slices ![14, 0] S1x256
  inb_S2x256x256_S1x1x256_0_14_0 : ∀ a, (![0, 14, 0] : Fin 3 → Nat) a + S1x1x256.size a ≤ S2x256x256.size a
  slices_S256x256_o0_15_S256x1 : S256x256.Slices ![0, 15] S256x1
  slices_S256x256_o15_0_S1x256 : S256x256.Slices ![15, 0] S1x256
  inb_S2x256x256_S1x1x256_0_15_0 : ∀ a, (![0, 15, 0] : Fin 3 → Nat) a + S1x1x256.size a ≤ S2x256x256.size a
  slices_S256x256_o0_16_S256x1 : S256x256.Slices ![0, 16] S256x1
  slices_S256x256_o16_0_S1x256 : S256x256.Slices ![16, 0] S1x256
  inb_S2x256x256_S1x1x256_0_16_0 : ∀ a, (![0, 16, 0] : Fin 3 → Nat) a + S1x1x256.size a ≤ S2x256x256.size a
  slices_S256x256_o0_17_S256x1 : S256x256.Slices ![0, 17] S256x1
  slices_S256x256_o17_0_S1x256 : S256x256.Slices ![17, 0] S1x256
  inb_S2x256x256_S1x1x256_0_17_0 : ∀ a, (![0, 17, 0] : Fin 3 → Nat) a + S1x1x256.size a ≤ S2x256x256.size a
  slices_S256x256_o0_18_S256x1 : S256x256.Slices ![0, 18] S256x1
  slices_S256x256_o18_0_S1x256 : S256x256.Slices ![18, 0] S1x256
  inb_S2x256x256_S1x1x256_0_18_0 : ∀ a, (![0, 18, 0] : Fin 3 → Nat) a + S1x1x256.size a ≤ S2x256x256.size a
  slices_S256x256_o0_19_S256x1 : S256x256.Slices ![0, 19] S256x1
  slices_S256x256_o19_0_S1x256 : S256x256.Slices ![19, 0] S1x256
  inb_S2x256x256_S1x1x256_0_19_0 : ∀ a, (![0, 19, 0] : Fin 3 → Nat) a + S1x1x256.size a ≤ S2x256x256.size a
  slices_S256x256_o0_20_S256x1 : S256x256.Slices ![0, 20] S256x1
  slices_S256x256_o20_0_S1x256 : S256x256.Slices ![20, 0] S1x256
  inb_S2x256x256_S1x1x256_0_20_0 : ∀ a, (![0, 20, 0] : Fin 3 → Nat) a + S1x1x256.size a ≤ S2x256x256.size a
  slices_S256x256_o0_21_S256x1 : S256x256.Slices ![0, 21] S256x1
  slices_S256x256_o21_0_S1x256 : S256x256.Slices ![21, 0] S1x256
  inb_S2x256x256_S1x1x256_0_21_0 : ∀ a, (![0, 21, 0] : Fin 3 → Nat) a + S1x1x256.size a ≤ S2x256x256.size a
  slices_S256x256_o0_22_S256x1 : S256x256.Slices ![0, 22] S256x1
  slices_S256x256_o22_0_S1x256 : S256x256.Slices ![22, 0] S1x256
  inb_S2x256x256_S1x1x256_0_22_0 : ∀ a, (![0, 22, 0] : Fin 3 → Nat) a + S1x1x256.size a ≤ S2x256x256.size a
  slices_S256x256_o0_23_S256x1 : S256x256.Slices ![0, 23] S256x1
  slices_S256x256_o23_0_S1x256 : S256x256.Slices ![23, 0] S1x256
  inb_S2x256x256_S1x1x256_0_23_0 : ∀ a, (![0, 23, 0] : Fin 3 → Nat) a + S1x1x256.size a ≤ S2x256x256.size a
  slices_S256x256_o0_24_S256x1 : S256x256.Slices ![0, 24] S256x1
  slices_S256x256_o24_0_S1x256 : S256x256.Slices ![24, 0] S1x256
  inb_S2x256x256_S1x1x256_0_24_0 : ∀ a, (![0, 24, 0] : Fin 3 → Nat) a + S1x1x256.size a ≤ S2x256x256.size a
  slices_S256x256_o0_25_S256x1 : S256x256.Slices ![0, 25] S256x1
  slices_S256x256_o25_0_S1x256 : S256x256.Slices ![25, 0] S1x256
  inb_S2x256x256_S1x1x256_0_25_0 : ∀ a, (![0, 25, 0] : Fin 3 → Nat) a + S1x1x256.size a ≤ S2x256x256.size a
  slices_S256x256_o0_26_S256x1 : S256x256.Slices ![0, 26] S256x1
  slices_S256x256_o26_0_S1x256 : S256x256.Slices ![26, 0] S1x256
  inb_S2x256x256_S1x1x256_0_26_0 : ∀ a, (![0, 26, 0] : Fin 3 → Nat) a + S1x1x256.size a ≤ S2x256x256.size a
  slices_S256x256_o0_27_S256x1 : S256x256.Slices ![0, 27] S256x1
  slices_S256x256_o27_0_S1x256 : S256x256.Slices ![27, 0] S1x256
  inb_S2x256x256_S1x1x256_0_27_0 : ∀ a, (![0, 27, 0] : Fin 3 → Nat) a + S1x1x256.size a ≤ S2x256x256.size a
  slices_S256x256_o0_28_S256x1 : S256x256.Slices ![0, 28] S256x1
  slices_S256x256_o28_0_S1x256 : S256x256.Slices ![28, 0] S1x256
  inb_S2x256x256_S1x1x256_0_28_0 : ∀ a, (![0, 28, 0] : Fin 3 → Nat) a + S1x1x256.size a ≤ S2x256x256.size a
  slices_S256x256_o0_29_S256x1 : S256x256.Slices ![0, 29] S256x1
  slices_S256x256_o29_0_S1x256 : S256x256.Slices ![29, 0] S1x256
  inb_S2x256x256_S1x1x256_0_29_0 : ∀ a, (![0, 29, 0] : Fin 3 → Nat) a + S1x1x256.size a ≤ S2x256x256.size a
  slices_S256x256_o0_30_S256x1 : S256x256.Slices ![0, 30] S256x1
  slices_S256x256_o30_0_S1x256 : S256x256.Slices ![30, 0] S1x256
  inb_S2x256x256_S1x1x256_0_30_0 : ∀ a, (![0, 30, 0] : Fin 3 → Nat) a + S1x1x256.size a ≤ S2x256x256.size a
  slices_S256x256_o0_31_S256x1 : S256x256.Slices ![0, 31] S256x1
  slices_S256x256_o31_0_S1x256 : S256x256.Slices ![31, 0] S1x256
  inb_S2x256x256_S1x1x256_0_31_0 : ∀ a, (![0, 31, 0] : Fin 3 → Nat) a + S1x1x256.size a ≤ S2x256x256.size a
  slices_S256x256_o0_32_S256x1 : S256x256.Slices ![0, 32] S256x1
  slices_S256x256_o32_0_S1x256 : S256x256.Slices ![32, 0] S1x256
  inb_S2x256x256_S1x1x256_0_32_0 : ∀ a, (![0, 32, 0] : Fin 3 → Nat) a + S1x1x256.size a ≤ S2x256x256.size a
  slices_S256x256_o0_33_S256x1 : S256x256.Slices ![0, 33] S256x1
  slices_S256x256_o33_0_S1x256 : S256x256.Slices ![33, 0] S1x256
  inb_S2x256x256_S1x1x256_0_33_0 : ∀ a, (![0, 33, 0] : Fin 3 → Nat) a + S1x1x256.size a ≤ S2x256x256.size a
  slices_S256x256_o0_34_S256x1 : S256x256.Slices ![0, 34] S256x1
  slices_S256x256_o34_0_S1x256 : S256x256.Slices ![34, 0] S1x256
  inb_S2x256x256_S1x1x256_0_34_0 : ∀ a, (![0, 34, 0] : Fin 3 → Nat) a + S1x1x256.size a ≤ S2x256x256.size a
  slices_S256x256_o0_35_S256x1 : S256x256.Slices ![0, 35] S256x1
  slices_S256x256_o35_0_S1x256 : S256x256.Slices ![35, 0] S1x256
  inb_S2x256x256_S1x1x256_0_35_0 : ∀ a, (![0, 35, 0] : Fin 3 → Nat) a + S1x1x256.size a ≤ S2x256x256.size a
  slices_S256x256_o0_36_S256x1 : S256x256.Slices ![0, 36] S256x1
  slices_S256x256_o36_0_S1x256 : S256x256.Slices ![36, 0] S1x256
  inb_S2x256x256_S1x1x256_0_36_0 : ∀ a, (![0, 36, 0] : Fin 3 → Nat) a + S1x1x256.size a ≤ S2x256x256.size a
  slices_S256x256_o0_37_S256x1 : S256x256.Slices ![0, 37] S256x1
  slices_S256x256_o37_0_S1x256 : S256x256.Slices ![37, 0] S1x256
  inb_S2x256x256_S1x1x256_0_37_0 : ∀ a, (![0, 37, 0] : Fin 3 → Nat) a + S1x1x256.size a ≤ S2x256x256.size a
  slices_S256x256_o0_38_S256x1 : S256x256.Slices ![0, 38] S256x1
  slices_S256x256_o38_0_S1x256 : S256x256.Slices ![38, 0] S1x256
  inb_S2x256x256_S1x1x256_0_38_0 : ∀ a, (![0, 38, 0] : Fin 3 → Nat) a + S1x1x256.size a ≤ S2x256x256.size a
  slices_S256x256_o0_39_S256x1 : S256x256.Slices ![0, 39] S256x1
  slices_S256x256_o39_0_S1x256 : S256x256.Slices ![39, 0] S1x256
  inb_S2x256x256_S1x1x256_0_39_0 : ∀ a, (![0, 39, 0] : Fin 3 → Nat) a + S1x1x256.size a ≤ S2x256x256.size a
  slices_S256x256_o0_40_S256x1 : S256x256.Slices ![0, 40] S256x1
  slices_S256x256_o40_0_S1x256 : S256x256.Slices ![40, 0] S1x256
  inb_S2x256x256_S1x1x256_0_40_0 : ∀ a, (![0, 40, 0] : Fin 3 → Nat) a + S1x1x256.size a ≤ S2x256x256.size a
  slices_S256x256_o0_41_S256x1 : S256x256.Slices ![0, 41] S256x1
  slices_S256x256_o41_0_S1x256 : S256x256.Slices ![41, 0] S1x256
  inb_S2x256x256_S1x1x256_0_41_0 : ∀ a, (![0, 41, 0] : Fin 3 → Nat) a + S1x1x256.size a ≤ S2x256x256.size a
  slices_S256x256_o0_42_S256x1 : S256x256.Slices ![0, 42] S256x1
  slices_S256x256_o42_0_S1x256 : S256x256.Slices ![42, 0] S1x256
  inb_S2x256x256_S1x1x256_0_42_0 : ∀ a, (![0, 42, 0] : Fin 3 → Nat) a + S1x1x256.size a ≤ S2x256x256.size a
  slices_S256x256_o0_43_S256x1 : S256x256.Slices ![0, 43] S256x1
  slices_S256x256_o43_0_S1x256 : S256x256.Slices ![43, 0] S1x256
  inb_S2x256x256_S1x1x256_0_43_0 : ∀ a, (![0, 43, 0] : Fin 3 → Nat) a + S1x1x256.size a ≤ S2x256x256.size a
  slices_S256x256_o0_44_S256x1 : S256x256.Slices ![0, 44] S256x1
  slices_S256x256_o44_0_S1x256 : S256x256.Slices ![44, 0] S1x256
  inb_S2x256x256_S1x1x256_0_44_0 : ∀ a, (![0, 44, 0] : Fin 3 → Nat) a + S1x1x256.size a ≤ S2x256x256.size a
  slices_S256x256_o0_45_S256x1 : S256x256.Slices ![0, 45] S256x1
  slices_S256x256_o45_0_S1x256 : S256x256.Slices ![45, 0] S1x256
  inb_S2x256x256_S1x1x256_0_45_0 : ∀ a, (![0, 45, 0] : Fin 3 → Nat) a + S1x1x256.size a ≤ S2x256x256.size a
  slices_S256x256_o0_46_S256x1 : S256x256.Slices ![0, 46] S256x1
  slices_S256x256_o46_0_S1x256 : S256x256.Slices ![46, 0] S1x256
  inb_S2x256x256_S1x1x256_0_46_0 : ∀ a, (![0, 46, 0] : Fin 3 → Nat) a + S1x1x256.size a ≤ S2x256x256.size a
  slices_S256x256_o0_47_S256x1 : S256x256.Slices ![0, 47] S256x1
  slices_S256x256_o47_0_S1x256 : S256x256.Slices ![47, 0] S1x256
  inb_S2x256x256_S1x1x256_0_47_0 : ∀ a, (![0, 47, 0] : Fin 3 → Nat) a + S1x1x256.size a ≤ S2x256x256.size a
  slices_S256x256_o0_48_S256x1 : S256x256.Slices ![0, 48] S256x1
  slices_S256x256_o48_0_S1x256 : S256x256.Slices ![48, 0] S1x256
  inb_S2x256x256_S1x1x256_0_48_0 : ∀ a, (![0, 48, 0] : Fin 3 → Nat) a + S1x1x256.size a ≤ S2x256x256.size a
  slices_S256x256_o0_49_S256x1 : S256x256.Slices ![0, 49] S256x1
  slices_S256x256_o49_0_S1x256 : S256x256.Slices ![49, 0] S1x256
  inb_S2x256x256_S1x1x256_0_49_0 : ∀ a, (![0, 49, 0] : Fin 3 → Nat) a + S1x1x256.size a ≤ S2x256x256.size a
  slices_S256x256_o0_50_S256x1 : S256x256.Slices ![0, 50] S256x1
  slices_S256x256_o50_0_S1x256 : S256x256.Slices ![50, 0] S1x256
  inb_S2x256x256_S1x1x256_0_50_0 : ∀ a, (![0, 50, 0] : Fin 3 → Nat) a + S1x1x256.size a ≤ S2x256x256.size a
  slices_S256x256_o0_51_S256x1 : S256x256.Slices ![0, 51] S256x1
  slices_S256x256_o51_0_S1x256 : S256x256.Slices ![51, 0] S1x256
  inb_S2x256x256_S1x1x256_0_51_0 : ∀ a, (![0, 51, 0] : Fin 3 → Nat) a + S1x1x256.size a ≤ S2x256x256.size a
  slices_S256x256_o0_52_S256x1 : S256x256.Slices ![0, 52] S256x1
  slices_S256x256_o52_0_S1x256 : S256x256.Slices ![52, 0] S1x256
  inb_S2x256x256_S1x1x256_0_52_0 : ∀ a, (![0, 52, 0] : Fin 3 → Nat) a + S1x1x256.size a ≤ S2x256x256.size a
  slices_S256x256_o0_53_S256x1 : S256x256.Slices ![0, 53] S256x1
  slices_S256x256_o53_0_S1x256 : S256x256.Slices ![53, 0] S1x256
  inb_S2x256x256_S1x1x256_0_53_0 : ∀ a, (![0, 53, 0] : Fin 3 → Nat) a + S1x1x256.size a ≤ S2x256x256.size a
  slices_S256x256_o0_54_S256x1 : S256x256.Slices ![0, 54] S256x1
  slices_S256x256_o54_0_S1x256 : S256x256.Slices ![54, 0] S1x256
  inb_S2x256x256_S1x1x256_0_54_0 : ∀ a, (![0, 54, 0] : Fin 3 → Nat) a + S1x1x256.size a ≤ S2x256x256.size a
  slices_S256x256_o0_55_S256x1 : S256x256.Slices ![0, 55] S256x1
  slices_S256x256_o55_0_S1x256 : S256x256.Slices ![55, 0] S1x256
  inb_S2x256x256_S1x1x256_0_55_0 : ∀ a, (![0, 55, 0] : Fin 3 → Nat) a + S1x1x256.size a ≤ S2x256x256.size a
  slices_S256x256_o0_56_S256x1 : S256x256.Slices ![0, 56] S256x1
  slices_S256x256_o56_0_S1x256 : S256x256.Slices ![56, 0] S1x256
  inb_S2x256x256_S1x1x256_0_56_0 : ∀ a, (![0, 56, 0] : Fin 3 → Nat) a + S1x1x256.size a ≤ S2x256x256.size a
  slices_S256x256_o0_57_S256x1 : S256x256.Slices ![0, 57] S256x1
  slices_S256x256_o57_0_S1x256 : S256x256.Slices ![57, 0] S1x256
  inb_S2x256x256_S1x1x256_0_57_0 : ∀ a, (![0, 57, 0] : Fin 3 → Nat) a + S1x1x256.size a ≤ S2x256x256.size a
  slices_S256x256_o0_58_S256x1 : S256x256.Slices ![0, 58] S256x1
  slices_S256x256_o58_0_S1x256 : S256x256.Slices ![58, 0] S1x256
  inb_S2x256x256_S1x1x256_0_58_0 : ∀ a, (![0, 58, 0] : Fin 3 → Nat) a + S1x1x256.size a ≤ S2x256x256.size a
  slices_S256x256_o0_59_S256x1 : S256x256.Slices ![0, 59] S256x1
  slices_S256x256_o59_0_S1x256 : S256x256.Slices ![59, 0] S1x256
  inb_S2x256x256_S1x1x256_0_59_0 : ∀ a, (![0, 59, 0] : Fin 3 → Nat) a + S1x1x256.size a ≤ S2x256x256.size a
  slices_S256x256_o0_60_S256x1 : S256x256.Slices ![0, 60] S256x1
  slices_S256x256_o60_0_S1x256 : S256x256.Slices ![60, 0] S1x256
  inb_S2x256x256_S1x1x256_0_60_0 : ∀ a, (![0, 60, 0] : Fin 3 → Nat) a + S1x1x256.size a ≤ S2x256x256.size a
  slices_S256x256_o0_61_S256x1 : S256x256.Slices ![0, 61] S256x1
  slices_S256x256_o61_0_S1x256 : S256x256.Slices ![61, 0] S1x256
  inb_S2x256x256_S1x1x256_0_61_0 : ∀ a, (![0, 61, 0] : Fin 3 → Nat) a + S1x1x256.size a ≤ S2x256x256.size a
  slices_S256x256_o0_62_S256x1 : S256x256.Slices ![0, 62] S256x1
  slices_S256x256_o62_0_S1x256 : S256x256.Slices ![62, 0] S1x256
  inb_S2x256x256_S1x1x256_0_62_0 : ∀ a, (![0, 62, 0] : Fin 3 → Nat) a + S1x1x256.size a ≤ S2x256x256.size a
  slices_S256x256_o0_63_S256x1 : S256x256.Slices ![0, 63] S256x1
  slices_S256x256_o63_0_S1x256 : S256x256.Slices ![63, 0] S1x256
  inb_S2x256x256_S1x1x256_0_63_0 : ∀ a, (![0, 63, 0] : Fin 3 → Nat) a + S1x1x256.size a ≤ S2x256x256.size a
  slices_S256x256_o0_64_S256x1 : S256x256.Slices ![0, 64] S256x1
  slices_S256x256_o64_0_S1x256 : S256x256.Slices ![64, 0] S1x256
  inb_S2x256x256_S1x1x256_0_64_0 : ∀ a, (![0, 64, 0] : Fin 3 → Nat) a + S1x1x256.size a ≤ S2x256x256.size a
  slices_S256x256_o0_65_S256x1 : S256x256.Slices ![0, 65] S256x1
  slices_S256x256_o65_0_S1x256 : S256x256.Slices ![65, 0] S1x256
  inb_S2x256x256_S1x1x256_0_65_0 : ∀ a, (![0, 65, 0] : Fin 3 → Nat) a + S1x1x256.size a ≤ S2x256x256.size a
  slices_S256x256_o0_66_S256x1 : S256x256.Slices ![0, 66] S256x1
  slices_S256x256_o66_0_S1x256 : S256x256.Slices ![66, 0] S1x256
  inb_S2x256x256_S1x1x256_0_66_0 : ∀ a, (![0, 66, 0] : Fin 3 → Nat) a + S1x1x256.size a ≤ S2x256x256.size a
  slices_S256x256_o0_67_S256x1 : S256x256.Slices ![0, 67] S256x1
  slices_S256x256_o67_0_S1x256 : S256x256.Slices ![67, 0] S1x256
  inb_S2x256x256_S1x1x256_0_67_0 : ∀ a, (![0, 67, 0] : Fin 3 → Nat) a + S1x1x256.size a ≤ S2x256x256.size a
  slices_S256x256_o0_68_S256x1 : S256x256.Slices ![0, 68] S256x1
  slices_S256x256_o68_0_S1x256 : S256x256.Slices ![68, 0] S1x256
  inb_S2x256x256_S1x1x256_0_68_0 : ∀ a, (![0, 68, 0] : Fin 3 → Nat) a + S1x1x256.size a ≤ S2x256x256.size a
  slices_S256x256_o0_69_S256x1 : S256x256.Slices ![0, 69] S256x1
  slices_S256x256_o69_0_S1x256 : S256x256.Slices ![69, 0] S1x256
  inb_S2x256x256_S1x1x256_0_69_0 : ∀ a, (![0, 69, 0] : Fin 3 → Nat) a + S1x1x256.size a ≤ S2x256x256.size a
  slices_S256x256_o0_70_S256x1 : S256x256.Slices ![0, 70] S256x1
  slices_S256x256_o70_0_S1x256 : S256x256.Slices ![70, 0] S1x256
  inb_S2x256x256_S1x1x256_0_70_0 : ∀ a, (![0, 70, 0] : Fin 3 → Nat) a + S1x1x256.size a ≤ S2x256x256.size a
  slices_S256x256_o0_71_S256x1 : S256x256.Slices ![0, 71] S256x1
  slices_S256x256_o71_0_S1x256 : S256x256.Slices ![71, 0] S1x256
  inb_S2x256x256_S1x1x256_0_71_0 : ∀ a, (![0, 71, 0] : Fin 3 → Nat) a + S1x1x256.size a ≤ S2x256x256.size a
  slices_S256x256_o0_72_S256x1 : S256x256.Slices ![0, 72] S256x1
  slices_S256x256_o72_0_S1x256 : S256x256.Slices ![72, 0] S1x256
  inb_S2x256x256_S1x1x256_0_72_0 : ∀ a, (![0, 72, 0] : Fin 3 → Nat) a + S1x1x256.size a ≤ S2x256x256.size a
  slices_S256x256_o0_73_S256x1 : S256x256.Slices ![0, 73] S256x1
  slices_S256x256_o73_0_S1x256 : S256x256.Slices ![73, 0] S1x256
  inb_S2x256x256_S1x1x256_0_73_0 : ∀ a, (![0, 73, 0] : Fin 3 → Nat) a + S1x1x256.size a ≤ S2x256x256.size a
  slices_S256x256_o0_74_S256x1 : S256x256.Slices ![0, 74] S256x1
  slices_S256x256_o74_0_S1x256 : S256x256.Slices ![74, 0] S1x256
  inb_S2x256x256_S1x1x256_0_74_0 : ∀ a, (![0, 74, 0] : Fin 3 → Nat) a + S1x1x256.size a ≤ S2x256x256.size a
  slices_S256x256_o0_75_S256x1 : S256x256.Slices ![0, 75] S256x1
  slices_S256x256_o75_0_S1x256 : S256x256.Slices ![75, 0] S1x256
  inb_S2x256x256_S1x1x256_0_75_0 : ∀ a, (![0, 75, 0] : Fin 3 → Nat) a + S1x1x256.size a ≤ S2x256x256.size a
  slices_S256x256_o0_76_S256x1 : S256x256.Slices ![0, 76] S256x1
  slices_S256x256_o76_0_S1x256 : S256x256.Slices ![76, 0] S1x256
  inb_S2x256x256_S1x1x256_0_76_0 : ∀ a, (![0, 76, 0] : Fin 3 → Nat) a + S1x1x256.size a ≤ S2x256x256.size a
  slices_S256x256_o0_77_S256x1 : S256x256.Slices ![0, 77] S256x1
  slices_S256x256_o77_0_S1x256 : S256x256.Slices ![77, 0] S1x256
  inb_S2x256x256_S1x1x256_0_77_0 : ∀ a, (![0, 77, 0] : Fin 3 → Nat) a + S1x1x256.size a ≤ S2x256x256.size a
  slices_S256x256_o0_78_S256x1 : S256x256.Slices ![0, 78] S256x1
  slices_S256x256_o78_0_S1x256 : S256x256.Slices ![78, 0] S1x256
  inb_S2x256x256_S1x1x256_0_78_0 : ∀ a, (![0, 78, 0] : Fin 3 → Nat) a + S1x1x256.size a ≤ S2x256x256.size a
  slices_S256x256_o0_79_S256x1 : S256x256.Slices ![0, 79] S256x1
  slices_S256x256_o79_0_S1x256 : S256x256.Slices ![79, 0] S1x256
  inb_S2x256x256_S1x1x256_0_79_0 : ∀ a, (![0, 79, 0] : Fin 3 → Nat) a + S1x1x256.size a ≤ S2x256x256.size a
  slices_S256x256_o0_80_S256x1 : S256x256.Slices ![0, 80] S256x1
  slices_S256x256_o80_0_S1x256 : S256x256.Slices ![80, 0] S1x256
  inb_S2x256x256_S1x1x256_0_80_0 : ∀ a, (![0, 80, 0] : Fin 3 → Nat) a + S1x1x256.size a ≤ S2x256x256.size a
  slices_S256x256_o0_81_S256x1 : S256x256.Slices ![0, 81] S256x1
  slices_S256x256_o81_0_S1x256 : S256x256.Slices ![81, 0] S1x256
  inb_S2x256x256_S1x1x256_0_81_0 : ∀ a, (![0, 81, 0] : Fin 3 → Nat) a + S1x1x256.size a ≤ S2x256x256.size a
  slices_S256x256_o0_82_S256x1 : S256x256.Slices ![0, 82] S256x1
  slices_S256x256_o82_0_S1x256 : S256x256.Slices ![82, 0] S1x256
  inb_S2x256x256_S1x1x256_0_82_0 : ∀ a, (![0, 82, 0] : Fin 3 → Nat) a + S1x1x256.size a ≤ S2x256x256.size a
  slices_S256x256_o0_83_S256x1 : S256x256.Slices ![0, 83] S256x1
  slices_S256x256_o83_0_S1x256 : S256x256.Slices ![83, 0] S1x256
  inb_S2x256x256_S1x1x256_0_83_0 : ∀ a, (![0, 83, 0] : Fin 3 → Nat) a + S1x1x256.size a ≤ S2x256x256.size a
  slices_S256x256_o0_84_S256x1 : S256x256.Slices ![0, 84] S256x1
  slices_S256x256_o84_0_S1x256 : S256x256.Slices ![84, 0] S1x256
  inb_S2x256x256_S1x1x256_0_84_0 : ∀ a, (![0, 84, 0] : Fin 3 → Nat) a + S1x1x256.size a ≤ S2x256x256.size a
  slices_S256x256_o0_85_S256x1 : S256x256.Slices ![0, 85] S256x1
  slices_S256x256_o85_0_S1x256 : S256x256.Slices ![85, 0] S1x256
  inb_S2x256x256_S1x1x256_0_85_0 : ∀ a, (![0, 85, 0] : Fin 3 → Nat) a + S1x1x256.size a ≤ S2x256x256.size a
  slices_S256x256_o0_86_S256x1 : S256x256.Slices ![0, 86] S256x1
  slices_S256x256_o86_0_S1x256 : S256x256.Slices ![86, 0] S1x256
  inb_S2x256x256_S1x1x256_0_86_0 : ∀ a, (![0, 86, 0] : Fin 3 → Nat) a + S1x1x256.size a ≤ S2x256x256.size a
  slices_S256x256_o0_87_S256x1 : S256x256.Slices ![0, 87] S256x1
  slices_S256x256_o87_0_S1x256 : S256x256.Slices ![87, 0] S1x256
  inb_S2x256x256_S1x1x256_0_87_0 : ∀ a, (![0, 87, 0] : Fin 3 → Nat) a + S1x1x256.size a ≤ S2x256x256.size a
  slices_S256x256_o0_88_S256x1 : S256x256.Slices ![0, 88] S256x1
  slices_S256x256_o88_0_S1x256 : S256x256.Slices ![88, 0] S1x256
  inb_S2x256x256_S1x1x256_0_88_0 : ∀ a, (![0, 88, 0] : Fin 3 → Nat) a + S1x1x256.size a ≤ S2x256x256.size a
  slices_S256x256_o0_89_S256x1 : S256x256.Slices ![0, 89] S256x1
  slices_S256x256_o89_0_S1x256 : S256x256.Slices ![89, 0] S1x256
  inb_S2x256x256_S1x1x256_0_89_0 : ∀ a, (![0, 89, 0] : Fin 3 → Nat) a + S1x1x256.size a ≤ S2x256x256.size a
  slices_S256x256_o0_90_S256x1 : S256x256.Slices ![0, 90] S256x1
  slices_S256x256_o90_0_S1x256 : S256x256.Slices ![90, 0] S1x256
  inb_S2x256x256_S1x1x256_0_90_0 : ∀ a, (![0, 90, 0] : Fin 3 → Nat) a + S1x1x256.size a ≤ S2x256x256.size a
  slices_S256x256_o0_91_S256x1 : S256x256.Slices ![0, 91] S256x1
  slices_S256x256_o91_0_S1x256 : S256x256.Slices ![91, 0] S1x256
  inb_S2x256x256_S1x1x256_0_91_0 : ∀ a, (![0, 91, 0] : Fin 3 → Nat) a + S1x1x256.size a ≤ S2x256x256.size a
  slices_S256x256_o0_92_S256x1 : S256x256.Slices ![0, 92] S256x1
  slices_S256x256_o92_0_S1x256 : S256x256.Slices ![92, 0] S1x256
  inb_S2x256x256_S1x1x256_0_92_0 : ∀ a, (![0, 92, 0] : Fin 3 → Nat) a + S1x1x256.size a ≤ S2x256x256.size a
  slices_S256x256_o0_93_S256x1 : S256x256.Slices ![0, 93] S256x1
  slices_S256x256_o93_0_S1x256 : S256x256.Slices ![93, 0] S1x256
  inb_S2x256x256_S1x1x256_0_93_0 : ∀ a, (![0, 93, 0] : Fin 3 → Nat) a + S1x1x256.size a ≤ S2x256x256.size a
  slices_S256x256_o0_94_S256x1 : S256x256.Slices ![0, 94] S256x1
  slices_S256x256_o94_0_S1x256 : S256x256.Slices ![94, 0] S1x256
  inb_S2x256x256_S1x1x256_0_94_0 : ∀ a, (![0, 94, 0] : Fin 3 → Nat) a + S1x1x256.size a ≤ S2x256x256.size a
  slices_S256x256_o0_95_S256x1 : S256x256.Slices ![0, 95] S256x1
  slices_S256x256_o95_0_S1x256 : S256x256.Slices ![95, 0] S1x256
  inb_S2x256x256_S1x1x256_0_95_0 : ∀ a, (![0, 95, 0] : Fin 3 → Nat) a + S1x1x256.size a ≤ S2x256x256.size a
  slices_S256x256_o0_96_S256x1 : S256x256.Slices ![0, 96] S256x1
  slices_S256x256_o96_0_S1x256 : S256x256.Slices ![96, 0] S1x256
  inb_S2x256x256_S1x1x256_0_96_0 : ∀ a, (![0, 96, 0] : Fin 3 → Nat) a + S1x1x256.size a ≤ S2x256x256.size a
  slices_S256x256_o0_97_S256x1 : S256x256.Slices ![0, 97] S256x1
  slices_S256x256_o97_0_S1x256 : S256x256.Slices ![97, 0] S1x256
  inb_S2x256x256_S1x1x256_0_97_0 : ∀ a, (![0, 97, 0] : Fin 3 → Nat) a + S1x1x256.size a ≤ S2x256x256.size a
  slices_S256x256_o0_98_S256x1 : S256x256.Slices ![0, 98] S256x1
  slices_S256x256_o98_0_S1x256 : S256x256.Slices ![98, 0] S1x256
  inb_S2x256x256_S1x1x256_0_98_0 : ∀ a, (![0, 98, 0] : Fin 3 → Nat) a + S1x1x256.size a ≤ S2x256x256.size a
  slices_S256x256_o0_99_S256x1 : S256x256.Slices ![0, 99] S256x1
  slices_S256x256_o99_0_S1x256 : S256x256.Slices ![99, 0] S1x256
  inb_S2x256x256_S1x1x256_0_99_0 : ∀ a, (![0, 99, 0] : Fin 3 → Nat) a + S1x1x256.size a ≤ S2x256x256.size a
  slices_S256x256_o0_100_S256x1 : S256x256.Slices ![0, 100] S256x1
  slices_S256x256_o100_0_S1x256 : S256x256.Slices ![100, 0] S1x256
  inb_S2x256x256_S1x1x256_0_100_0 : ∀ a, (![0, 100, 0] : Fin 3 → Nat) a + S1x1x256.size a ≤ S2x256x256.size a
  slices_S256x256_o0_101_S256x1 : S256x256.Slices ![0, 101] S256x1
  slices_S256x256_o101_0_S1x256 : S256x256.Slices ![101, 0] S1x256
  inb_S2x256x256_S1x1x256_0_101_0 : ∀ a, (![0, 101, 0] : Fin 3 → Nat) a + S1x1x256.size a ≤ S2x256x256.size a
  slices_S256x256_o0_102_S256x1 : S256x256.Slices ![0, 102] S256x1
  slices_S256x256_o102_0_S1x256 : S256x256.Slices ![102, 0] S1x256
  inb_S2x256x256_S1x1x256_0_102_0 : ∀ a, (![0, 102, 0] : Fin 3 → Nat) a + S1x1x256.size a ≤ S2x256x256.size a
  slices_S256x256_o0_103_S256x1 : S256x256.Slices ![0, 103] S256x1
  slices_S256x256_o103_0_S1x256 : S256x256.Slices ![103, 0] S1x256
  inb_S2x256x256_S1x1x256_0_103_0 : ∀ a, (![0, 103, 0] : Fin 3 → Nat) a + S1x1x256.size a ≤ S2x256x256.size a
  slices_S256x256_o0_104_S256x1 : S256x256.Slices ![0, 104] S256x1
  slices_S256x256_o104_0_S1x256 : S256x256.Slices ![104, 0] S1x256
  inb_S2x256x256_S1x1x256_0_104_0 : ∀ a, (![0, 104, 0] : Fin 3 → Nat) a + S1x1x256.size a ≤ S2x256x256.size a
  slices_S256x256_o0_105_S256x1 : S256x256.Slices ![0, 105] S256x1
  slices_S256x256_o105_0_S1x256 : S256x256.Slices ![105, 0] S1x256
  inb_S2x256x256_S1x1x256_0_105_0 : ∀ a, (![0, 105, 0] : Fin 3 → Nat) a + S1x1x256.size a ≤ S2x256x256.size a
  slices_S256x256_o0_106_S256x1 : S256x256.Slices ![0, 106] S256x1
  slices_S256x256_o106_0_S1x256 : S256x256.Slices ![106, 0] S1x256
  inb_S2x256x256_S1x1x256_0_106_0 : ∀ a, (![0, 106, 0] : Fin 3 → Nat) a + S1x1x256.size a ≤ S2x256x256.size a
  slices_S256x256_o0_107_S256x1 : S256x256.Slices ![0, 107] S256x1
  slices_S256x256_o107_0_S1x256 : S256x256.Slices ![107, 0] S1x256
  inb_S2x256x256_S1x1x256_0_107_0 : ∀ a, (![0, 107, 0] : Fin 3 → Nat) a + S1x1x256.size a ≤ S2x256x256.size a
  slices_S256x256_o0_108_S256x1 : S256x256.Slices ![0, 108] S256x1
  slices_S256x256_o108_0_S1x256 : S256x256.Slices ![108, 0] S1x256
  inb_S2x256x256_S1x1x256_0_108_0 : ∀ a, (![0, 108, 0] : Fin 3 → Nat) a + S1x1x256.size a ≤ S2x256x256.size a
  slices_S256x256_o0_109_S256x1 : S256x256.Slices ![0, 109] S256x1
  slices_S256x256_o109_0_S1x256 : S256x256.Slices ![109, 0] S1x256
  inb_S2x256x256_S1x1x256_0_109_0 : ∀ a, (![0, 109, 0] : Fin 3 → Nat) a + S1x1x256.size a ≤ S2x256x256.size a
  slices_S256x256_o0_110_S256x1 : S256x256.Slices ![0, 110] S256x1
  slices_S256x256_o110_0_S1x256 : S256x256.Slices ![110, 0] S1x256
  inb_S2x256x256_S1x1x256_0_110_0 : ∀ a, (![0, 110, 0] : Fin 3 → Nat) a + S1x1x256.size a ≤ S2x256x256.size a
  slices_S256x256_o0_111_S256x1 : S256x256.Slices ![0, 111] S256x1
  slices_S256x256_o111_0_S1x256 : S256x256.Slices ![111, 0] S1x256
  inb_S2x256x256_S1x1x256_0_111_0 : ∀ a, (![0, 111, 0] : Fin 3 → Nat) a + S1x1x256.size a ≤ S2x256x256.size a
  slices_S256x256_o0_112_S256x1 : S256x256.Slices ![0, 112] S256x1
  slices_S256x256_o112_0_S1x256 : S256x256.Slices ![112, 0] S1x256
  inb_S2x256x256_S1x1x256_0_112_0 : ∀ a, (![0, 112, 0] : Fin 3 → Nat) a + S1x1x256.size a ≤ S2x256x256.size a
  slices_S256x256_o0_113_S256x1 : S256x256.Slices ![0, 113] S256x1
  slices_S256x256_o113_0_S1x256 : S256x256.Slices ![113, 0] S1x256
  inb_S2x256x256_S1x1x256_0_113_0 : ∀ a, (![0, 113, 0] : Fin 3 → Nat) a + S1x1x256.size a ≤ S2x256x256.size a
  slices_S256x256_o0_114_S256x1 : S256x256.Slices ![0, 114] S256x1
  slices_S256x256_o114_0_S1x256 : S256x256.Slices ![114, 0] S1x256
  inb_S2x256x256_S1x1x256_0_114_0 : ∀ a, (![0, 114, 0] : Fin 3 → Nat) a + S1x1x256.size a ≤ S2x256x256.size a
  slices_S256x256_o0_115_S256x1 : S256x256.Slices ![0, 115] S256x1
  slices_S256x256_o115_0_S1x256 : S256x256.Slices ![115, 0] S1x256
  inb_S2x256x256_S1x1x256_0_115_0 : ∀ a, (![0, 115, 0] : Fin 3 → Nat) a + S1x1x256.size a ≤ S2x256x256.size a
  slices_S256x256_o0_116_S256x1 : S256x256.Slices ![0, 116] S256x1
  slices_S256x256_o116_0_S1x256 : S256x256.Slices ![116, 0] S1x256
  inb_S2x256x256_S1x1x256_0_116_0 : ∀ a, (![0, 116, 0] : Fin 3 → Nat) a + S1x1x256.size a ≤ S2x256x256.size a
  slices_S256x256_o0_117_S256x1 : S256x256.Slices ![0, 117] S256x1
  slices_S256x256_o117_0_S1x256 : S256x256.Slices ![117, 0] S1x256
  inb_S2x256x256_S1x1x256_0_117_0 : ∀ a, (![0, 117, 0] : Fin 3 → Nat) a + S1x1x256.size a ≤ S2x256x256.size a
  slices_S256x256_o0_118_S256x1 : S256x256.Slices ![0, 118] S256x1
  slices_S256x256_o118_0_S1x256 : S256x256.Slices ![118, 0] S1x256
  inb_S2x256x256_S1x1x256_0_118_0 : ∀ a, (![0, 118, 0] : Fin 3 → Nat) a + S1x1x256.size a ≤ S2x256x256.size a
  slices_S256x256_o0_119_S256x1 : S256x256.Slices ![0, 119] S256x1
  slices_S256x256_o119_0_S1x256 : S256x256.Slices ![119, 0] S1x256
  inb_S2x256x256_S1x1x256_0_119_0 : ∀ a, (![0, 119, 0] : Fin 3 → Nat) a + S1x1x256.size a ≤ S2x256x256.size a
  slices_S256x256_o0_120_S256x1 : S256x256.Slices ![0, 120] S256x1
  slices_S256x256_o120_0_S1x256 : S256x256.Slices ![120, 0] S1x256
  inb_S2x256x256_S1x1x256_0_120_0 : ∀ a, (![0, 120, 0] : Fin 3 → Nat) a + S1x1x256.size a ≤ S2x256x256.size a
  slices_S256x256_o0_121_S256x1 : S256x256.Slices ![0, 121] S256x1
  slices_S256x256_o121_0_S1x256 : S256x256.Slices ![121, 0] S1x256
  inb_S2x256x256_S1x1x256_0_121_0 : ∀ a, (![0, 121, 0] : Fin 3 → Nat) a + S1x1x256.size a ≤ S2x256x256.size a
  slices_S256x256_o0_122_S256x1 : S256x256.Slices ![0, 122] S256x1
  slices_S256x256_o122_0_S1x256 : S256x256.Slices ![122, 0] S1x256
  inb_S2x256x256_S1x1x256_0_122_0 : ∀ a, (![0, 122, 0] : Fin 3 → Nat) a + S1x1x256.size a ≤ S2x256x256.size a
  slices_S256x256_o0_123_S256x1 : S256x256.Slices ![0, 123] S256x1
  slices_S256x256_o123_0_S1x256 : S256x256.Slices ![123, 0] S1x256
  inb_S2x256x256_S1x1x256_0_123_0 : ∀ a, (![0, 123, 0] : Fin 3 → Nat) a + S1x1x256.size a ≤ S2x256x256.size a
  slices_S256x256_o0_124_S256x1 : S256x256.Slices ![0, 124] S256x1
  slices_S256x256_o124_0_S1x256 : S256x256.Slices ![124, 0] S1x256
  inb_S2x256x256_S1x1x256_0_124_0 : ∀ a, (![0, 124, 0] : Fin 3 → Nat) a + S1x1x256.size a ≤ S2x256x256.size a
  slices_S256x256_o0_125_S256x1 : S256x256.Slices ![0, 125] S256x1
  slices_S256x256_o125_0_S1x256 : S256x256.Slices ![125, 0] S1x256
  inb_S2x256x256_S1x1x256_0_125_0 : ∀ a, (![0, 125, 0] : Fin 3 → Nat) a + S1x1x256.size a ≤ S2x256x256.size a
  slices_S256x256_o0_126_S256x1 : S256x256.Slices ![0, 126] S256x1
  slices_S256x256_o126_0_S1x256 : S256x256.Slices ![126, 0] S1x256
  inb_S2x256x256_S1x1x256_0_126_0 : ∀ a, (![0, 126, 0] : Fin 3 → Nat) a + S1x1x256.size a ≤ S2x256x256.size a
  slices_S256x256_o0_127_S256x1 : S256x256.Slices ![0, 127] S256x1
  slices_S256x256_o127_0_S1x256 : S256x256.Slices ![127, 0] S1x256
  inb_S2x256x256_S1x1x256_0_127_0 : ∀ a, (![0, 127, 0] : Fin 3 → Nat) a + S1x1x256.size a ≤ S2x256x256.size a
  slices_S256x256_o0_128_S256x1 : S256x256.Slices ![0, 128] S256x1
  slices_S256x256_o128_0_S1x256 : S256x256.Slices ![128, 0] S1x256
  inb_S2x256x256_S1x1x256_0_128_0 : ∀ a, (![0, 128, 0] : Fin 3 → Nat) a + S1x1x256.size a ≤ S2x256x256.size a
  slices_S256x256_o0_129_S256x1 : S256x256.Slices ![0, 129] S256x1
  slices_S256x256_o129_0_S1x256 : S256x256.Slices ![129, 0] S1x256
  inb_S2x256x256_S1x1x256_0_129_0 : ∀ a, (![0, 129, 0] : Fin 3 → Nat) a + S1x1x256.size a ≤ S2x256x256.size a
  slices_S256x256_o0_130_S256x1 : S256x256.Slices ![0, 130] S256x1
  slices_S256x256_o130_0_S1x256 : S256x256.Slices ![130, 0] S1x256
  inb_S2x256x256_S1x1x256_0_130_0 : ∀ a, (![0, 130, 0] : Fin 3 → Nat) a + S1x1x256.size a ≤ S2x256x256.size a
  slices_S256x256_o0_131_S256x1 : S256x256.Slices ![0, 131] S256x1
  slices_S256x256_o131_0_S1x256 : S256x256.Slices ![131, 0] S1x256
  inb_S2x256x256_S1x1x256_0_131_0 : ∀ a, (![0, 131, 0] : Fin 3 → Nat) a + S1x1x256.size a ≤ S2x256x256.size a
  slices_S256x256_o0_132_S256x1 : S256x256.Slices ![0, 132] S256x1
  slices_S256x256_o132_0_S1x256 : S256x256.Slices ![132, 0] S1x256
  inb_S2x256x256_S1x1x256_0_132_0 : ∀ a, (![0, 132, 0] : Fin 3 → Nat) a + S1x1x256.size a ≤ S2x256x256.size a
  slices_S256x256_o0_133_S256x1 : S256x256.Slices ![0, 133] S256x1
  slices_S256x256_o133_0_S1x256 : S256x256.Slices ![133, 0] S1x256
  inb_S2x256x256_S1x1x256_0_133_0 : ∀ a, (![0, 133, 0] : Fin 3 → Nat) a + S1x1x256.size a ≤ S2x256x256.size a
  slices_S256x256_o0_134_S256x1 : S256x256.Slices ![0, 134] S256x1
  slices_S256x256_o134_0_S1x256 : S256x256.Slices ![134, 0] S1x256
  inb_S2x256x256_S1x1x256_0_134_0 : ∀ a, (![0, 134, 0] : Fin 3 → Nat) a + S1x1x256.size a ≤ S2x256x256.size a
  slices_S256x256_o0_135_S256x1 : S256x256.Slices ![0, 135] S256x1
  slices_S256x256_o135_0_S1x256 : S256x256.Slices ![135, 0] S1x256
  inb_S2x256x256_S1x1x256_0_135_0 : ∀ a, (![0, 135, 0] : Fin 3 → Nat) a + S1x1x256.size a ≤ S2x256x256.size a
  slices_S256x256_o0_136_S256x1 : S256x256.Slices ![0, 136] S256x1
  slices_S256x256_o136_0_S1x256 : S256x256.Slices ![136, 0] S1x256
  inb_S2x256x256_S1x1x256_0_136_0 : ∀ a, (![0, 136, 0] : Fin 3 → Nat) a + S1x1x256.size a ≤ S2x256x256.size a
  slices_S256x256_o0_137_S256x1 : S256x256.Slices ![0, 137] S256x1
  slices_S256x256_o137_0_S1x256 : S256x256.Slices ![137, 0] S1x256
  inb_S2x256x256_S1x1x256_0_137_0 : ∀ a, (![0, 137, 0] : Fin 3 → Nat) a + S1x1x256.size a ≤ S2x256x256.size a
  slices_S256x256_o0_138_S256x1 : S256x256.Slices ![0, 138] S256x1
  slices_S256x256_o138_0_S1x256 : S256x256.Slices ![138, 0] S1x256
  inb_S2x256x256_S1x1x256_0_138_0 : ∀ a, (![0, 138, 0] : Fin 3 → Nat) a + S1x1x256.size a ≤ S2x256x256.size a
  slices_S256x256_o0_139_S256x1 : S256x256.Slices ![0, 139] S256x1
  slices_S256x256_o139_0_S1x256 : S256x256.Slices ![139, 0] S1x256
  inb_S2x256x256_S1x1x256_0_139_0 : ∀ a, (![0, 139, 0] : Fin 3 → Nat) a + S1x1x256.size a ≤ S2x256x256.size a
  slices_S256x256_o0_140_S256x1 : S256x256.Slices ![0, 140] S256x1
  slices_S256x256_o140_0_S1x256 : S256x256.Slices ![140, 0] S1x256
  inb_S2x256x256_S1x1x256_0_140_0 : ∀ a, (![0, 140, 0] : Fin 3 → Nat) a + S1x1x256.size a ≤ S2x256x256.size a
  slices_S256x256_o0_141_S256x1 : S256x256.Slices ![0, 141] S256x1
  slices_S256x256_o141_0_S1x256 : S256x256.Slices ![141, 0] S1x256
  inb_S2x256x256_S1x1x256_0_141_0 : ∀ a, (![0, 141, 0] : Fin 3 → Nat) a + S1x1x256.size a ≤ S2x256x256.size a
  slices_S256x256_o0_142_S256x1 : S256x256.Slices ![0, 142] S256x1
  slices_S256x256_o142_0_S1x256 : S256x256.Slices ![142, 0] S1x256
  inb_S2x256x256_S1x1x256_0_142_0 : ∀ a, (![0, 142, 0] : Fin 3 → Nat) a + S1x1x256.size a ≤ S2x256x256.size a
  slices_S256x256_o0_143_S256x1 : S256x256.Slices ![0, 143] S256x1
  slices_S256x256_o143_0_S1x256 : S256x256.Slices ![143, 0] S1x256
  inb_S2x256x256_S1x1x256_0_143_0 : ∀ a, (![0, 143, 0] : Fin 3 → Nat) a + S1x1x256.size a ≤ S2x256x256.size a
  slices_S256x256_o0_144_S256x1 : S256x256.Slices ![0, 144] S256x1
  slices_S256x256_o144_0_S1x256 : S256x256.Slices ![144, 0] S1x256
  inb_S2x256x256_S1x1x256_0_144_0 : ∀ a, (![0, 144, 0] : Fin 3 → Nat) a + S1x1x256.size a ≤ S2x256x256.size a
  slices_S256x256_o0_145_S256x1 : S256x256.Slices ![0, 145] S256x1
  slices_S256x256_o145_0_S1x256 : S256x256.Slices ![145, 0] S1x256
  inb_S2x256x256_S1x1x256_0_145_0 : ∀ a, (![0, 145, 0] : Fin 3 → Nat) a + S1x1x256.size a ≤ S2x256x256.size a
  slices_S256x256_o0_146_S256x1 : S256x256.Slices ![0, 146] S256x1
  slices_S256x256_o146_0_S1x256 : S256x256.Slices ![146, 0] S1x256
  inb_S2x256x256_S1x1x256_0_146_0 : ∀ a, (![0, 146, 0] : Fin 3 → Nat) a + S1x1x256.size a ≤ S2x256x256.size a
  slices_S256x256_o0_147_S256x1 : S256x256.Slices ![0, 147] S256x1
  slices_S256x256_o147_0_S1x256 : S256x256.Slices ![147, 0] S1x256
  inb_S2x256x256_S1x1x256_0_147_0 : ∀ a, (![0, 147, 0] : Fin 3 → Nat) a + S1x1x256.size a ≤ S2x256x256.size a
  slices_S256x256_o0_148_S256x1 : S256x256.Slices ![0, 148] S256x1
  slices_S256x256_o148_0_S1x256 : S256x256.Slices ![148, 0] S1x256
  inb_S2x256x256_S1x1x256_0_148_0 : ∀ a, (![0, 148, 0] : Fin 3 → Nat) a + S1x1x256.size a ≤ S2x256x256.size a
  slices_S256x256_o0_149_S256x1 : S256x256.Slices ![0, 149] S256x1
  slices_S256x256_o149_0_S1x256 : S256x256.Slices ![149, 0] S1x256
  inb_S2x256x256_S1x1x256_0_149_0 : ∀ a, (![0, 149, 0] : Fin 3 → Nat) a + S1x1x256.size a ≤ S2x256x256.size a
  slices_S256x256_o0_150_S256x1 : S256x256.Slices ![0, 150] S256x1
  slices_S256x256_o150_0_S1x256 : S256x256.Slices ![150, 0] S1x256
  inb_S2x256x256_S1x1x256_0_150_0 : ∀ a, (![0, 150, 0] : Fin 3 → Nat) a + S1x1x256.size a ≤ S2x256x256.size a
  slices_S256x256_o0_151_S256x1 : S256x256.Slices ![0, 151] S256x1
  slices_S256x256_o151_0_S1x256 : S256x256.Slices ![151, 0] S1x256
  inb_S2x256x256_S1x1x256_0_151_0 : ∀ a, (![0, 151, 0] : Fin 3 → Nat) a + S1x1x256.size a ≤ S2x256x256.size a
  slices_S256x256_o0_152_S256x1 : S256x256.Slices ![0, 152] S256x1
  slices_S256x256_o152_0_S1x256 : S256x256.Slices ![152, 0] S1x256
  inb_S2x256x256_S1x1x256_0_152_0 : ∀ a, (![0, 152, 0] : Fin 3 → Nat) a + S1x1x256.size a ≤ S2x256x256.size a
  slices_S256x256_o0_153_S256x1 : S256x256.Slices ![0, 153] S256x1
  slices_S256x256_o153_0_S1x256 : S256x256.Slices ![153, 0] S1x256
  inb_S2x256x256_S1x1x256_0_153_0 : ∀ a, (![0, 153, 0] : Fin 3 → Nat) a + S1x1x256.size a ≤ S2x256x256.size a
  slices_S256x256_o0_154_S256x1 : S256x256.Slices ![0, 154] S256x1
  slices_S256x256_o154_0_S1x256 : S256x256.Slices ![154, 0] S1x256
  inb_S2x256x256_S1x1x256_0_154_0 : ∀ a, (![0, 154, 0] : Fin 3 → Nat) a + S1x1x256.size a ≤ S2x256x256.size a
  slices_S256x256_o0_155_S256x1 : S256x256.Slices ![0, 155] S256x1
  slices_S256x256_o155_0_S1x256 : S256x256.Slices ![155, 0] S1x256
  inb_S2x256x256_S1x1x256_0_155_0 : ∀ a, (![0, 155, 0] : Fin 3 → Nat) a + S1x1x256.size a ≤ S2x256x256.size a
  slices_S256x256_o0_156_S256x1 : S256x256.Slices ![0, 156] S256x1
  slices_S256x256_o156_0_S1x256 : S256x256.Slices ![156, 0] S1x256
  inb_S2x256x256_S1x1x256_0_156_0 : ∀ a, (![0, 156, 0] : Fin 3 → Nat) a + S1x1x256.size a ≤ S2x256x256.size a
  slices_S256x256_o0_157_S256x1 : S256x256.Slices ![0, 157] S256x1
  slices_S256x256_o157_0_S1x256 : S256x256.Slices ![157, 0] S1x256
  inb_S2x256x256_S1x1x256_0_157_0 : ∀ a, (![0, 157, 0] : Fin 3 → Nat) a + S1x1x256.size a ≤ S2x256x256.size a
  slices_S256x256_o0_158_S256x1 : S256x256.Slices ![0, 158] S256x1
  slices_S256x256_o158_0_S1x256 : S256x256.Slices ![158, 0] S1x256
  inb_S2x256x256_S1x1x256_0_158_0 : ∀ a, (![0, 158, 0] : Fin 3 → Nat) a + S1x1x256.size a ≤ S2x256x256.size a
  slices_S256x256_o0_159_S256x1 : S256x256.Slices ![0, 159] S256x1
  slices_S256x256_o159_0_S1x256 : S256x256.Slices ![159, 0] S1x256
  inb_S2x256x256_S1x1x256_0_159_0 : ∀ a, (![0, 159, 0] : Fin 3 → Nat) a + S1x1x256.size a ≤ S2x256x256.size a
  slices_S256x256_o0_160_S256x1 : S256x256.Slices ![0, 160] S256x1
  slices_S256x256_o160_0_S1x256 : S256x256.Slices ![160, 0] S1x256
  inb_S2x256x256_S1x1x256_0_160_0 : ∀ a, (![0, 160, 0] : Fin 3 → Nat) a + S1x1x256.size a ≤ S2x256x256.size a
  slices_S256x256_o0_161_S256x1 : S256x256.Slices ![0, 161] S256x1
  slices_S256x256_o161_0_S1x256 : S256x256.Slices ![161, 0] S1x256
  inb_S2x256x256_S1x1x256_0_161_0 : ∀ a, (![0, 161, 0] : Fin 3 → Nat) a + S1x1x256.size a ≤ S2x256x256.size a
  slices_S256x256_o0_162_S256x1 : S256x256.Slices ![0, 162] S256x1
  slices_S256x256_o162_0_S1x256 : S256x256.Slices ![162, 0] S1x256
  inb_S2x256x256_S1x1x256_0_162_0 : ∀ a, (![0, 162, 0] : Fin 3 → Nat) a + S1x1x256.size a ≤ S2x256x256.size a
  slices_S256x256_o0_163_S256x1 : S256x256.Slices ![0, 163] S256x1
  slices_S256x256_o163_0_S1x256 : S256x256.Slices ![163, 0] S1x256
  inb_S2x256x256_S1x1x256_0_163_0 : ∀ a, (![0, 163, 0] : Fin 3 → Nat) a + S1x1x256.size a ≤ S2x256x256.size a
  slices_S256x256_o0_164_S256x1 : S256x256.Slices ![0, 164] S256x1
  slices_S256x256_o164_0_S1x256 : S256x256.Slices ![164, 0] S1x256
  inb_S2x256x256_S1x1x256_0_164_0 : ∀ a, (![0, 164, 0] : Fin 3 → Nat) a + S1x1x256.size a ≤ S2x256x256.size a
  slices_S256x256_o0_165_S256x1 : S256x256.Slices ![0, 165] S256x1
  slices_S256x256_o165_0_S1x256 : S256x256.Slices ![165, 0] S1x256
  inb_S2x256x256_S1x1x256_0_165_0 : ∀ a, (![0, 165, 0] : Fin 3 → Nat) a + S1x1x256.size a ≤ S2x256x256.size a
  slices_S256x256_o0_166_S256x1 : S256x256.Slices ![0, 166] S256x1
  slices_S256x256_o166_0_S1x256 : S256x256.Slices ![166, 0] S1x256
  inb_S2x256x256_S1x1x256_0_166_0 : ∀ a, (![0, 166, 0] : Fin 3 → Nat) a + S1x1x256.size a ≤ S2x256x256.size a
  slices_S256x256_o0_167_S256x1 : S256x256.Slices ![0, 167] S256x1
  slices_S256x256_o167_0_S1x256 : S256x256.Slices ![167, 0] S1x256
  inb_S2x256x256_S1x1x256_0_167_0 : ∀ a, (![0, 167, 0] : Fin 3 → Nat) a + S1x1x256.size a ≤ S2x256x256.size a
  slices_S256x256_o0_168_S256x1 : S256x256.Slices ![0, 168] S256x1
  slices_S256x256_o168_0_S1x256 : S256x256.Slices ![168, 0] S1x256
  inb_S2x256x256_S1x1x256_0_168_0 : ∀ a, (![0, 168, 0] : Fin 3 → Nat) a + S1x1x256.size a ≤ S2x256x256.size a
  slices_S256x256_o0_169_S256x1 : S256x256.Slices ![0, 169] S256x1
  slices_S256x256_o169_0_S1x256 : S256x256.Slices ![169, 0] S1x256
  inb_S2x256x256_S1x1x256_0_169_0 : ∀ a, (![0, 169, 0] : Fin 3 → Nat) a + S1x1x256.size a ≤ S2x256x256.size a
  slices_S256x256_o0_170_S256x1 : S256x256.Slices ![0, 170] S256x1
  slices_S256x256_o170_0_S1x256 : S256x256.Slices ![170, 0] S1x256
  inb_S2x256x256_S1x1x256_0_170_0 : ∀ a, (![0, 170, 0] : Fin 3 → Nat) a + S1x1x256.size a ≤ S2x256x256.size a
  slices_S256x256_o0_171_S256x1 : S256x256.Slices ![0, 171] S256x1
  slices_S256x256_o171_0_S1x256 : S256x256.Slices ![171, 0] S1x256
  inb_S2x256x256_S1x1x256_0_171_0 : ∀ a, (![0, 171, 0] : Fin 3 → Nat) a + S1x1x256.size a ≤ S2x256x256.size a
  slices_S256x256_o0_172_S256x1 : S256x256.Slices ![0, 172] S256x1
  slices_S256x256_o172_0_S1x256 : S256x256.Slices ![172, 0] S1x256
  inb_S2x256x256_S1x1x256_0_172_0 : ∀ a, (![0, 172, 0] : Fin 3 → Nat) a + S1x1x256.size a ≤ S2x256x256.size a
  slices_S256x256_o0_173_S256x1 : S256x256.Slices ![0, 173] S256x1
  slices_S256x256_o173_0_S1x256 : S256x256.Slices ![173, 0] S1x256
  inb_S2x256x256_S1x1x256_0_173_0 : ∀ a, (![0, 173, 0] : Fin 3 → Nat) a + S1x1x256.size a ≤ S2x256x256.size a
  slices_S256x256_o0_174_S256x1 : S256x256.Slices ![0, 174] S256x1
  slices_S256x256_o174_0_S1x256 : S256x256.Slices ![174, 0] S1x256
  inb_S2x256x256_S1x1x256_0_174_0 : ∀ a, (![0, 174, 0] : Fin 3 → Nat) a + S1x1x256.size a ≤ S2x256x256.size a
  slices_S256x256_o0_175_S256x1 : S256x256.Slices ![0, 175] S256x1
  slices_S256x256_o175_0_S1x256 : S256x256.Slices ![175, 0] S1x256
  inb_S2x256x256_S1x1x256_0_175_0 : ∀ a, (![0, 175, 0] : Fin 3 → Nat) a + S1x1x256.size a ≤ S2x256x256.size a
  slices_S256x256_o0_176_S256x1 : S256x256.Slices ![0, 176] S256x1
  slices_S256x256_o176_0_S1x256 : S256x256.Slices ![176, 0] S1x256
  inb_S2x256x256_S1x1x256_0_176_0 : ∀ a, (![0, 176, 0] : Fin 3 → Nat) a + S1x1x256.size a ≤ S2x256x256.size a
  slices_S256x256_o0_177_S256x1 : S256x256.Slices ![0, 177] S256x1
  slices_S256x256_o177_0_S1x256 : S256x256.Slices ![177, 0] S1x256
  inb_S2x256x256_S1x1x256_0_177_0 : ∀ a, (![0, 177, 0] : Fin 3 → Nat) a + S1x1x256.size a ≤ S2x256x256.size a
  slices_S256x256_o0_178_S256x1 : S256x256.Slices ![0, 178] S256x1
  slices_S256x256_o178_0_S1x256 : S256x256.Slices ![178, 0] S1x256
  inb_S2x256x256_S1x1x256_0_178_0 : ∀ a, (![0, 178, 0] : Fin 3 → Nat) a + S1x1x256.size a ≤ S2x256x256.size a
  slices_S256x256_o0_179_S256x1 : S256x256.Slices ![0, 179] S256x1
  slices_S256x256_o179_0_S1x256 : S256x256.Slices ![179, 0] S1x256
  inb_S2x256x256_S1x1x256_0_179_0 : ∀ a, (![0, 179, 0] : Fin 3 → Nat) a + S1x1x256.size a ≤ S2x256x256.size a
  slices_S256x256_o0_180_S256x1 : S256x256.Slices ![0, 180] S256x1
  slices_S256x256_o180_0_S1x256 : S256x256.Slices ![180, 0] S1x256
  inb_S2x256x256_S1x1x256_0_180_0 : ∀ a, (![0, 180, 0] : Fin 3 → Nat) a + S1x1x256.size a ≤ S2x256x256.size a
  slices_S256x256_o0_181_S256x1 : S256x256.Slices ![0, 181] S256x1
  slices_S256x256_o181_0_S1x256 : S256x256.Slices ![181, 0] S1x256
  inb_S2x256x256_S1x1x256_0_181_0 : ∀ a, (![0, 181, 0] : Fin 3 → Nat) a + S1x1x256.size a ≤ S2x256x256.size a
  slices_S256x256_o0_182_S256x1 : S256x256.Slices ![0, 182] S256x1
  slices_S256x256_o182_0_S1x256 : S256x256.Slices ![182, 0] S1x256
  inb_S2x256x256_S1x1x256_0_182_0 : ∀ a, (![0, 182, 0] : Fin 3 → Nat) a + S1x1x256.size a ≤ S2x256x256.size a
  slices_S256x256_o0_183_S256x1 : S256x256.Slices ![0, 183] S256x1
  slices_S256x256_o183_0_S1x256 : S256x256.Slices ![183, 0] S1x256
  inb_S2x256x256_S1x1x256_0_183_0 : ∀ a, (![0, 183, 0] : Fin 3 → Nat) a + S1x1x256.size a ≤ S2x256x256.size a
  slices_S256x256_o0_184_S256x1 : S256x256.Slices ![0, 184] S256x1
  slices_S256x256_o184_0_S1x256 : S256x256.Slices ![184, 0] S1x256
  inb_S2x256x256_S1x1x256_0_184_0 : ∀ a, (![0, 184, 0] : Fin 3 → Nat) a + S1x1x256.size a ≤ S2x256x256.size a
  slices_S256x256_o0_185_S256x1 : S256x256.Slices ![0, 185] S256x1
  slices_S256x256_o185_0_S1x256 : S256x256.Slices ![185, 0] S1x256
  inb_S2x256x256_S1x1x256_0_185_0 : ∀ a, (![0, 185, 0] : Fin 3 → Nat) a + S1x1x256.size a ≤ S2x256x256.size a
  slices_S256x256_o0_186_S256x1 : S256x256.Slices ![0, 186] S256x1
  slices_S256x256_o186_0_S1x256 : S256x256.Slices ![186, 0] S1x256
  inb_S2x256x256_S1x1x256_0_186_0 : ∀ a, (![0, 186, 0] : Fin 3 → Nat) a + S1x1x256.size a ≤ S2x256x256.size a
  slices_S256x256_o0_187_S256x1 : S256x256.Slices ![0, 187] S256x1
  slices_S256x256_o187_0_S1x256 : S256x256.Slices ![187, 0] S1x256
  inb_S2x256x256_S1x1x256_0_187_0 : ∀ a, (![0, 187, 0] : Fin 3 → Nat) a + S1x1x256.size a ≤ S2x256x256.size a
  slices_S256x256_o0_188_S256x1 : S256x256.Slices ![0, 188] S256x1
  slices_S256x256_o188_0_S1x256 : S256x256.Slices ![188, 0] S1x256
  inb_S2x256x256_S1x1x256_0_188_0 : ∀ a, (![0, 188, 0] : Fin 3 → Nat) a + S1x1x256.size a ≤ S2x256x256.size a
  slices_S256x256_o0_189_S256x1 : S256x256.Slices ![0, 189] S256x1
  slices_S256x256_o189_0_S1x256 : S256x256.Slices ![189, 0] S1x256
  inb_S2x256x256_S1x1x256_0_189_0 : ∀ a, (![0, 189, 0] : Fin 3 → Nat) a + S1x1x256.size a ≤ S2x256x256.size a
  slices_S256x256_o0_190_S256x1 : S256x256.Slices ![0, 190] S256x1
  slices_S256x256_o190_0_S1x256 : S256x256.Slices ![190, 0] S1x256
  inb_S2x256x256_S1x1x256_0_190_0 : ∀ a, (![0, 190, 0] : Fin 3 → Nat) a + S1x1x256.size a ≤ S2x256x256.size a
  slices_S256x256_o0_191_S256x1 : S256x256.Slices ![0, 191] S256x1
  slices_S256x256_o191_0_S1x256 : S256x256.Slices ![191, 0] S1x256
  inb_S2x256x256_S1x1x256_0_191_0 : ∀ a, (![0, 191, 0] : Fin 3 → Nat) a + S1x1x256.size a ≤ S2x256x256.size a
  slices_S256x256_o0_192_S256x1 : S256x256.Slices ![0, 192] S256x1
  slices_S256x256_o192_0_S1x256 : S256x256.Slices ![192, 0] S1x256
  inb_S2x256x256_S1x1x256_0_192_0 : ∀ a, (![0, 192, 0] : Fin 3 → Nat) a + S1x1x256.size a ≤ S2x256x256.size a
  slices_S256x256_o0_193_S256x1 : S256x256.Slices ![0, 193] S256x1
  slices_S256x256_o193_0_S1x256 : S256x256.Slices ![193, 0] S1x256
  inb_S2x256x256_S1x1x256_0_193_0 : ∀ a, (![0, 193, 0] : Fin 3 → Nat) a + S1x1x256.size a ≤ S2x256x256.size a
  slices_S256x256_o0_194_S256x1 : S256x256.Slices ![0, 194] S256x1
  slices_S256x256_o194_0_S1x256 : S256x256.Slices ![194, 0] S1x256
  inb_S2x256x256_S1x1x256_0_194_0 : ∀ a, (![0, 194, 0] : Fin 3 → Nat) a + S1x1x256.size a ≤ S2x256x256.size a
  slices_S256x256_o0_195_S256x1 : S256x256.Slices ![0, 195] S256x1
  slices_S256x256_o195_0_S1x256 : S256x256.Slices ![195, 0] S1x256
  inb_S2x256x256_S1x1x256_0_195_0 : ∀ a, (![0, 195, 0] : Fin 3 → Nat) a + S1x1x256.size a ≤ S2x256x256.size a
  slices_S256x256_o0_196_S256x1 : S256x256.Slices ![0, 196] S256x1
  slices_S256x256_o196_0_S1x256 : S256x256.Slices ![196, 0] S1x256
  inb_S2x256x256_S1x1x256_0_196_0 : ∀ a, (![0, 196, 0] : Fin 3 → Nat) a + S1x1x256.size a ≤ S2x256x256.size a
  slices_S256x256_o0_197_S256x1 : S256x256.Slices ![0, 197] S256x1
  slices_S256x256_o197_0_S1x256 : S256x256.Slices ![197, 0] S1x256
  inb_S2x256x256_S1x1x256_0_197_0 : ∀ a, (![0, 197, 0] : Fin 3 → Nat) a + S1x1x256.size a ≤ S2x256x256.size a
  slices_S256x256_o0_198_S256x1 : S256x256.Slices ![0, 198] S256x1
  slices_S256x256_o198_0_S1x256 : S256x256.Slices ![198, 0] S1x256
  inb_S2x256x256_S1x1x256_0_198_0 : ∀ a, (![0, 198, 0] : Fin 3 → Nat) a + S1x1x256.size a ≤ S2x256x256.size a
  slices_S256x256_o0_199_S256x1 : S256x256.Slices ![0, 199] S256x1
  slices_S256x256_o199_0_S1x256 : S256x256.Slices ![199, 0] S1x256
  inb_S2x256x256_S1x1x256_0_199_0 : ∀ a, (![0, 199, 0] : Fin 3 → Nat) a + S1x1x256.size a ≤ S2x256x256.size a
  slices_S256x256_o0_200_S256x1 : S256x256.Slices ![0, 200] S256x1
  slices_S256x256_o200_0_S1x256 : S256x256.Slices ![200, 0] S1x256
  inb_S2x256x256_S1x1x256_0_200_0 : ∀ a, (![0, 200, 0] : Fin 3 → Nat) a + S1x1x256.size a ≤ S2x256x256.size a
  slices_S256x256_o0_201_S256x1 : S256x256.Slices ![0, 201] S256x1
  slices_S256x256_o201_0_S1x256 : S256x256.Slices ![201, 0] S1x256
  inb_S2x256x256_S1x1x256_0_201_0 : ∀ a, (![0, 201, 0] : Fin 3 → Nat) a + S1x1x256.size a ≤ S2x256x256.size a
  slices_S256x256_o0_202_S256x1 : S256x256.Slices ![0, 202] S256x1
  slices_S256x256_o202_0_S1x256 : S256x256.Slices ![202, 0] S1x256
  inb_S2x256x256_S1x1x256_0_202_0 : ∀ a, (![0, 202, 0] : Fin 3 → Nat) a + S1x1x256.size a ≤ S2x256x256.size a
  slices_S256x256_o0_203_S256x1 : S256x256.Slices ![0, 203] S256x1
  slices_S256x256_o203_0_S1x256 : S256x256.Slices ![203, 0] S1x256
  inb_S2x256x256_S1x1x256_0_203_0 : ∀ a, (![0, 203, 0] : Fin 3 → Nat) a + S1x1x256.size a ≤ S2x256x256.size a
  slices_S256x256_o0_204_S256x1 : S256x256.Slices ![0, 204] S256x1
  slices_S256x256_o204_0_S1x256 : S256x256.Slices ![204, 0] S1x256
  inb_S2x256x256_S1x1x256_0_204_0 : ∀ a, (![0, 204, 0] : Fin 3 → Nat) a + S1x1x256.size a ≤ S2x256x256.size a
  slices_S256x256_o0_205_S256x1 : S256x256.Slices ![0, 205] S256x1
  slices_S256x256_o205_0_S1x256 : S256x256.Slices ![205, 0] S1x256
  inb_S2x256x256_S1x1x256_0_205_0 : ∀ a, (![0, 205, 0] : Fin 3 → Nat) a + S1x1x256.size a ≤ S2x256x256.size a
  slices_S256x256_o0_206_S256x1 : S256x256.Slices ![0, 206] S256x1
  slices_S256x256_o206_0_S1x256 : S256x256.Slices ![206, 0] S1x256
  inb_S2x256x256_S1x1x256_0_206_0 : ∀ a, (![0, 206, 0] : Fin 3 → Nat) a + S1x1x256.size a ≤ S2x256x256.size a
  slices_S256x256_o0_207_S256x1 : S256x256.Slices ![0, 207] S256x1
  slices_S256x256_o207_0_S1x256 : S256x256.Slices ![207, 0] S1x256
  inb_S2x256x256_S1x1x256_0_207_0 : ∀ a, (![0, 207, 0] : Fin 3 → Nat) a + S1x1x256.size a ≤ S2x256x256.size a
  slices_S256x256_o0_208_S256x1 : S256x256.Slices ![0, 208] S256x1
  slices_S256x256_o208_0_S1x256 : S256x256.Slices ![208, 0] S1x256
  inb_S2x256x256_S1x1x256_0_208_0 : ∀ a, (![0, 208, 0] : Fin 3 → Nat) a + S1x1x256.size a ≤ S2x256x256.size a
  slices_S256x256_o0_209_S256x1 : S256x256.Slices ![0, 209] S256x1
  slices_S256x256_o209_0_S1x256 : S256x256.Slices ![209, 0] S1x256
  inb_S2x256x256_S1x1x256_0_209_0 : ∀ a, (![0, 209, 0] : Fin 3 → Nat) a + S1x1x256.size a ≤ S2x256x256.size a
  slices_S256x256_o0_210_S256x1 : S256x256.Slices ![0, 210] S256x1
  slices_S256x256_o210_0_S1x256 : S256x256.Slices ![210, 0] S1x256
  inb_S2x256x256_S1x1x256_0_210_0 : ∀ a, (![0, 210, 0] : Fin 3 → Nat) a + S1x1x256.size a ≤ S2x256x256.size a
  slices_S256x256_o0_211_S256x1 : S256x256.Slices ![0, 211] S256x1
  slices_S256x256_o211_0_S1x256 : S256x256.Slices ![211, 0] S1x256
  inb_S2x256x256_S1x1x256_0_211_0 : ∀ a, (![0, 211, 0] : Fin 3 → Nat) a + S1x1x256.size a ≤ S2x256x256.size a
  slices_S256x256_o0_212_S256x1 : S256x256.Slices ![0, 212] S256x1
  slices_S256x256_o212_0_S1x256 : S256x256.Slices ![212, 0] S1x256
  inb_S2x256x256_S1x1x256_0_212_0 : ∀ a, (![0, 212, 0] : Fin 3 → Nat) a + S1x1x256.size a ≤ S2x256x256.size a
  slices_S256x256_o0_213_S256x1 : S256x256.Slices ![0, 213] S256x1
  slices_S256x256_o213_0_S1x256 : S256x256.Slices ![213, 0] S1x256
  inb_S2x256x256_S1x1x256_0_213_0 : ∀ a, (![0, 213, 0] : Fin 3 → Nat) a + S1x1x256.size a ≤ S2x256x256.size a
  slices_S256x256_o0_214_S256x1 : S256x256.Slices ![0, 214] S256x1
  slices_S256x256_o214_0_S1x256 : S256x256.Slices ![214, 0] S1x256
  inb_S2x256x256_S1x1x256_0_214_0 : ∀ a, (![0, 214, 0] : Fin 3 → Nat) a + S1x1x256.size a ≤ S2x256x256.size a
  slices_S256x256_o0_215_S256x1 : S256x256.Slices ![0, 215] S256x1
  slices_S256x256_o215_0_S1x256 : S256x256.Slices ![215, 0] S1x256
  inb_S2x256x256_S1x1x256_0_215_0 : ∀ a, (![0, 215, 0] : Fin 3 → Nat) a + S1x1x256.size a ≤ S2x256x256.size a
  slices_S256x256_o0_216_S256x1 : S256x256.Slices ![0, 216] S256x1
  slices_S256x256_o216_0_S1x256 : S256x256.Slices ![216, 0] S1x256
  inb_S2x256x256_S1x1x256_0_216_0 : ∀ a, (![0, 216, 0] : Fin 3 → Nat) a + S1x1x256.size a ≤ S2x256x256.size a
  slices_S256x256_o0_217_S256x1 : S256x256.Slices ![0, 217] S256x1
  slices_S256x256_o217_0_S1x256 : S256x256.Slices ![217, 0] S1x256
  inb_S2x256x256_S1x1x256_0_217_0 : ∀ a, (![0, 217, 0] : Fin 3 → Nat) a + S1x1x256.size a ≤ S2x256x256.size a
  slices_S256x256_o0_218_S256x1 : S256x256.Slices ![0, 218] S256x1
  slices_S256x256_o218_0_S1x256 : S256x256.Slices ![218, 0] S1x256
  inb_S2x256x256_S1x1x256_0_218_0 : ∀ a, (![0, 218, 0] : Fin 3 → Nat) a + S1x1x256.size a ≤ S2x256x256.size a
  slices_S256x256_o0_219_S256x1 : S256x256.Slices ![0, 219] S256x1
  slices_S256x256_o219_0_S1x256 : S256x256.Slices ![219, 0] S1x256
  inb_S2x256x256_S1x1x256_0_219_0 : ∀ a, (![0, 219, 0] : Fin 3 → Nat) a + S1x1x256.size a ≤ S2x256x256.size a
  slices_S256x256_o0_220_S256x1 : S256x256.Slices ![0, 220] S256x1
  slices_S256x256_o220_0_S1x256 : S256x256.Slices ![220, 0] S1x256
  inb_S2x256x256_S1x1x256_0_220_0 : ∀ a, (![0, 220, 0] : Fin 3 → Nat) a + S1x1x256.size a ≤ S2x256x256.size a
  slices_S256x256_o0_221_S256x1 : S256x256.Slices ![0, 221] S256x1
  slices_S256x256_o221_0_S1x256 : S256x256.Slices ![221, 0] S1x256
  inb_S2x256x256_S1x1x256_0_221_0 : ∀ a, (![0, 221, 0] : Fin 3 → Nat) a + S1x1x256.size a ≤ S2x256x256.size a
  slices_S256x256_o0_222_S256x1 : S256x256.Slices ![0, 222] S256x1
  slices_S256x256_o222_0_S1x256 : S256x256.Slices ![222, 0] S1x256
  inb_S2x256x256_S1x1x256_0_222_0 : ∀ a, (![0, 222, 0] : Fin 3 → Nat) a + S1x1x256.size a ≤ S2x256x256.size a
  slices_S256x256_o0_223_S256x1 : S256x256.Slices ![0, 223] S256x1
  slices_S256x256_o223_0_S1x256 : S256x256.Slices ![223, 0] S1x256
  inb_S2x256x256_S1x1x256_0_223_0 : ∀ a, (![0, 223, 0] : Fin 3 → Nat) a + S1x1x256.size a ≤ S2x256x256.size a
  slices_S256x256_o0_224_S256x1 : S256x256.Slices ![0, 224] S256x1
  slices_S256x256_o224_0_S1x256 : S256x256.Slices ![224, 0] S1x256
  inb_S2x256x256_S1x1x256_0_224_0 : ∀ a, (![0, 224, 0] : Fin 3 → Nat) a + S1x1x256.size a ≤ S2x256x256.size a
  slices_S256x256_o0_225_S256x1 : S256x256.Slices ![0, 225] S256x1
  slices_S256x256_o225_0_S1x256 : S256x256.Slices ![225, 0] S1x256
  inb_S2x256x256_S1x1x256_0_225_0 : ∀ a, (![0, 225, 0] : Fin 3 → Nat) a + S1x1x256.size a ≤ S2x256x256.size a
  slices_S256x256_o0_226_S256x1 : S256x256.Slices ![0, 226] S256x1
  slices_S256x256_o226_0_S1x256 : S256x256.Slices ![226, 0] S1x256
  inb_S2x256x256_S1x1x256_0_226_0 : ∀ a, (![0, 226, 0] : Fin 3 → Nat) a + S1x1x256.size a ≤ S2x256x256.size a
  slices_S256x256_o0_227_S256x1 : S256x256.Slices ![0, 227] S256x1
  slices_S256x256_o227_0_S1x256 : S256x256.Slices ![227, 0] S1x256
  inb_S2x256x256_S1x1x256_0_227_0 : ∀ a, (![0, 227, 0] : Fin 3 → Nat) a + S1x1x256.size a ≤ S2x256x256.size a
  slices_S256x256_o0_228_S256x1 : S256x256.Slices ![0, 228] S256x1
  slices_S256x256_o228_0_S1x256 : S256x256.Slices ![228, 0] S1x256
  inb_S2x256x256_S1x1x256_0_228_0 : ∀ a, (![0, 228, 0] : Fin 3 → Nat) a + S1x1x256.size a ≤ S2x256x256.size a
  slices_S256x256_o0_229_S256x1 : S256x256.Slices ![0, 229] S256x1
  slices_S256x256_o229_0_S1x256 : S256x256.Slices ![229, 0] S1x256
  inb_S2x256x256_S1x1x256_0_229_0 : ∀ a, (![0, 229, 0] : Fin 3 → Nat) a + S1x1x256.size a ≤ S2x256x256.size a
  slices_S256x256_o0_230_S256x1 : S256x256.Slices ![0, 230] S256x1
  slices_S256x256_o230_0_S1x256 : S256x256.Slices ![230, 0] S1x256
  inb_S2x256x256_S1x1x256_0_230_0 : ∀ a, (![0, 230, 0] : Fin 3 → Nat) a + S1x1x256.size a ≤ S2x256x256.size a
  slices_S256x256_o0_231_S256x1 : S256x256.Slices ![0, 231] S256x1
  slices_S256x256_o231_0_S1x256 : S256x256.Slices ![231, 0] S1x256
  inb_S2x256x256_S1x1x256_0_231_0 : ∀ a, (![0, 231, 0] : Fin 3 → Nat) a + S1x1x256.size a ≤ S2x256x256.size a
  slices_S256x256_o0_232_S256x1 : S256x256.Slices ![0, 232] S256x1
  slices_S256x256_o232_0_S1x256 : S256x256.Slices ![232, 0] S1x256
  inb_S2x256x256_S1x1x256_0_232_0 : ∀ a, (![0, 232, 0] : Fin 3 → Nat) a + S1x1x256.size a ≤ S2x256x256.size a
  slices_S256x256_o0_233_S256x1 : S256x256.Slices ![0, 233] S256x1
  slices_S256x256_o233_0_S1x256 : S256x256.Slices ![233, 0] S1x256
  inb_S2x256x256_S1x1x256_0_233_0 : ∀ a, (![0, 233, 0] : Fin 3 → Nat) a + S1x1x256.size a ≤ S2x256x256.size a
  slices_S256x256_o0_234_S256x1 : S256x256.Slices ![0, 234] S256x1
  slices_S256x256_o234_0_S1x256 : S256x256.Slices ![234, 0] S1x256
  inb_S2x256x256_S1x1x256_0_234_0 : ∀ a, (![0, 234, 0] : Fin 3 → Nat) a + S1x1x256.size a ≤ S2x256x256.size a
  slices_S256x256_o0_235_S256x1 : S256x256.Slices ![0, 235] S256x1
  slices_S256x256_o235_0_S1x256 : S256x256.Slices ![235, 0] S1x256
  inb_S2x256x256_S1x1x256_0_235_0 : ∀ a, (![0, 235, 0] : Fin 3 → Nat) a + S1x1x256.size a ≤ S2x256x256.size a
  slices_S256x256_o0_236_S256x1 : S256x256.Slices ![0, 236] S256x1
  slices_S256x256_o236_0_S1x256 : S256x256.Slices ![236, 0] S1x256
  inb_S2x256x256_S1x1x256_0_236_0 : ∀ a, (![0, 236, 0] : Fin 3 → Nat) a + S1x1x256.size a ≤ S2x256x256.size a
  slices_S256x256_o0_237_S256x1 : S256x256.Slices ![0, 237] S256x1
  slices_S256x256_o237_0_S1x256 : S256x256.Slices ![237, 0] S1x256
  inb_S2x256x256_S1x1x256_0_237_0 : ∀ a, (![0, 237, 0] : Fin 3 → Nat) a + S1x1x256.size a ≤ S2x256x256.size a
  slices_S256x256_o0_238_S256x1 : S256x256.Slices ![0, 238] S256x1
  slices_S256x256_o238_0_S1x256 : S256x256.Slices ![238, 0] S1x256
  inb_S2x256x256_S1x1x256_0_238_0 : ∀ a, (![0, 238, 0] : Fin 3 → Nat) a + S1x1x256.size a ≤ S2x256x256.size a
  slices_S256x256_o0_239_S256x1 : S256x256.Slices ![0, 239] S256x1
  slices_S256x256_o239_0_S1x256 : S256x256.Slices ![239, 0] S1x256
  inb_S2x256x256_S1x1x256_0_239_0 : ∀ a, (![0, 239, 0] : Fin 3 → Nat) a + S1x1x256.size a ≤ S2x256x256.size a
  slices_S256x256_o0_240_S256x1 : S256x256.Slices ![0, 240] S256x1
  slices_S256x256_o240_0_S1x256 : S256x256.Slices ![240, 0] S1x256
  inb_S2x256x256_S1x1x256_0_240_0 : ∀ a, (![0, 240, 0] : Fin 3 → Nat) a + S1x1x256.size a ≤ S2x256x256.size a
  slices_S256x256_o0_241_S256x1 : S256x256.Slices ![0, 241] S256x1
  slices_S256x256_o241_0_S1x256 : S256x256.Slices ![241, 0] S1x256
  inb_S2x256x256_S1x1x256_0_241_0 : ∀ a, (![0, 241, 0] : Fin 3 → Nat) a + S1x1x256.size a ≤ S2x256x256.size a
  slices_S256x256_o0_242_S256x1 : S256x256.Slices ![0, 242] S256x1
  slices_S256x256_o242_0_S1x256 : S256x256.Slices ![242, 0] S1x256
  inb_S2x256x256_S1x1x256_0_242_0 : ∀ a, (![0, 242, 0] : Fin 3 → Nat) a + S1x1x256.size a ≤ S2x256x256.size a
  slices_S256x256_o0_243_S256x1 : S256x256.Slices ![0, 243] S256x1
  slices_S256x256_o243_0_S1x256 : S256x256.Slices ![243, 0] S1x256
  inb_S2x256x256_S1x1x256_0_243_0 : ∀ a, (![0, 243, 0] : Fin 3 → Nat) a + S1x1x256.size a ≤ S2x256x256.size a
  slices_S256x256_o0_244_S256x1 : S256x256.Slices ![0, 244] S256x1
  slices_S256x256_o244_0_S1x256 : S256x256.Slices ![244, 0] S1x256
  inb_S2x256x256_S1x1x256_0_244_0 : ∀ a, (![0, 244, 0] : Fin 3 → Nat) a + S1x1x256.size a ≤ S2x256x256.size a
  slices_S256x256_o0_245_S256x1 : S256x256.Slices ![0, 245] S256x1
  slices_S256x256_o245_0_S1x256 : S256x256.Slices ![245, 0] S1x256
  inb_S2x256x256_S1x1x256_0_245_0 : ∀ a, (![0, 245, 0] : Fin 3 → Nat) a + S1x1x256.size a ≤ S2x256x256.size a
  slices_S256x256_o0_246_S256x1 : S256x256.Slices ![0, 246] S256x1
  slices_S256x256_o246_0_S1x256 : S256x256.Slices ![246, 0] S1x256
  inb_S2x256x256_S1x1x256_0_246_0 : ∀ a, (![0, 246, 0] : Fin 3 → Nat) a + S1x1x256.size a ≤ S2x256x256.size a
  slices_S256x256_o0_247_S256x1 : S256x256.Slices ![0, 247] S256x1
  slices_S256x256_o247_0_S1x256 : S256x256.Slices ![247, 0] S1x256
  inb_S2x256x256_S1x1x256_0_247_0 : ∀ a, (![0, 247, 0] : Fin 3 → Nat) a + S1x1x256.size a ≤ S2x256x256.size a
  slices_S256x256_o0_248_S256x1 : S256x256.Slices ![0, 248] S256x1
  slices_S256x256_o248_0_S1x256 : S256x256.Slices ![248, 0] S1x256
  inb_S2x256x256_S1x1x256_0_248_0 : ∀ a, (![0, 248, 0] : Fin 3 → Nat) a + S1x1x256.size a ≤ S2x256x256.size a
  slices_S256x256_o0_249_S256x1 : S256x256.Slices ![0, 249] S256x1
  slices_S256x256_o249_0_S1x256 : S256x256.Slices ![249, 0] S1x256
  inb_S2x256x256_S1x1x256_0_249_0 : ∀ a, (![0, 249, 0] : Fin 3 → Nat) a + S1x1x256.size a ≤ S2x256x256.size a
  slices_S256x256_o0_250_S256x1 : S256x256.Slices ![0, 250] S256x1
  slices_S256x256_o250_0_S1x256 : S256x256.Slices ![250, 0] S1x256
  inb_S2x256x256_S1x1x256_0_250_0 : ∀ a, (![0, 250, 0] : Fin 3 → Nat) a + S1x1x256.size a ≤ S2x256x256.size a
  slices_S256x256_o0_251_S256x1 : S256x256.Slices ![0, 251] S256x1
  slices_S256x256_o251_0_S1x256 : S256x256.Slices ![251, 0] S1x256
  inb_S2x256x256_S1x1x256_0_251_0 : ∀ a, (![0, 251, 0] : Fin 3 → Nat) a + S1x1x256.size a ≤ S2x256x256.size a
  slices_S256x256_o0_252_S256x1 : S256x256.Slices ![0, 252] S256x1
  slices_S256x256_o252_0_S1x256 : S256x256.Slices ![252, 0] S1x256
  inb_S2x256x256_S1x1x256_0_252_0 : ∀ a, (![0, 252, 0] : Fin 3 → Nat) a + S1x1x256.size a ≤ S2x256x256.size a
  slices_S256x256_o0_253_S256x1 : S256x256.Slices ![0, 253] S256x1
  slices_S256x256_o253_0_S1x256 : S256x256.Slices ![253, 0] S1x256
  inb_S2x256x256_S1x1x256_0_253_0 : ∀ a, (![0, 253, 0] : Fin 3 → Nat) a + S1x1x256.size a ≤ S2x256x256.size a
  slices_S256x256_o0_254_S256x1 : S256x256.Slices ![0, 254] S256x1
  slices_S256x256_o254_0_S1x256 : S256x256.Slices ![254, 0] S1x256
  inb_S2x256x256_S1x1x256_0_254_0 : ∀ a, (![0, 254, 0] : Fin 3 → Nat) a + S1x1x256.size a ≤ S2x256x256.size a
  slices_S256x256_o0_255_S256x1 : S256x256.Slices ![0, 255] S256x1
  slices_S256x256_o255_0_S1x256 : S256x256.Slices ![255, 0] S1x256
  inb_S2x256x256_S1x1x256_0_255_0 : ∀ a, (![0, 255, 0] : Fin 3 → Nat) a + S1x1x256.size a ≤ S2x256x256.size a
  inb_S2x256x256_S1x256x256_1_0_0 : ∀ a, (![1, 0, 0] : Fin 3 → Nat) a + S1x256x256.size a ≤ S2x256x256.size a
  inb_S2x256x256_S1x1x256_1_0_0 : ∀ a, (![1, 0, 0] : Fin 3 → Nat) a + S1x1x256.size a ≤ S2x256x256.size a
  inb_S2x256x256_S1x1x256_1_1_0 : ∀ a, (![1, 1, 0] : Fin 3 → Nat) a + S1x1x256.size a ≤ S2x256x256.size a
  inb_S2x256x256_S1x1x256_1_2_0 : ∀ a, (![1, 2, 0] : Fin 3 → Nat) a + S1x1x256.size a ≤ S2x256x256.size a
  inb_S2x256x256_S1x1x256_1_3_0 : ∀ a, (![1, 3, 0] : Fin 3 → Nat) a + S1x1x256.size a ≤ S2x256x256.size a
  inb_S2x256x256_S1x1x256_1_4_0 : ∀ a, (![1, 4, 0] : Fin 3 → Nat) a + S1x1x256.size a ≤ S2x256x256.size a
  inb_S2x256x256_S1x1x256_1_5_0 : ∀ a, (![1, 5, 0] : Fin 3 → Nat) a + S1x1x256.size a ≤ S2x256x256.size a
  inb_S2x256x256_S1x1x256_1_6_0 : ∀ a, (![1, 6, 0] : Fin 3 → Nat) a + S1x1x256.size a ≤ S2x256x256.size a
  inb_S2x256x256_S1x1x256_1_7_0 : ∀ a, (![1, 7, 0] : Fin 3 → Nat) a + S1x1x256.size a ≤ S2x256x256.size a
  inb_S2x256x256_S1x1x256_1_8_0 : ∀ a, (![1, 8, 0] : Fin 3 → Nat) a + S1x1x256.size a ≤ S2x256x256.size a
  inb_S2x256x256_S1x1x256_1_9_0 : ∀ a, (![1, 9, 0] : Fin 3 → Nat) a + S1x1x256.size a ≤ S2x256x256.size a
  inb_S2x256x256_S1x1x256_1_10_0 : ∀ a, (![1, 10, 0] : Fin 3 → Nat) a + S1x1x256.size a ≤ S2x256x256.size a
  inb_S2x256x256_S1x1x256_1_11_0 : ∀ a, (![1, 11, 0] : Fin 3 → Nat) a + S1x1x256.size a ≤ S2x256x256.size a
  inb_S2x256x256_S1x1x256_1_12_0 : ∀ a, (![1, 12, 0] : Fin 3 → Nat) a + S1x1x256.size a ≤ S2x256x256.size a
  inb_S2x256x256_S1x1x256_1_13_0 : ∀ a, (![1, 13, 0] : Fin 3 → Nat) a + S1x1x256.size a ≤ S2x256x256.size a
  inb_S2x256x256_S1x1x256_1_14_0 : ∀ a, (![1, 14, 0] : Fin 3 → Nat) a + S1x1x256.size a ≤ S2x256x256.size a
  inb_S2x256x256_S1x1x256_1_15_0 : ∀ a, (![1, 15, 0] : Fin 3 → Nat) a + S1x1x256.size a ≤ S2x256x256.size a
  inb_S2x256x256_S1x1x256_1_16_0 : ∀ a, (![1, 16, 0] : Fin 3 → Nat) a + S1x1x256.size a ≤ S2x256x256.size a
  inb_S2x256x256_S1x1x256_1_17_0 : ∀ a, (![1, 17, 0] : Fin 3 → Nat) a + S1x1x256.size a ≤ S2x256x256.size a
  inb_S2x256x256_S1x1x256_1_18_0 : ∀ a, (![1, 18, 0] : Fin 3 → Nat) a + S1x1x256.size a ≤ S2x256x256.size a
  inb_S2x256x256_S1x1x256_1_19_0 : ∀ a, (![1, 19, 0] : Fin 3 → Nat) a + S1x1x256.size a ≤ S2x256x256.size a
  inb_S2x256x256_S1x1x256_1_20_0 : ∀ a, (![1, 20, 0] : Fin 3 → Nat) a + S1x1x256.size a ≤ S2x256x256.size a
  inb_S2x256x256_S1x1x256_1_21_0 : ∀ a, (![1, 21, 0] : Fin 3 → Nat) a + S1x1x256.size a ≤ S2x256x256.size a
  inb_S2x256x256_S1x1x256_1_22_0 : ∀ a, (![1, 22, 0] : Fin 3 → Nat) a + S1x1x256.size a ≤ S2x256x256.size a
  inb_S2x256x256_S1x1x256_1_23_0 : ∀ a, (![1, 23, 0] : Fin 3 → Nat) a + S1x1x256.size a ≤ S2x256x256.size a
  inb_S2x256x256_S1x1x256_1_24_0 : ∀ a, (![1, 24, 0] : Fin 3 → Nat) a + S1x1x256.size a ≤ S2x256x256.size a
  inb_S2x256x256_S1x1x256_1_25_0 : ∀ a, (![1, 25, 0] : Fin 3 → Nat) a + S1x1x256.size a ≤ S2x256x256.size a
  inb_S2x256x256_S1x1x256_1_26_0 : ∀ a, (![1, 26, 0] : Fin 3 → Nat) a + S1x1x256.size a ≤ S2x256x256.size a
  inb_S2x256x256_S1x1x256_1_27_0 : ∀ a, (![1, 27, 0] : Fin 3 → Nat) a + S1x1x256.size a ≤ S2x256x256.size a
  inb_S2x256x256_S1x1x256_1_28_0 : ∀ a, (![1, 28, 0] : Fin 3 → Nat) a + S1x1x256.size a ≤ S2x256x256.size a
  inb_S2x256x256_S1x1x256_1_29_0 : ∀ a, (![1, 29, 0] : Fin 3 → Nat) a + S1x1x256.size a ≤ S2x256x256.size a
  inb_S2x256x256_S1x1x256_1_30_0 : ∀ a, (![1, 30, 0] : Fin 3 → Nat) a + S1x1x256.size a ≤ S2x256x256.size a
  inb_S2x256x256_S1x1x256_1_31_0 : ∀ a, (![1, 31, 0] : Fin 3 → Nat) a + S1x1x256.size a ≤ S2x256x256.size a
  inb_S2x256x256_S1x1x256_1_32_0 : ∀ a, (![1, 32, 0] : Fin 3 → Nat) a + S1x1x256.size a ≤ S2x256x256.size a
  inb_S2x256x256_S1x1x256_1_33_0 : ∀ a, (![1, 33, 0] : Fin 3 → Nat) a + S1x1x256.size a ≤ S2x256x256.size a
  inb_S2x256x256_S1x1x256_1_34_0 : ∀ a, (![1, 34, 0] : Fin 3 → Nat) a + S1x1x256.size a ≤ S2x256x256.size a
  inb_S2x256x256_S1x1x256_1_35_0 : ∀ a, (![1, 35, 0] : Fin 3 → Nat) a + S1x1x256.size a ≤ S2x256x256.size a
  inb_S2x256x256_S1x1x256_1_36_0 : ∀ a, (![1, 36, 0] : Fin 3 → Nat) a + S1x1x256.size a ≤ S2x256x256.size a
  inb_S2x256x256_S1x1x256_1_37_0 : ∀ a, (![1, 37, 0] : Fin 3 → Nat) a + S1x1x256.size a ≤ S2x256x256.size a
  inb_S2x256x256_S1x1x256_1_38_0 : ∀ a, (![1, 38, 0] : Fin 3 → Nat) a + S1x1x256.size a ≤ S2x256x256.size a
  inb_S2x256x256_S1x1x256_1_39_0 : ∀ a, (![1, 39, 0] : Fin 3 → Nat) a + S1x1x256.size a ≤ S2x256x256.size a
  inb_S2x256x256_S1x1x256_1_40_0 : ∀ a, (![1, 40, 0] : Fin 3 → Nat) a + S1x1x256.size a ≤ S2x256x256.size a
  inb_S2x256x256_S1x1x256_1_41_0 : ∀ a, (![1, 41, 0] : Fin 3 → Nat) a + S1x1x256.size a ≤ S2x256x256.size a
  inb_S2x256x256_S1x1x256_1_42_0 : ∀ a, (![1, 42, 0] : Fin 3 → Nat) a + S1x1x256.size a ≤ S2x256x256.size a
  inb_S2x256x256_S1x1x256_1_43_0 : ∀ a, (![1, 43, 0] : Fin 3 → Nat) a + S1x1x256.size a ≤ S2x256x256.size a
  inb_S2x256x256_S1x1x256_1_44_0 : ∀ a, (![1, 44, 0] : Fin 3 → Nat) a + S1x1x256.size a ≤ S2x256x256.size a
  inb_S2x256x256_S1x1x256_1_45_0 : ∀ a, (![1, 45, 0] : Fin 3 → Nat) a + S1x1x256.size a ≤ S2x256x256.size a
  inb_S2x256x256_S1x1x256_1_46_0 : ∀ a, (![1, 46, 0] : Fin 3 → Nat) a + S1x1x256.size a ≤ S2x256x256.size a
  inb_S2x256x256_S1x1x256_1_47_0 : ∀ a, (![1, 47, 0] : Fin 3 → Nat) a + S1x1x256.size a ≤ S2x256x256.size a
  inb_S2x256x256_S1x1x256_1_48_0 : ∀ a, (![1, 48, 0] : Fin 3 → Nat) a + S1x1x256.size a ≤ S2x256x256.size a
  inb_S2x256x256_S1x1x256_1_49_0 : ∀ a, (![1, 49, 0] : Fin 3 → Nat) a + S1x1x256.size a ≤ S2x256x256.size a
  inb_S2x256x256_S1x1x256_1_50_0 : ∀ a, (![1, 50, 0] : Fin 3 → Nat) a + S1x1x256.size a ≤ S2x256x256.size a
  inb_S2x256x256_S1x1x256_1_51_0 : ∀ a, (![1, 51, 0] : Fin 3 → Nat) a + S1x1x256.size a ≤ S2x256x256.size a
  inb_S2x256x256_S1x1x256_1_52_0 : ∀ a, (![1, 52, 0] : Fin 3 → Nat) a + S1x1x256.size a ≤ S2x256x256.size a
  inb_S2x256x256_S1x1x256_1_53_0 : ∀ a, (![1, 53, 0] : Fin 3 → Nat) a + S1x1x256.size a ≤ S2x256x256.size a
  inb_S2x256x256_S1x1x256_1_54_0 : ∀ a, (![1, 54, 0] : Fin 3 → Nat) a + S1x1x256.size a ≤ S2x256x256.size a
  inb_S2x256x256_S1x1x256_1_55_0 : ∀ a, (![1, 55, 0] : Fin 3 → Nat) a + S1x1x256.size a ≤ S2x256x256.size a
  inb_S2x256x256_S1x1x256_1_56_0 : ∀ a, (![1, 56, 0] : Fin 3 → Nat) a + S1x1x256.size a ≤ S2x256x256.size a
  inb_S2x256x256_S1x1x256_1_57_0 : ∀ a, (![1, 57, 0] : Fin 3 → Nat) a + S1x1x256.size a ≤ S2x256x256.size a
  inb_S2x256x256_S1x1x256_1_58_0 : ∀ a, (![1, 58, 0] : Fin 3 → Nat) a + S1x1x256.size a ≤ S2x256x256.size a
  inb_S2x256x256_S1x1x256_1_59_0 : ∀ a, (![1, 59, 0] : Fin 3 → Nat) a + S1x1x256.size a ≤ S2x256x256.size a
  inb_S2x256x256_S1x1x256_1_60_0 : ∀ a, (![1, 60, 0] : Fin 3 → Nat) a + S1x1x256.size a ≤ S2x256x256.size a
  inb_S2x256x256_S1x1x256_1_61_0 : ∀ a, (![1, 61, 0] : Fin 3 → Nat) a + S1x1x256.size a ≤ S2x256x256.size a
  inb_S2x256x256_S1x1x256_1_62_0 : ∀ a, (![1, 62, 0] : Fin 3 → Nat) a + S1x1x256.size a ≤ S2x256x256.size a
  inb_S2x256x256_S1x1x256_1_63_0 : ∀ a, (![1, 63, 0] : Fin 3 → Nat) a + S1x1x256.size a ≤ S2x256x256.size a
  inb_S2x256x256_S1x1x256_1_64_0 : ∀ a, (![1, 64, 0] : Fin 3 → Nat) a + S1x1x256.size a ≤ S2x256x256.size a
  inb_S2x256x256_S1x1x256_1_65_0 : ∀ a, (![1, 65, 0] : Fin 3 → Nat) a + S1x1x256.size a ≤ S2x256x256.size a
  inb_S2x256x256_S1x1x256_1_66_0 : ∀ a, (![1, 66, 0] : Fin 3 → Nat) a + S1x1x256.size a ≤ S2x256x256.size a
  inb_S2x256x256_S1x1x256_1_67_0 : ∀ a, (![1, 67, 0] : Fin 3 → Nat) a + S1x1x256.size a ≤ S2x256x256.size a
  inb_S2x256x256_S1x1x256_1_68_0 : ∀ a, (![1, 68, 0] : Fin 3 → Nat) a + S1x1x256.size a ≤ S2x256x256.size a
  inb_S2x256x256_S1x1x256_1_69_0 : ∀ a, (![1, 69, 0] : Fin 3 → Nat) a + S1x1x256.size a ≤ S2x256x256.size a
  inb_S2x256x256_S1x1x256_1_70_0 : ∀ a, (![1, 70, 0] : Fin 3 → Nat) a + S1x1x256.size a ≤ S2x256x256.size a
  inb_S2x256x256_S1x1x256_1_71_0 : ∀ a, (![1, 71, 0] : Fin 3 → Nat) a + S1x1x256.size a ≤ S2x256x256.size a
  inb_S2x256x256_S1x1x256_1_72_0 : ∀ a, (![1, 72, 0] : Fin 3 → Nat) a + S1x1x256.size a ≤ S2x256x256.size a
  inb_S2x256x256_S1x1x256_1_73_0 : ∀ a, (![1, 73, 0] : Fin 3 → Nat) a + S1x1x256.size a ≤ S2x256x256.size a
  inb_S2x256x256_S1x1x256_1_74_0 : ∀ a, (![1, 74, 0] : Fin 3 → Nat) a + S1x1x256.size a ≤ S2x256x256.size a
  inb_S2x256x256_S1x1x256_1_75_0 : ∀ a, (![1, 75, 0] : Fin 3 → Nat) a + S1x1x256.size a ≤ S2x256x256.size a
  inb_S2x256x256_S1x1x256_1_76_0 : ∀ a, (![1, 76, 0] : Fin 3 → Nat) a + S1x1x256.size a ≤ S2x256x256.size a
  inb_S2x256x256_S1x1x256_1_77_0 : ∀ a, (![1, 77, 0] : Fin 3 → Nat) a + S1x1x256.size a ≤ S2x256x256.size a
  inb_S2x256x256_S1x1x256_1_78_0 : ∀ a, (![1, 78, 0] : Fin 3 → Nat) a + S1x1x256.size a ≤ S2x256x256.size a
  inb_S2x256x256_S1x1x256_1_79_0 : ∀ a, (![1, 79, 0] : Fin 3 → Nat) a + S1x1x256.size a ≤ S2x256x256.size a
  inb_S2x256x256_S1x1x256_1_80_0 : ∀ a, (![1, 80, 0] : Fin 3 → Nat) a + S1x1x256.size a ≤ S2x256x256.size a
  inb_S2x256x256_S1x1x256_1_81_0 : ∀ a, (![1, 81, 0] : Fin 3 → Nat) a + S1x1x256.size a ≤ S2x256x256.size a
  inb_S2x256x256_S1x1x256_1_82_0 : ∀ a, (![1, 82, 0] : Fin 3 → Nat) a + S1x1x256.size a ≤ S2x256x256.size a
  inb_S2x256x256_S1x1x256_1_83_0 : ∀ a, (![1, 83, 0] : Fin 3 → Nat) a + S1x1x256.size a ≤ S2x256x256.size a
  inb_S2x256x256_S1x1x256_1_84_0 : ∀ a, (![1, 84, 0] : Fin 3 → Nat) a + S1x1x256.size a ≤ S2x256x256.size a
  inb_S2x256x256_S1x1x256_1_85_0 : ∀ a, (![1, 85, 0] : Fin 3 → Nat) a + S1x1x256.size a ≤ S2x256x256.size a
  inb_S2x256x256_S1x1x256_1_86_0 : ∀ a, (![1, 86, 0] : Fin 3 → Nat) a + S1x1x256.size a ≤ S2x256x256.size a
  inb_S2x256x256_S1x1x256_1_87_0 : ∀ a, (![1, 87, 0] : Fin 3 → Nat) a + S1x1x256.size a ≤ S2x256x256.size a
  inb_S2x256x256_S1x1x256_1_88_0 : ∀ a, (![1, 88, 0] : Fin 3 → Nat) a + S1x1x256.size a ≤ S2x256x256.size a
  inb_S2x256x256_S1x1x256_1_89_0 : ∀ a, (![1, 89, 0] : Fin 3 → Nat) a + S1x1x256.size a ≤ S2x256x256.size a
  inb_S2x256x256_S1x1x256_1_90_0 : ∀ a, (![1, 90, 0] : Fin 3 → Nat) a + S1x1x256.size a ≤ S2x256x256.size a
  inb_S2x256x256_S1x1x256_1_91_0 : ∀ a, (![1, 91, 0] : Fin 3 → Nat) a + S1x1x256.size a ≤ S2x256x256.size a
  inb_S2x256x256_S1x1x256_1_92_0 : ∀ a, (![1, 92, 0] : Fin 3 → Nat) a + S1x1x256.size a ≤ S2x256x256.size a
  inb_S2x256x256_S1x1x256_1_93_0 : ∀ a, (![1, 93, 0] : Fin 3 → Nat) a + S1x1x256.size a ≤ S2x256x256.size a
  inb_S2x256x256_S1x1x256_1_94_0 : ∀ a, (![1, 94, 0] : Fin 3 → Nat) a + S1x1x256.size a ≤ S2x256x256.size a
  inb_S2x256x256_S1x1x256_1_95_0 : ∀ a, (![1, 95, 0] : Fin 3 → Nat) a + S1x1x256.size a ≤ S2x256x256.size a
  inb_S2x256x256_S1x1x256_1_96_0 : ∀ a, (![1, 96, 0] : Fin 3 → Nat) a + S1x1x256.size a ≤ S2x256x256.size a
  inb_S2x256x256_S1x1x256_1_97_0 : ∀ a, (![1, 97, 0] : Fin 3 → Nat) a + S1x1x256.size a ≤ S2x256x256.size a
  inb_S2x256x256_S1x1x256_1_98_0 : ∀ a, (![1, 98, 0] : Fin 3 → Nat) a + S1x1x256.size a ≤ S2x256x256.size a
  inb_S2x256x256_S1x1x256_1_99_0 : ∀ a, (![1, 99, 0] : Fin 3 → Nat) a + S1x1x256.size a ≤ S2x256x256.size a
  inb_S2x256x256_S1x1x256_1_100_0 : ∀ a, (![1, 100, 0] : Fin 3 → Nat) a + S1x1x256.size a ≤ S2x256x256.size a
  inb_S2x256x256_S1x1x256_1_101_0 : ∀ a, (![1, 101, 0] : Fin 3 → Nat) a + S1x1x256.size a ≤ S2x256x256.size a
  inb_S2x256x256_S1x1x256_1_102_0 : ∀ a, (![1, 102, 0] : Fin 3 → Nat) a + S1x1x256.size a ≤ S2x256x256.size a
  inb_S2x256x256_S1x1x256_1_103_0 : ∀ a, (![1, 103, 0] : Fin 3 → Nat) a + S1x1x256.size a ≤ S2x256x256.size a
  inb_S2x256x256_S1x1x256_1_104_0 : ∀ a, (![1, 104, 0] : Fin 3 → Nat) a + S1x1x256.size a ≤ S2x256x256.size a
  inb_S2x256x256_S1x1x256_1_105_0 : ∀ a, (![1, 105, 0] : Fin 3 → Nat) a + S1x1x256.size a ≤ S2x256x256.size a
  inb_S2x256x256_S1x1x256_1_106_0 : ∀ a, (![1, 106, 0] : Fin 3 → Nat) a + S1x1x256.size a ≤ S2x256x256.size a
  inb_S2x256x256_S1x1x256_1_107_0 : ∀ a, (![1, 107, 0] : Fin 3 → Nat) a + S1x1x256.size a ≤ S2x256x256.size a
  inb_S2x256x256_S1x1x256_1_108_0 : ∀ a, (![1, 108, 0] : Fin 3 → Nat) a + S1x1x256.size a ≤ S2x256x256.size a
  inb_S2x256x256_S1x1x256_1_109_0 : ∀ a, (![1, 109, 0] : Fin 3 → Nat) a + S1x1x256.size a ≤ S2x256x256.size a
  inb_S2x256x256_S1x1x256_1_110_0 : ∀ a, (![1, 110, 0] : Fin 3 → Nat) a + S1x1x256.size a ≤ S2x256x256.size a
  inb_S2x256x256_S1x1x256_1_111_0 : ∀ a, (![1, 111, 0] : Fin 3 → Nat) a + S1x1x256.size a ≤ S2x256x256.size a
  inb_S2x256x256_S1x1x256_1_112_0 : ∀ a, (![1, 112, 0] : Fin 3 → Nat) a + S1x1x256.size a ≤ S2x256x256.size a
  inb_S2x256x256_S1x1x256_1_113_0 : ∀ a, (![1, 113, 0] : Fin 3 → Nat) a + S1x1x256.size a ≤ S2x256x256.size a
  inb_S2x256x256_S1x1x256_1_114_0 : ∀ a, (![1, 114, 0] : Fin 3 → Nat) a + S1x1x256.size a ≤ S2x256x256.size a
  inb_S2x256x256_S1x1x256_1_115_0 : ∀ a, (![1, 115, 0] : Fin 3 → Nat) a + S1x1x256.size a ≤ S2x256x256.size a
  inb_S2x256x256_S1x1x256_1_116_0 : ∀ a, (![1, 116, 0] : Fin 3 → Nat) a + S1x1x256.size a ≤ S2x256x256.size a
  inb_S2x256x256_S1x1x256_1_117_0 : ∀ a, (![1, 117, 0] : Fin 3 → Nat) a + S1x1x256.size a ≤ S2x256x256.size a
  inb_S2x256x256_S1x1x256_1_118_0 : ∀ a, (![1, 118, 0] : Fin 3 → Nat) a + S1x1x256.size a ≤ S2x256x256.size a
  inb_S2x256x256_S1x1x256_1_119_0 : ∀ a, (![1, 119, 0] : Fin 3 → Nat) a + S1x1x256.size a ≤ S2x256x256.size a
  inb_S2x256x256_S1x1x256_1_120_0 : ∀ a, (![1, 120, 0] : Fin 3 → Nat) a + S1x1x256.size a ≤ S2x256x256.size a
  inb_S2x256x256_S1x1x256_1_121_0 : ∀ a, (![1, 121, 0] : Fin 3 → Nat) a + S1x1x256.size a ≤ S2x256x256.size a
  inb_S2x256x256_S1x1x256_1_122_0 : ∀ a, (![1, 122, 0] : Fin 3 → Nat) a + S1x1x256.size a ≤ S2x256x256.size a
  inb_S2x256x256_S1x1x256_1_123_0 : ∀ a, (![1, 123, 0] : Fin 3 → Nat) a + S1x1x256.size a ≤ S2x256x256.size a
  inb_S2x256x256_S1x1x256_1_124_0 : ∀ a, (![1, 124, 0] : Fin 3 → Nat) a + S1x1x256.size a ≤ S2x256x256.size a
  inb_S2x256x256_S1x1x256_1_125_0 : ∀ a, (![1, 125, 0] : Fin 3 → Nat) a + S1x1x256.size a ≤ S2x256x256.size a
  inb_S2x256x256_S1x1x256_1_126_0 : ∀ a, (![1, 126, 0] : Fin 3 → Nat) a + S1x1x256.size a ≤ S2x256x256.size a
  inb_S2x256x256_S1x1x256_1_127_0 : ∀ a, (![1, 127, 0] : Fin 3 → Nat) a + S1x1x256.size a ≤ S2x256x256.size a
  inb_S2x256x256_S1x1x256_1_128_0 : ∀ a, (![1, 128, 0] : Fin 3 → Nat) a + S1x1x256.size a ≤ S2x256x256.size a
  inb_S2x256x256_S1x1x256_1_129_0 : ∀ a, (![1, 129, 0] : Fin 3 → Nat) a + S1x1x256.size a ≤ S2x256x256.size a
  inb_S2x256x256_S1x1x256_1_130_0 : ∀ a, (![1, 130, 0] : Fin 3 → Nat) a + S1x1x256.size a ≤ S2x256x256.size a
  inb_S2x256x256_S1x1x256_1_131_0 : ∀ a, (![1, 131, 0] : Fin 3 → Nat) a + S1x1x256.size a ≤ S2x256x256.size a
  inb_S2x256x256_S1x1x256_1_132_0 : ∀ a, (![1, 132, 0] : Fin 3 → Nat) a + S1x1x256.size a ≤ S2x256x256.size a
  inb_S2x256x256_S1x1x256_1_133_0 : ∀ a, (![1, 133, 0] : Fin 3 → Nat) a + S1x1x256.size a ≤ S2x256x256.size a
  inb_S2x256x256_S1x1x256_1_134_0 : ∀ a, (![1, 134, 0] : Fin 3 → Nat) a + S1x1x256.size a ≤ S2x256x256.size a
  inb_S2x256x256_S1x1x256_1_135_0 : ∀ a, (![1, 135, 0] : Fin 3 → Nat) a + S1x1x256.size a ≤ S2x256x256.size a
  inb_S2x256x256_S1x1x256_1_136_0 : ∀ a, (![1, 136, 0] : Fin 3 → Nat) a + S1x1x256.size a ≤ S2x256x256.size a
  inb_S2x256x256_S1x1x256_1_137_0 : ∀ a, (![1, 137, 0] : Fin 3 → Nat) a + S1x1x256.size a ≤ S2x256x256.size a
  inb_S2x256x256_S1x1x256_1_138_0 : ∀ a, (![1, 138, 0] : Fin 3 → Nat) a + S1x1x256.size a ≤ S2x256x256.size a
  inb_S2x256x256_S1x1x256_1_139_0 : ∀ a, (![1, 139, 0] : Fin 3 → Nat) a + S1x1x256.size a ≤ S2x256x256.size a
  inb_S2x256x256_S1x1x256_1_140_0 : ∀ a, (![1, 140, 0] : Fin 3 → Nat) a + S1x1x256.size a ≤ S2x256x256.size a
  inb_S2x256x256_S1x1x256_1_141_0 : ∀ a, (![1, 141, 0] : Fin 3 → Nat) a + S1x1x256.size a ≤ S2x256x256.size a
  inb_S2x256x256_S1x1x256_1_142_0 : ∀ a, (![1, 142, 0] : Fin 3 → Nat) a + S1x1x256.size a ≤ S2x256x256.size a
  inb_S2x256x256_S1x1x256_1_143_0 : ∀ a, (![1, 143, 0] : Fin 3 → Nat) a + S1x1x256.size a ≤ S2x256x256.size a
  inb_S2x256x256_S1x1x256_1_144_0 : ∀ a, (![1, 144, 0] : Fin 3 → Nat) a + S1x1x256.size a ≤ S2x256x256.size a
  inb_S2x256x256_S1x1x256_1_145_0 : ∀ a, (![1, 145, 0] : Fin 3 → Nat) a + S1x1x256.size a ≤ S2x256x256.size a
  inb_S2x256x256_S1x1x256_1_146_0 : ∀ a, (![1, 146, 0] : Fin 3 → Nat) a + S1x1x256.size a ≤ S2x256x256.size a
  inb_S2x256x256_S1x1x256_1_147_0 : ∀ a, (![1, 147, 0] : Fin 3 → Nat) a + S1x1x256.size a ≤ S2x256x256.size a
  inb_S2x256x256_S1x1x256_1_148_0 : ∀ a, (![1, 148, 0] : Fin 3 → Nat) a + S1x1x256.size a ≤ S2x256x256.size a
  inb_S2x256x256_S1x1x256_1_149_0 : ∀ a, (![1, 149, 0] : Fin 3 → Nat) a + S1x1x256.size a ≤ S2x256x256.size a
  inb_S2x256x256_S1x1x256_1_150_0 : ∀ a, (![1, 150, 0] : Fin 3 → Nat) a + S1x1x256.size a ≤ S2x256x256.size a
  inb_S2x256x256_S1x1x256_1_151_0 : ∀ a, (![1, 151, 0] : Fin 3 → Nat) a + S1x1x256.size a ≤ S2x256x256.size a
  inb_S2x256x256_S1x1x256_1_152_0 : ∀ a, (![1, 152, 0] : Fin 3 → Nat) a + S1x1x256.size a ≤ S2x256x256.size a
  inb_S2x256x256_S1x1x256_1_153_0 : ∀ a, (![1, 153, 0] : Fin 3 → Nat) a + S1x1x256.size a ≤ S2x256x256.size a
  inb_S2x256x256_S1x1x256_1_154_0 : ∀ a, (![1, 154, 0] : Fin 3 → Nat) a + S1x1x256.size a ≤ S2x256x256.size a
  inb_S2x256x256_S1x1x256_1_155_0 : ∀ a, (![1, 155, 0] : Fin 3 → Nat) a + S1x1x256.size a ≤ S2x256x256.size a
  inb_S2x256x256_S1x1x256_1_156_0 : ∀ a, (![1, 156, 0] : Fin 3 → Nat) a + S1x1x256.size a ≤ S2x256x256.size a
  inb_S2x256x256_S1x1x256_1_157_0 : ∀ a, (![1, 157, 0] : Fin 3 → Nat) a + S1x1x256.size a ≤ S2x256x256.size a
  inb_S2x256x256_S1x1x256_1_158_0 : ∀ a, (![1, 158, 0] : Fin 3 → Nat) a + S1x1x256.size a ≤ S2x256x256.size a
  inb_S2x256x256_S1x1x256_1_159_0 : ∀ a, (![1, 159, 0] : Fin 3 → Nat) a + S1x1x256.size a ≤ S2x256x256.size a
  inb_S2x256x256_S1x1x256_1_160_0 : ∀ a, (![1, 160, 0] : Fin 3 → Nat) a + S1x1x256.size a ≤ S2x256x256.size a
  inb_S2x256x256_S1x1x256_1_161_0 : ∀ a, (![1, 161, 0] : Fin 3 → Nat) a + S1x1x256.size a ≤ S2x256x256.size a
  inb_S2x256x256_S1x1x256_1_162_0 : ∀ a, (![1, 162, 0] : Fin 3 → Nat) a + S1x1x256.size a ≤ S2x256x256.size a
  inb_S2x256x256_S1x1x256_1_163_0 : ∀ a, (![1, 163, 0] : Fin 3 → Nat) a + S1x1x256.size a ≤ S2x256x256.size a
  inb_S2x256x256_S1x1x256_1_164_0 : ∀ a, (![1, 164, 0] : Fin 3 → Nat) a + S1x1x256.size a ≤ S2x256x256.size a
  inb_S2x256x256_S1x1x256_1_165_0 : ∀ a, (![1, 165, 0] : Fin 3 → Nat) a + S1x1x256.size a ≤ S2x256x256.size a
  inb_S2x256x256_S1x1x256_1_166_0 : ∀ a, (![1, 166, 0] : Fin 3 → Nat) a + S1x1x256.size a ≤ S2x256x256.size a
  inb_S2x256x256_S1x1x256_1_167_0 : ∀ a, (![1, 167, 0] : Fin 3 → Nat) a + S1x1x256.size a ≤ S2x256x256.size a
  inb_S2x256x256_S1x1x256_1_168_0 : ∀ a, (![1, 168, 0] : Fin 3 → Nat) a + S1x1x256.size a ≤ S2x256x256.size a
  inb_S2x256x256_S1x1x256_1_169_0 : ∀ a, (![1, 169, 0] : Fin 3 → Nat) a + S1x1x256.size a ≤ S2x256x256.size a
  inb_S2x256x256_S1x1x256_1_170_0 : ∀ a, (![1, 170, 0] : Fin 3 → Nat) a + S1x1x256.size a ≤ S2x256x256.size a
  inb_S2x256x256_S1x1x256_1_171_0 : ∀ a, (![1, 171, 0] : Fin 3 → Nat) a + S1x1x256.size a ≤ S2x256x256.size a
  inb_S2x256x256_S1x1x256_1_172_0 : ∀ a, (![1, 172, 0] : Fin 3 → Nat) a + S1x1x256.size a ≤ S2x256x256.size a
  inb_S2x256x256_S1x1x256_1_173_0 : ∀ a, (![1, 173, 0] : Fin 3 → Nat) a + S1x1x256.size a ≤ S2x256x256.size a
  inb_S2x256x256_S1x1x256_1_174_0 : ∀ a, (![1, 174, 0] : Fin 3 → Nat) a + S1x1x256.size a ≤ S2x256x256.size a
  inb_S2x256x256_S1x1x256_1_175_0 : ∀ a, (![1, 175, 0] : Fin 3 → Nat) a + S1x1x256.size a ≤ S2x256x256.size a
  inb_S2x256x256_S1x1x256_1_176_0 : ∀ a, (![1, 176, 0] : Fin 3 → Nat) a + S1x1x256.size a ≤ S2x256x256.size a
  inb_S2x256x256_S1x1x256_1_177_0 : ∀ a, (![1, 177, 0] : Fin 3 → Nat) a + S1x1x256.size a ≤ S2x256x256.size a
  inb_S2x256x256_S1x1x256_1_178_0 : ∀ a, (![1, 178, 0] : Fin 3 → Nat) a + S1x1x256.size a ≤ S2x256x256.size a
  inb_S2x256x256_S1x1x256_1_179_0 : ∀ a, (![1, 179, 0] : Fin 3 → Nat) a + S1x1x256.size a ≤ S2x256x256.size a
  inb_S2x256x256_S1x1x256_1_180_0 : ∀ a, (![1, 180, 0] : Fin 3 → Nat) a + S1x1x256.size a ≤ S2x256x256.size a
  inb_S2x256x256_S1x1x256_1_181_0 : ∀ a, (![1, 181, 0] : Fin 3 → Nat) a + S1x1x256.size a ≤ S2x256x256.size a
  inb_S2x256x256_S1x1x256_1_182_0 : ∀ a, (![1, 182, 0] : Fin 3 → Nat) a + S1x1x256.size a ≤ S2x256x256.size a
  inb_S2x256x256_S1x1x256_1_183_0 : ∀ a, (![1, 183, 0] : Fin 3 → Nat) a + S1x1x256.size a ≤ S2x256x256.size a
  inb_S2x256x256_S1x1x256_1_184_0 : ∀ a, (![1, 184, 0] : Fin 3 → Nat) a + S1x1x256.size a ≤ S2x256x256.size a
  inb_S2x256x256_S1x1x256_1_185_0 : ∀ a, (![1, 185, 0] : Fin 3 → Nat) a + S1x1x256.size a ≤ S2x256x256.size a
  inb_S2x256x256_S1x1x256_1_186_0 : ∀ a, (![1, 186, 0] : Fin 3 → Nat) a + S1x1x256.size a ≤ S2x256x256.size a
  inb_S2x256x256_S1x1x256_1_187_0 : ∀ a, (![1, 187, 0] : Fin 3 → Nat) a + S1x1x256.size a ≤ S2x256x256.size a
  inb_S2x256x256_S1x1x256_1_188_0 : ∀ a, (![1, 188, 0] : Fin 3 → Nat) a + S1x1x256.size a ≤ S2x256x256.size a
  inb_S2x256x256_S1x1x256_1_189_0 : ∀ a, (![1, 189, 0] : Fin 3 → Nat) a + S1x1x256.size a ≤ S2x256x256.size a
  inb_S2x256x256_S1x1x256_1_190_0 : ∀ a, (![1, 190, 0] : Fin 3 → Nat) a + S1x1x256.size a ≤ S2x256x256.size a
  inb_S2x256x256_S1x1x256_1_191_0 : ∀ a, (![1, 191, 0] : Fin 3 → Nat) a + S1x1x256.size a ≤ S2x256x256.size a
  inb_S2x256x256_S1x1x256_1_192_0 : ∀ a, (![1, 192, 0] : Fin 3 → Nat) a + S1x1x256.size a ≤ S2x256x256.size a
  inb_S2x256x256_S1x1x256_1_193_0 : ∀ a, (![1, 193, 0] : Fin 3 → Nat) a + S1x1x256.size a ≤ S2x256x256.size a
  inb_S2x256x256_S1x1x256_1_194_0 : ∀ a, (![1, 194, 0] : Fin 3 → Nat) a + S1x1x256.size a ≤ S2x256x256.size a
  inb_S2x256x256_S1x1x256_1_195_0 : ∀ a, (![1, 195, 0] : Fin 3 → Nat) a + S1x1x256.size a ≤ S2x256x256.size a
  inb_S2x256x256_S1x1x256_1_196_0 : ∀ a, (![1, 196, 0] : Fin 3 → Nat) a + S1x1x256.size a ≤ S2x256x256.size a
  inb_S2x256x256_S1x1x256_1_197_0 : ∀ a, (![1, 197, 0] : Fin 3 → Nat) a + S1x1x256.size a ≤ S2x256x256.size a
  inb_S2x256x256_S1x1x256_1_198_0 : ∀ a, (![1, 198, 0] : Fin 3 → Nat) a + S1x1x256.size a ≤ S2x256x256.size a
  inb_S2x256x256_S1x1x256_1_199_0 : ∀ a, (![1, 199, 0] : Fin 3 → Nat) a + S1x1x256.size a ≤ S2x256x256.size a
  inb_S2x256x256_S1x1x256_1_200_0 : ∀ a, (![1, 200, 0] : Fin 3 → Nat) a + S1x1x256.size a ≤ S2x256x256.size a
  inb_S2x256x256_S1x1x256_1_201_0 : ∀ a, (![1, 201, 0] : Fin 3 → Nat) a + S1x1x256.size a ≤ S2x256x256.size a
  inb_S2x256x256_S1x1x256_1_202_0 : ∀ a, (![1, 202, 0] : Fin 3 → Nat) a + S1x1x256.size a ≤ S2x256x256.size a
  inb_S2x256x256_S1x1x256_1_203_0 : ∀ a, (![1, 203, 0] : Fin 3 → Nat) a + S1x1x256.size a ≤ S2x256x256.size a
  inb_S2x256x256_S1x1x256_1_204_0 : ∀ a, (![1, 204, 0] : Fin 3 → Nat) a + S1x1x256.size a ≤ S2x256x256.size a
  inb_S2x256x256_S1x1x256_1_205_0 : ∀ a, (![1, 205, 0] : Fin 3 → Nat) a + S1x1x256.size a ≤ S2x256x256.size a
  inb_S2x256x256_S1x1x256_1_206_0 : ∀ a, (![1, 206, 0] : Fin 3 → Nat) a + S1x1x256.size a ≤ S2x256x256.size a

class Shapes2.Facts₀ : Prop where
  inb_S2x256x256_S1x1x256_1_207_0 : ∀ a, (![1, 207, 0] : Fin 3 → Nat) a + S1x1x256.size a ≤ S2x256x256.size a
  inb_S2x256x256_S1x1x256_1_208_0 : ∀ a, (![1, 208, 0] : Fin 3 → Nat) a + S1x1x256.size a ≤ S2x256x256.size a
  inb_S2x256x256_S1x1x256_1_209_0 : ∀ a, (![1, 209, 0] : Fin 3 → Nat) a + S1x1x256.size a ≤ S2x256x256.size a
  inb_S2x256x256_S1x1x256_1_210_0 : ∀ a, (![1, 210, 0] : Fin 3 → Nat) a + S1x1x256.size a ≤ S2x256x256.size a
  inb_S2x256x256_S1x1x256_1_211_0 : ∀ a, (![1, 211, 0] : Fin 3 → Nat) a + S1x1x256.size a ≤ S2x256x256.size a
  inb_S2x256x256_S1x1x256_1_212_0 : ∀ a, (![1, 212, 0] : Fin 3 → Nat) a + S1x1x256.size a ≤ S2x256x256.size a
  inb_S2x256x256_S1x1x256_1_213_0 : ∀ a, (![1, 213, 0] : Fin 3 → Nat) a + S1x1x256.size a ≤ S2x256x256.size a
  inb_S2x256x256_S1x1x256_1_214_0 : ∀ a, (![1, 214, 0] : Fin 3 → Nat) a + S1x1x256.size a ≤ S2x256x256.size a
  inb_S2x256x256_S1x1x256_1_215_0 : ∀ a, (![1, 215, 0] : Fin 3 → Nat) a + S1x1x256.size a ≤ S2x256x256.size a
  inb_S2x256x256_S1x1x256_1_216_0 : ∀ a, (![1, 216, 0] : Fin 3 → Nat) a + S1x1x256.size a ≤ S2x256x256.size a
  inb_S2x256x256_S1x1x256_1_217_0 : ∀ a, (![1, 217, 0] : Fin 3 → Nat) a + S1x1x256.size a ≤ S2x256x256.size a
  inb_S2x256x256_S1x1x256_1_218_0 : ∀ a, (![1, 218, 0] : Fin 3 → Nat) a + S1x1x256.size a ≤ S2x256x256.size a
  inb_S2x256x256_S1x1x256_1_219_0 : ∀ a, (![1, 219, 0] : Fin 3 → Nat) a + S1x1x256.size a ≤ S2x256x256.size a
  inb_S2x256x256_S1x1x256_1_220_0 : ∀ a, (![1, 220, 0] : Fin 3 → Nat) a + S1x1x256.size a ≤ S2x256x256.size a
  inb_S2x256x256_S1x1x256_1_221_0 : ∀ a, (![1, 221, 0] : Fin 3 → Nat) a + S1x1x256.size a ≤ S2x256x256.size a
  inb_S2x256x256_S1x1x256_1_222_0 : ∀ a, (![1, 222, 0] : Fin 3 → Nat) a + S1x1x256.size a ≤ S2x256x256.size a
  inb_S2x256x256_S1x1x256_1_223_0 : ∀ a, (![1, 223, 0] : Fin 3 → Nat) a + S1x1x256.size a ≤ S2x256x256.size a
  inb_S2x256x256_S1x1x256_1_224_0 : ∀ a, (![1, 224, 0] : Fin 3 → Nat) a + S1x1x256.size a ≤ S2x256x256.size a
  inb_S2x256x256_S1x1x256_1_225_0 : ∀ a, (![1, 225, 0] : Fin 3 → Nat) a + S1x1x256.size a ≤ S2x256x256.size a
  inb_S2x256x256_S1x1x256_1_226_0 : ∀ a, (![1, 226, 0] : Fin 3 → Nat) a + S1x1x256.size a ≤ S2x256x256.size a
  inb_S2x256x256_S1x1x256_1_227_0 : ∀ a, (![1, 227, 0] : Fin 3 → Nat) a + S1x1x256.size a ≤ S2x256x256.size a
  inb_S2x256x256_S1x1x256_1_228_0 : ∀ a, (![1, 228, 0] : Fin 3 → Nat) a + S1x1x256.size a ≤ S2x256x256.size a
  inb_S2x256x256_S1x1x256_1_229_0 : ∀ a, (![1, 229, 0] : Fin 3 → Nat) a + S1x1x256.size a ≤ S2x256x256.size a
  inb_S2x256x256_S1x1x256_1_230_0 : ∀ a, (![1, 230, 0] : Fin 3 → Nat) a + S1x1x256.size a ≤ S2x256x256.size a
  inb_S2x256x256_S1x1x256_1_231_0 : ∀ a, (![1, 231, 0] : Fin 3 → Nat) a + S1x1x256.size a ≤ S2x256x256.size a
  inb_S2x256x256_S1x1x256_1_232_0 : ∀ a, (![1, 232, 0] : Fin 3 → Nat) a + S1x1x256.size a ≤ S2x256x256.size a
  inb_S2x256x256_S1x1x256_1_233_0 : ∀ a, (![1, 233, 0] : Fin 3 → Nat) a + S1x1x256.size a ≤ S2x256x256.size a
  inb_S2x256x256_S1x1x256_1_234_0 : ∀ a, (![1, 234, 0] : Fin 3 → Nat) a + S1x1x256.size a ≤ S2x256x256.size a
  inb_S2x256x256_S1x1x256_1_235_0 : ∀ a, (![1, 235, 0] : Fin 3 → Nat) a + S1x1x256.size a ≤ S2x256x256.size a
  inb_S2x256x256_S1x1x256_1_236_0 : ∀ a, (![1, 236, 0] : Fin 3 → Nat) a + S1x1x256.size a ≤ S2x256x256.size a
  inb_S2x256x256_S1x1x256_1_237_0 : ∀ a, (![1, 237, 0] : Fin 3 → Nat) a + S1x1x256.size a ≤ S2x256x256.size a
  inb_S2x256x256_S1x1x256_1_238_0 : ∀ a, (![1, 238, 0] : Fin 3 → Nat) a + S1x1x256.size a ≤ S2x256x256.size a
  inb_S2x256x256_S1x1x256_1_239_0 : ∀ a, (![1, 239, 0] : Fin 3 → Nat) a + S1x1x256.size a ≤ S2x256x256.size a
  inb_S2x256x256_S1x1x256_1_240_0 : ∀ a, (![1, 240, 0] : Fin 3 → Nat) a + S1x1x256.size a ≤ S2x256x256.size a
  inb_S2x256x256_S1x1x256_1_241_0 : ∀ a, (![1, 241, 0] : Fin 3 → Nat) a + S1x1x256.size a ≤ S2x256x256.size a
  inb_S2x256x256_S1x1x256_1_242_0 : ∀ a, (![1, 242, 0] : Fin 3 → Nat) a + S1x1x256.size a ≤ S2x256x256.size a
  inb_S2x256x256_S1x1x256_1_243_0 : ∀ a, (![1, 243, 0] : Fin 3 → Nat) a + S1x1x256.size a ≤ S2x256x256.size a
  inb_S2x256x256_S1x1x256_1_244_0 : ∀ a, (![1, 244, 0] : Fin 3 → Nat) a + S1x1x256.size a ≤ S2x256x256.size a
  inb_S2x256x256_S1x1x256_1_245_0 : ∀ a, (![1, 245, 0] : Fin 3 → Nat) a + S1x1x256.size a ≤ S2x256x256.size a
  inb_S2x256x256_S1x1x256_1_246_0 : ∀ a, (![1, 246, 0] : Fin 3 → Nat) a + S1x1x256.size a ≤ S2x256x256.size a
  inb_S2x256x256_S1x1x256_1_247_0 : ∀ a, (![1, 247, 0] : Fin 3 → Nat) a + S1x1x256.size a ≤ S2x256x256.size a
  inb_S2x256x256_S1x1x256_1_248_0 : ∀ a, (![1, 248, 0] : Fin 3 → Nat) a + S1x1x256.size a ≤ S2x256x256.size a
  inb_S2x256x256_S1x1x256_1_249_0 : ∀ a, (![1, 249, 0] : Fin 3 → Nat) a + S1x1x256.size a ≤ S2x256x256.size a
  inb_S2x256x256_S1x1x256_1_250_0 : ∀ a, (![1, 250, 0] : Fin 3 → Nat) a + S1x1x256.size a ≤ S2x256x256.size a
  inb_S2x256x256_S1x1x256_1_251_0 : ∀ a, (![1, 251, 0] : Fin 3 → Nat) a + S1x1x256.size a ≤ S2x256x256.size a
  inb_S2x256x256_S1x1x256_1_252_0 : ∀ a, (![1, 252, 0] : Fin 3 → Nat) a + S1x1x256.size a ≤ S2x256x256.size a
  inb_S2x256x256_S1x1x256_1_253_0 : ∀ a, (![1, 253, 0] : Fin 3 → Nat) a + S1x1x256.size a ≤ S2x256x256.size a
  inb_S2x256x256_S1x1x256_1_254_0 : ∀ a, (![1, 254, 0] : Fin 3 → Nat) a + S1x1x256.size a ≤ S2x256x256.size a
  inb_S2x256x256_S1x1x256_1_255_0 : ∀ a, (![1, 255, 0] : Fin 3 → Nat) a + S1x1x256.size a ≤ S2x256x256.size a
  dot_S256x256_S256x256_S256x256_0_1_1_0_n_n_wf : DotDims.WF S256x256 S256x256 S256x256 [0] [1] [1] [0] [] []
  dot_S1x256_S256x256_S1x256_1_0_0_1_n_n_wf : DotDims.WF S1x256 S256x256 S1x256 [1] [0] [0] [1] [] []

class Facts₀ : Prop where
  k0 : K0.Facts₀
  shapes1 : Shapes1.Facts₀
  shapes2 : Shapes2.Facts₀
attribute [instance] Facts₀.k0 Facts₀.shapes1 Facts₀.shapes2

variable [Facts₀]

def dot_S256x256_S256x256_S256x256_0_1_1_0_n_n : DotDims S256x256 S256x256 S256x256 where
  lhsContracting := [0]
  rhsContracting := [1]
  lhsNonContracting := [1]
  rhsNonContracting := [0]
  lhsBatch := []
  rhsBatch := []
  wf := dot_S256x256_S256x256_S256x256_0_1_1_0_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S2x256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x256x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x256x256 : Shape := ⟨3, ![2, 256, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S256x256 : Shape := ⟨2, ![256, 256]⟩
abbrev S2x256x1x256 : Shape := ⟨4, ![2, 256, 1, 256]⟩
abbrev S2x1x256x256 : Shape := ⟨4, ![2, 1, 256, 256]⟩
abbrev S2x256x256x256 : Shape := ⟨4, ![2, 256, 256, 256]⟩
abbrev S1x1x1x256 : Shape := ⟨4, ![1, 1, 1, 256]⟩
abbrev S_ : Shape := ⟨0, ![]⟩
abbrev S2x256x256x1 : Shape := ⟨4, ![2, 256, 256, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x256, .f32⟩
  | .hbm, ⟨6, _⟩ => ⟨S256x256, .f32⟩
  | .hbm, ⟨7, _⟩ => ⟨S2x256x256, .f32⟩
  | .hbm, ⟨8, _⟩ => ⟨S2x256x256, .f32⟩
  | .hbm, ⟨9, _⟩ => ⟨S2x256x1x256, .f32⟩
  | .hbm, ⟨10, _⟩ => ⟨S2x1x256x256, .f32⟩
  | .hbm, ⟨11, _⟩ => ⟨S2x256x256x256, .f32⟩
  | .hbm, ⟨12, _⟩ => ⟨S2x256x256x256, .f32⟩
  | .hbm, ⟨13, _⟩ => ⟨S2x256x256x256, .f32⟩
  | .hbm, ⟨14, _⟩ => ⟨S1x1x1x256, .f32⟩
  | .hbm, ⟨15, _⟩ => ⟨S2x256x256x256, .f32⟩
  | .hbm, ⟨16, _⟩ => ⟨S2x256x256x256, .f32⟩
  | .hbm, ⟨17, _⟩ => ⟨S_, .f32⟩
  | .hbm, ⟨18, _⟩ => ⟨S2x256x256x256, .f32⟩
  | .hbm, ⟨19, _⟩ => ⟨S2x256x256x256, .f32⟩
  | .hbm, ⟨20, _⟩ => ⟨S2x256x256x1, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .i1⟩
  | .hbm, ⟨36, _⟩ => ⟨S2x256x256, .f32⟩
  | .hbm, ⟨37, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S512x256_S256x256_0_0 : S512x256.Slices ![0, 0] S256x256
  slices_S512x256_S256x256_256_0 : S512x256.Slices ![256, 0] S256x256
  bcast_S2x256x256_S2x256x1x256_0_1_3 : S2x256x256.BroadcastsInDim S2x256x1x256 (![0, 1, 3] : Fin 3 → Fin S2x256x1x256.rank)
  bcast_S2x256x256_S2x1x256x256_0_2_3 : S2x256x256.BroadcastsInDim S2x1x256x256 (![0, 2, 3] : Fin 3 → Fin S2x1x256x256.rank)
  bcast_S2x256x1x256_S2x256x256x256_0_1_2_3 : S2x256x1x256.BroadcastsInDim S2x256x256x256 (![0, 1, 2, 3] : Fin 4 → Fin S2x256x256x256.rank)
  bcast_S2x1x256x256_S2x256x256x256_0_1_2_3 : S2x1x256x256.BroadcastsInDim S2x256x256x256 (![0, 1, 2, 3] : Fin 4 → Fin S2x256x256x256.rank)
  bcast_S256_S1x1x1x256_3 : S256.BroadcastsInDim S1x1x1x256 (![3] : Fin 1 → Fin S1x1x1x256.rank)
  bcast_S1x1x1x256_S2x256x256x256_0_1_2_3 : S1x1x1x256.BroadcastsInDim S2x256x256x256 (![0, 1, 2, 3] : Fin 4 → Fin S2x256x256x256.rank)
  bcast_S_S2x256x256x256 : S_.BroadcastsInDim S2x256x256x256 (![] : Fin 0 → Fin S2x256x256x256.rank)
  shapeCasts_S2x256x256x1_S2x256x256 : S2x256x256x1.ShapeCasts S2x256x256
  shapeCasts_S1_S_ : S1.ShapeCasts S_
  bcast_S_S2x256x256 : S_.BroadcastsInDim S2x256x256 (![] : Fin 0 → Fin S2x256x256.rank)
  dot_S2x256x256_S256x256_S2x256x256_2_0_01_1_n_n_wf : DotDims.WF S2x256x256 S256x256 S2x256x256 [2] [0] [0, 1] [1] [] []
  dot_S2x256x256x256_S256x1_S2x256x256x1_3_0_012_1_n_n_wf : DotDims.WF S2x256x256x256 S256x1 S2x256x256x1 [3] [0] [0, 1, 2] [1] [] []

variable [Facts₀]

def dot_S2x256x256_S256x256_S2x256x256_2_0_01_1_n_n : DotDims S2x256x256 S256x256 S2x256x256 where
  lhsContracting := [2]
  rhsContracting := [0]
  lhsNonContracting := [0, 1]
  rhsNonContracting := [1]
  lhsBatch := []
  rhsBatch := []
  wf := dot_S2x256x256_S256x256_S2x256x256_2_0_01_1_n_n_wf
def dot_S2x256x256x256_S256x1_S2x256x256x1_3_0_012_1_n_n : DotDims S2x256x256x256 S256x1 S2x256x256x1 where
  lhsContracting := [3]
  rhsContracting := [0]
  lhsNonContracting := [0, 1, 2]
  rhsNonContracting := [1]
  lhsBatch := []
  rhsBatch := []
  wf := dot_S2x256x256x256_S256x1_S2x256x256x1_3_0_012_1_n_n_wf

class Facts : Prop extends Facts₀ where

variable [Facts]
-- ==== Proof.LibRowStores.lean ====
/-
  A buffer filled one row at a time is covered by its row stores.

  An `[a, b, c]` array has `a * b` rows of `c` entries; row number `n`, in row-major order of the first two axes, is
  the unit-stride rectangle of sizes `[1, 1, c]` at `(n / b, n % b, 0)`. A list of stores whose rectangles are, LAST
  STORE FIRST, rows `N - 1, N - 2, …, 0` (`RowsFrom N`: one structural fact per store, each an equality of two
  literal rectangles) holds a store through every row below `N`; with `N = a * b` every entry `(i, j, k)` of the
  array lies in the store of row `i * b + j`. The check is linear in the number of stores. Any extents, payloads and
  element type; imports only the library.
-/
import Idealize.ShloMosaic.Lib.Writes

namespace Idealize.ShloMosaic.RowStores

open Idealize.ShloMosaic

variable {Val : EltTy → Type} {e : EltTy} {a b c : ℕ}

/-- Row number `n` of an `[a, b, c]` array: sizes `[1, 1, c]` at `(n / b, n % b, 0)`. -/
def rowRect (a b c : ℕ) (hb : 0 < b) (n : ℕ) (h : n < a * b) : Rect ⟨3, ![a, b, c]⟩ :=
  Rect.unit ![n / b, n % b, 0] ![1, 1, c] (fun d => match d with
    | ⟨0, _⟩ => by
      show n / b + 1 ≤ a
      exact (Nat.div_lt_iff_lt_mul hb).mpr h
    | ⟨1, _⟩ => by
      show n % b + 1 ≤ b
      exact Nat.mod_lt _ hb
    | ⟨2, _⟩ => by
      show 0 + c ≤ c
      omega)

/-- The stores' rectangles are, last store first, rows `N - 1` down to `0`. -/
inductive RowsFrom (hb : 0 < b) : ℕ → List (View.Piece Val ⟨3, ![a, b, c]⟩ e) → Prop
  | nil : RowsFrom hb 0 []
  | cons {n : ℕ} {p : View.Piece Val ⟨3, ![a, b, c]⟩ e} {L : List (View.Piece Val ⟨3, ![a, b, c]⟩ e)} (h : n < a * b)
      (hp : p.1 = rowRect a b c hb n h) (hL : RowsFrom hb n L) : RowsFrom hb (n + 1) (p :: L)

/-- Such a list holds a store through every row below `N`. -/
theorem exists_row {hb : 0 < b} {N : ℕ} {L : List (View.Piece Val ⟨3, ![a, b, c]⟩ e)} (hL : RowsFrom hb N L) :
    ∀ k, k < N → ∃ h : k < a * b, ∃ p ∈ L, p.1 = rowRect a b c hb k h := by
  induction hL with
  | nil => intro k hk; omega
  | @cons n p L h hp _ ih =>
    intro k hk
    by_cases hkn : k = n
    · subst hkn
      exact ⟨h, p, List.mem_cons_self, hp⟩
    · obtain ⟨h', q, hq, e'⟩ := ih k (by omega)
      exact ⟨h', q, List.mem_cons_of_mem _ hq, e'⟩

/-- With every row stored, every entry of the array lies in some store: entry `(i, j, k)` in the store of row
    `i * b + j`. -/
theorem cover_of_rowsFrom {hb : 0 < b} {N : ℕ} (hN : N = a * b) {L : List (View.Piece Val ⟨3, ![a, b, c]⟩ e)}
    (hL : RowsFrom hb N L) (y : (⟨3, ![a, b, c]⟩ : Shape).Idx) : ∃ p ∈ L, y ∈ p.1.set := by
  have h0 : (y 0).val < a := (y 0).isLt
  have h1 : (y 1).val < b := (y 1).isLt
  have h2 : (y 2).val < c := (y 2).isLt
  have hk : (y 1).val + (y 0).val * b < N := by
    have := Nat.mul_le_mul_right b (show (y 0).val + 1 ≤ a from h0)
    rw [Nat.succ_mul] at this
    omega
  obtain ⟨h, p, hp, e'⟩ := exists_row hL _ hk
  refine ⟨p, hp, ?_⟩
  rw [e']
  unfold rowRect
  rw [Rect.mem_set_unit]
  intro d
  match d with
  | ⟨0, _⟩ =>
    show ((y 1).val + (y 0).val * b) / b ≤ (y 0).val ∧ (y 0).val < ((y 1).val + (y 0).val * b) / b + 1
    rw [Nat.add_mul_div_right _ _ hb, Nat.div_eq_of_lt h1]
    omega
  | ⟨1, _⟩ =>
    show ((y 1).val + (y 0).val * b) % b ≤ (y 1).val ∧ (y 1).val < ((y 1).val + (y 0).val * b) % b + 1
    rw [Nat.add_mul_mod_self_right, Nat.mod_eq_of_lt h1]
    omega
  | ⟨2, _⟩ =>
    show 0 ≤ (y 2).val ∧ (y 2).val < 0 + c
    omega

end Idealize.ShloMosaic.RowStores
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.RowPayload.lean ====
/-
  One stored row of the score array, as a function of what the body computed before the rows.

  Before its rows the body holds, for one graph b: the second-layer weight as a row `w2 : [1, 256]`, the scalar bias
  `b2`, two `[256, 256]` tables with the hidden unit on the FIRST axis — `AT(h, i)`, node i's part of the
  pre-activation with the first-layer bias already added, and `BT(h, j)`, node j's part — and the `[256, 256]`
  table of edge indicators. Row i of the result takes column i of `AT`, adds it to every column of `BT`, rectifies,
  contracts the hidden axis against `w2`, adds `b2`, applies the logistic function and multiplies by row i of the
  indicators. `rowPay` is that computation for a row number `i` given as a natural number; `rowPay_apply` reads it,
  on the extended reals, at column q:

      σ( ∑ₕ w2(0, h) · max( BT(h, q) + AT(h, i), 0 ) + b2 ) · mask(i, q).
-/
import proofs.«129616_g89077621719711_cont_sun_m_405_24_alg».proof.Proof.Gen.KernelIdeal.Skeleton
import proofs.«129616_g89077621719711_cont_sun_m_405_24_alg».proof.Proof.LibMatmulRowsByCols
import proofs.«129616_g89077621719711_cont_sun_m_405_24_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

variable {F : FTy → Type} [FloatOps F]

/-- Row `i` of the result, from the values the body holds before its rows. -/
def rowPay (i : ℕ) (hc : S256x256.Slices ![0, i] S256x1) (hr : S256x256.Slices ![i, 0] S1x256)
    (w2 : FVec F S1x256 .bf16) (b2 : F .f32) (AT BT : FVec F S256x256 .bf16) (mask : FVec F S256x256 .f32) :
    FVec F S1x1x256 .f32 :=
  shapeCast S1x1x256
    (mulf (logistic (addf (matmul dot_S1x256_S256x256_S1x256_1_0_0_1_n_n none w2
        (maximumf (addf BT (broadcastTo S256x256 (extractStridedSlice S256x1 ![0, i] AT hc) broadcasts_S256x1_S256x256))
          (broadcast S256x256 (Scalar.ofBits .bf16 0x0000#16)))
        (constant S1x256 .f32 0x00000000#32)) (broadcast S1x256 b2)))
      (extractStridedSlice S1x256 ![i, 0] mask hr))
    shapeCasts_S1x256_S1x1x256

/-- The bf16 word of 0.0 is the extended real 0. -/
theorem ofBits_bf16_zero : Ideal.ofBits .bf16 0x0000#16 = 0 := by simp [Ideal.ofBits, Ideal.ieee]

/-! The contraction of the hidden axis reads its left operand at (0, h) and its right operand at (h, q). -/

theorem w2dot_l0 (j : S1x256.Idx) (q : dot_S1x256_S256x256_S1x256_1_0_0_1_n_n.contr.Idx) :
    (dot_S1x256_S256x256_S1x256_1_0_0_1_n_n.lhsIdx j q 0).val = (j 0).val := by
  unfold DotDims.lhsIdx
  rw [dif_neg (show ¬(0 : Fin S1x256.rank) ∈ dot_S1x256_S256x256_S1x256_1_0_0_1_n_n.lhsBatch by decide),
    dif_pos (show (0 : Fin S1x256.rank) ∈ dot_S1x256_S256x256_S1x256_1_0_0_1_n_n.lhsNonContracting by decide)]
  rfl
theorem w2dot_l1 (j : S1x256.Idx) (q : dot_S1x256_S256x256_S1x256_1_0_0_1_n_n.contr.Idx) :
    (dot_S1x256_S256x256_S1x256_1_0_0_1_n_n.lhsIdx j q 1).val = (q ⟨0, by decide⟩).val :=
  dot_S1x256_S256x256_S1x256_1_0_0_1_n_n.lhsIdx_val_of_single rfl j q
theorem w2dot_r0 (j : S1x256.Idx) (q : dot_S1x256_S256x256_S1x256_1_0_0_1_n_n.contr.Idx) :
    (dot_S1x256_S256x256_S1x256_1_0_0_1_n_n.rhsIdx j q 0).val = (q ⟨0, by decide⟩).val :=
  dot_S1x256_S256x256_S1x256_1_0_0_1_n_n.rhsIdx_val_of_single rfl j q
theorem w2dot_r1 (j : S1x256.Idx) (q : dot_S1x256_S256x256_S1x256_1_0_0_1_n_n.contr.Idx) :
    (dot_S1x256_S256x256_S1x256_1_0_0_1_n_n.rhsIdx j q 1).val = (j 1).val := by
  unfold DotDims.rhsIdx
  rw [dif_neg (show ¬(1 : Fin S256x256.rank) ∈ dot_S1x256_S256x256_S1x256_1_0_0_1_n_n.rhsBatch by decide),
    dif_pos (show (1 : Fin S256x256.rank) ∈ dot_S1x256_S256x256_S1x256_1_0_0_1_n_n.rhsNonContracting by decide)]
  rfl

/-- Row `i` at column `q`, on the extended reals. -/
theorem rowPay_apply (i : ℕ) (hi : i < 256) (hc : S256x256.Slices ![0, i] S256x1) (hr : S256x256.Slices ![i, 0] S1x256)
    (w2 : FVec Ideal S1x256 .bf16) (b2 : Ideal .f32) (AT BT : FVec Ideal S256x256 .bf16) (mask : FVec Ideal S256x256 .f32)
    (u v : Fin 1) (q : Fin 256) :
    rowPay (F := Ideal) i hc hr w2 b2 AT BT mask (ix3 u v q)
      = Ideal.logistic ((∑ h : Fin 256, w2 (ix2 (0 : Fin 1) h) * max (BT (ix2 h q) + AT (ix2 h (⟨i, hi⟩ : Fin 256))) 0) + b2)
          * mask (ix2 (⟨i, hi⟩ : Fin 256) q) := by
  have hv : v = 0 := Subsingleton.elim _ _
  subst hv
  unfold rowPay
  refine (shapeCast_ab_1ab_apply _ shapeCasts_S1x256_S1x1x256 u 0 q).trans ?_
  rw [mulf_apply]
  refine congrArg₂ (· * ·) (congrArg Ideal.logistic ?_) ?_
  · rw [addf_apply, broadcast_apply]
    refine congrArg (· + b2) ?_
    refine (MatmulRowsByCols.matmul_zero_apply dot_S1x256_S256x256_S1x256_1_0_0_1_n_n rfl rfl w2dot_l0 w2dot_l1 w2dot_r0 w2dot_r1
      none w2 _ 0 q).trans ?_
    refine Finset.sum_congr rfl fun h _ => congrArg (w2 (ix2 (0 : Fin 1) h) * ·) ?_
    rw [maximumf_apply, addf_apply, broadcast_apply, broadcastTo_a1_ab_apply]
    refine congrArg₂ max (congrArg (BT (ix2 h q) + ·) ?_) ofBits_bf16_zero
    exact extractStridedSlice_apply ![0, i] AT hc _ _ (fun a => match a with
      | ⟨0, _⟩ => by show h.val = 0 + h.val; omega
      | ⟨1, _⟩ => by show i = i + 0; omega)
  · exact extractStridedSlice_apply ![i, 0] mask hr _ _ (fun a => match a with
      | ⟨0, _⟩ => by show i = i + 0; omega
      | ⟨1, _⟩ => by show q.val = 0 + q.val; omega)

end Cert.KernelIdeal.Row

end
-- ==== Proof.LibMatmulColsByRows.lean ====
/-
  A matrix product of two transposed operands into the zero accumulator, read at an entry.

  On the extended reals a `tpu.matmul` of a `[K, M]` left operand and an `[N, K]` right operand, the contraction on the
  left's FIRST axis and the right's SECOND (no batch axis), accumulated into the zero splat, is at entry `(p, q)` the
  plain sum `∑ₖ l(k, p) · r(q, k)`: no rounding, no order of accumulation. The dimension record is kept abstract; what
  is asked of it is that it contracts one axis of extent `K` and reads its operands at `(k, p)` and `(q, k)`, four
  facts a concrete record gives by unfolding. Any extents and operand formats. Imports only the library.
-/
import Idealize.ShloMosaic.PureOps.Ideal.Laws
import Idealize.ShloMosaic.Lib.ValueIdx

namespace Idealize.ShloMosaic.MatmulColsByRows

open Idealize.ShloMosaic Idealize.ShloMosaic.ValueIdx

/-- `matmul D prec l r 0` at `(p, q)` is `∑ k, l (k, p) * r (q, k)`. -/
theorem matmul_zero_apply {M K N : ℕ} {φ₁ φ₂ : FTy} (D : DotDims ⟨2, ![K, M]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (q ⟨0, by omega⟩).val)
    (hl1 : ∀ (j : (⟨2, ![M, N]⟩ : Shape).Idx) (q : D.contr.Idx), (D.lhsIdx j q 1).val = (j 0).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![K, M]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 k p) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulColsByRows
-- ==== Proof.Score.lean ====
/-
  The edge score, as one function of the argument arrays.

  For a batch of two graphs on 256 nodes, each node carrying a row of 256 features (the adjacency row itself), the
  score of the ordered pair (i, j) of graph b is

      σ( ∑ₕ w₂(h) · max( pre(b, i, j, h), 0 ) + b₂ ) · [ s(b, i, j) ≠ 0 ],

  where the pre-activation of hidden unit h is the first-layer weight applied to the concatenated rows of i and j,

      pre(b, i, j, h) = ∑ₖ W₁(256 + k, h) · s(b, j, k) + ( ∑ₖ W₁(k, h) · s(b, i, k) + b₁(h) ),

  σ is the logistic function and the last factor is the indicator that the edge is present. All sums and products
  are those of the extended reals. The same number is reached when every product is taken in the other order and the
  three summands of the pre-activation are grouped as (row i + row j) + bias: addition and multiplication of extended
  reals are commutative and associative, so no finiteness is needed (`score_regrouped`).
-/
import Idealize.ShloMosaic.PureOps.Ideal.Laws
import Idealize.ShloMosaic.Lib.ValueIdx

noncomputable section

open scoped BigOperators

namespace Cert.EdgeScore

open Idealize.ShloMosaic Idealize.ShloMosaic.ValueIdx

/-- Row `k` of the upper half of the stacked first-layer weight: the part applied to node i's features. -/
def upper (k : Fin 256) : Fin 512 := ⟨k.val, by have := k.isLt; omega⟩
/-- Row `k` of the lower half: the part applied to node j's features. -/
def lower (k : Fin 256) : Fin 512 := ⟨256 + k.val, by have := k.isLt; omega⟩

/-- The indicator of a present edge: 0 at a zero entry, 1 elsewhere. -/
def maskOf (x : EReal) : EReal := if x = 0 then 0 else 1

/-- The ordered-and-different and the unordered-or-different comparisons are one comparison on the extended reals:
    the word is 1 exactly at different arguments. -/
theorem cmp_one_word (x y : EReal) : Ideal.cmp .one x y = if x = y then 0#1 else 1#1 := by
  unfold Ideal.cmp
  by_cases h : x = y <;> simp [h]
theorem cmp_une_word (x y : EReal) : Ideal.cmp .une x y = if x = y then 0#1 else 1#1 := by
  unfold Ideal.cmp
  by_cases h : x = y <;> simp [h]

/-- The indicator as a program computes it in 32-bit integers: the comparison's bit, widened by zeros and converted
    as a signed integer. -/
theorem mask_signed (x : EReal) :
    FloatOps.sitofp (F := Ideal) .f32 ((FloatOps.cmpf (F := Ideal) (φ := .f32) .one x (Ideal.ofBits .f32 0x00000000#32)).setWidth 32)
      = maskOf x := by
  show (((((Ideal.cmp .one x (Ideal.ofBits .f32 0x00000000#32)).setWidth 32).toInt : ℤ) : ℝ) : EReal) = maskOf x
  rw [Ideal.ofBits_zero_f32, cmp_one_word]
  unfold maskOf
  by_cases h : x = 0
  · rw [if_pos h, if_pos h]
    have e : ((0#1 : BitVec 1).setWidth 32).toInt = 0 := by decide
    rw [e]; simp
  · rw [if_neg h, if_neg h]
    have e : ((1#1 : BitVec 1).setWidth 32).toInt = 1 := by decide
    rw [e]; simp

/-- The indicator as a program computes it directly: the comparison's bit converted as an unsigned integer. -/
theorem mask_unsigned (x : EReal) :
    FloatOps.uitofp (F := Ideal) .f32 (FloatOps.cmpf (F := Ideal) (φ := .f32) .une x (Ideal.ofBits .f32 0x00000000#32)) = maskOf x := by
  show ((((Ideal.cmp .une x (Ideal.ofBits .f32 0x00000000#32)).toNat : ℕ) : ℝ) : EReal) = maskOf x
  rw [Ideal.ofBits_zero_f32, cmp_une_word]
  unfold maskOf
  by_cases h : x = 0
  · rw [if_pos h, if_pos h]
    have e : (0#1 : BitVec 1).toNat = 0 := by decide
    rw [e]; simp
  · rw [if_neg h, if_neg h]
    have e : (1#1 : BitVec 1).toNat = 1 := by decide
    rw [e]; simp

/-- The pre-activation of hidden unit `h` for the ordered pair (i, j) of graph b. -/
def pre (s : (⟨3, ![2, 256, 256]⟩ : Shape).Idx → EReal) (W1 : (⟨2, ![512, 256]⟩ : Shape).Idx → EReal)
    (b1 : Fin 256 → EReal) (b : Fin 2) (i j h : Fin 256) : EReal :=
  (∑ k : Fin 256, W1 (ix2 (lower k) h) * s (ix3 b j k)) + ((∑ k : Fin 256, W1 (ix2 (upper k) h) * s (ix3 b i k)) + b1 h)

/-- The score array: entry (b, i, j). -/
def score (s : (⟨3, ![2, 256, 256]⟩ : Shape).Idx → EReal) (W1 : (⟨2, ![512, 256]⟩ : Shape).Idx → EReal)
    (b1 w2 : Fin 256 → EReal) (b2 : EReal) : (⟨3, ![2, 256, 256]⟩ : Shape).Idx → EReal := fun y =>
  Ideal.logistic ((∑ h : Fin 256, w2 h * max (pre s W1 b1 (y 0) (y 1) (y 2) h) 0) + b2) * maskOf (s y)

/-- The score array at the entry with coordinates (b, p, q). -/
theorem score_apply (s : (⟨3, ![2, 256, 256]⟩ : Shape).Idx → EReal) (W1 : (⟨2, ![512, 256]⟩ : Shape).Idx → EReal)
    (b1 w2 : Fin 256 → EReal) (b2 : EReal) (b : Fin 2) (p q : Fin 256) :
    score s W1 b1 w2 b2 (ix3 b p q)
      = Ideal.logistic ((∑ h : Fin 256, w2 h * max ((∑ k : Fin 256, W1 (ix2 (lower k) h) * s (ix3 b q k))
          + ((∑ k : Fin 256, W1 (ix2 (upper k) h) * s (ix3 b p k)) + b1 h)) 0) + b2) * maskOf (s (ix3 b p q)) := rfl

/-- The same score with every product taken in the other order and the pre-activation grouped as
    (row i's part + row j's part) + bias. -/
theorem score_regrouped (s : (⟨3, ![2, 256, 256]⟩ : Shape).Idx → EReal) (W1 : (⟨2, ![512, 256]⟩ : Shape).Idx → EReal)
    (b1 w2 : Fin 256 → EReal) (b2 : EReal) (y : (⟨3, ![2, 256, 256]⟩ : Shape).Idx) :
    Ideal.logistic ((∑ h : Fin 256, max (((∑ k : Fin 256, s (ix3 (y 0) (y 1) k) * W1 (ix2 (upper k) h))
        + (∑ k : Fin 256, s (ix3 (y 0) (y 2) k) * W1 (ix2 (lower k) h))) + b1 h) 0 * w2 h) + b2) * maskOf (s y)
      = score s W1 b1 w2 b2 y := by
  unfold score pre
  refine congrArg (fun t => Ideal.logistic (t + b2) * maskOf (s y)) (Finset.sum_congr rfl fun h _ => ?_)
  have hA : (∑ k : Fin 256, s (ix3 (y 0) (y 1) k) * W1 (ix2 (upper k) h))
      = ∑ k : Fin 256, W1 (ix2 (upper k) h) * s (ix3 (y 0) (y 1) k) := Finset.sum_congr rfl fun k _ => mul_comm _ _
  have hB : (∑ k : Fin 256, s (ix3 (y 0) (y 2) k) * W1 (ix2 (lower k) h))
      = ∑ k : Fin 256, W1 (ix2 (lower k) h) * s (ix3 (y 0) (y 2) k) := Finset.sum_congr rfl fun k _ => mul_comm _ _
  rw [hA, hB, mul_comm, add_comm (∑ k : Fin 256, W1 (ix2 (upper k) h) * s (ix3 (y 0) (y 1) k)), add_assoc]

end Cert.EdgeScore

end
-- ==== Proof.Prologue.lean ====
/-
  What the body computes for one graph before its rows, read at an entry.

  From the upper or lower half `W` of the first-layer weight (`[256, 256]`, input feature × hidden unit), the graph's
  slab `sb` (`[1, 256, 256]`, node × feature) and the first-layer bias as a column `bc` (`[256, 1]`):

    * `preA W sb bc` — the table AT(h, i) = ∑ₖ W(k, h) · sb(0, i, k) + bc(h, 0): node i's part of the pre-activation
      of hidden unit h, bias included, with the hidden unit on the first axis (a product of two transposed operands);
    * `preB W sb` — the table BT(h, j) = ∑ₖ W(k, h) · sb(0, j, k): node j's part;
    * `preM sb` — the edge indicators: 1 where sb(0, i, j) ≠ 0, else 0.

  The roundings to sixteen bits on the way are the identity on the extended reals.
-/
import proofs.«129616_g89077621719711_cont_sun_m_405_24_alg».proof.Proof.Gen.KernelIdeal.Skeleton
import proofs.«129616_g89077621719711_cont_sun_m_405_24_alg».proof.Proof.LibMatmulColsByRows
import proofs.«129616_g89077621719711_cont_sun_m_405_24_alg».proof.Proof.LibColumnLayout
import proofs.«129616_g89077621719711_cont_sun_m_405_24_alg».proof.Proof.Score
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

variable {F : FTy → Type} [FloatOps F]

/-- Node i's part of every hidden unit's pre-activation, bias included: AT(h, i). -/
def preA (W : Vec F S256x256 .f32) (sb : Vec F S1x256x256 .f32) (bc : Vec F S256x1 .f32) : FVec F S256x256 .bf16 :=
  truncf .bf16 (addf (matmul dot_S256x256_S256x256_S256x256_0_1_1_0_n_n none (truncf .bf16 W bitsLt_bf16_f32)
      (truncf .bf16 (shapeCast S256x256 sb shapeCasts_S1x256x256_S256x256) bitsLt_bf16_f32) (constant S256x256 .f32 0x00000000#32))
    (broadcastTo S256x256 (shapeCast S256x1 bc shapeCasts_S256x1_S256x1) broadcasts_S256x1_S256x256)) bitsLt_bf16_f32

/-- Node j's part: BT(h, j). -/
def preB (W : Vec F S256x256 .f32) (sb : Vec F S1x256x256 .f32) : FVec F S256x256 .bf16 :=
  truncf .bf16 (matmul dot_S256x256_S256x256_S256x256_0_1_1_0_n_n none (truncf .bf16 W bitsLt_bf16_f32)
      (truncf .bf16 (shapeCast S256x256 sb shapeCasts_S1x256x256_S256x256) bitsLt_bf16_f32) (constant S256x256 .f32 0x00000000#32))
    bitsLt_bf16_f32

/-- The edge indicators of the graph. -/
def preM (sb : Vec F S1x256x256 .f32) : FVec F S256x256 .f32 :=
  sitofp .f32 (extui 32 (cmpf .one (shapeCast S256x256 sb shapeCasts_S1x256x256_S256x256)
    (broadcast S256x256 (Scalar.ofBits .f32 0x00000000#32))) natLt_1_32)

/-! The product of the two transposed operands reads its left operand at (k, h) and its right operand at (i, k). -/

theorem w1dot_l0 (j : S256x256.Idx) (q : dot_S256x256_S256x256_S256x256_0_1_1_0_n_n.contr.Idx) :
    (dot_S256x256_S256x256_S256x256_0_1_1_0_n_n.lhsIdx j q 0).val = (q ⟨0, by decide⟩).val :=
  dot_S256x256_S256x256_S256x256_0_1_1_0_n_n.lhsIdx_val_of_single rfl j q
theorem w1dot_l1 (j : S256x256.Idx) (q : dot_S256x256_S256x256_S256x256_0_1_1_0_n_n.contr.Idx) :
    (dot_S256x256_S256x256_S256x256_0_1_1_0_n_n.lhsIdx j q 1).val = (j 0).val := by
  unfold DotDims.lhsIdx
  rw [dif_neg (show ¬(1 : Fin S256x256.rank) ∈ dot_S256x256_S256x256_S256x256_0_1_1_0_n_n.lhsBatch by decide),
    dif_pos (show (1 : Fin S256x256.rank) ∈ dot_S256x256_S256x256_S256x256_0_1_1_0_n_n.lhsNonContracting by decide)]
  rfl
theorem w1dot_r0 (j : S256x256.Idx) (q : dot_S256x256_S256x256_S256x256_0_1_1_0_n_n.contr.Idx) :
    (dot_S256x256_S256x256_S256x256_0_1_1_0_n_n.rhsIdx j q 0).val = (j 1).val := by
  unfold DotDims.rhsIdx
  rw [dif_neg (show ¬(0 : Fin S256x256.rank) ∈ dot_S256x256_S256x256_S256x256_0_1_1_0_n_n.rhsBatch by decide),
    dif_pos (show (0 : Fin S256x256.rank) ∈ dot_S256x256_S256x256_S256x256_0_1_1_0_n_n.rhsNonContracting by decide)]
  rfl
theorem w1dot_r1 (j : S256x256.Idx) (q : dot_S256x256_S256x256_S256x256_0_1_1_0_n_n.contr.Idx) :
    (dot_S256x256_S256x256_S256x256_0_1_1_0_n_n.rhsIdx j q 1).val = (q ⟨0, by decide⟩).val :=
  dot_S256x256_S256x256_S256x256_0_1_1_0_n_n.rhsIdx_val_of_single rfl j q

/-- The product at (h, i): ∑ₖ W(k, h) · sb(0, i, k). -/
theorem w1dot_apply (W : FVec Ideal S256x256 .f32) (sb : FVec Ideal S1x256x256 .f32) (h i : Fin 256) :
    matmul dot_S256x256_S256x256_S256x256_0_1_1_0_n_n none (truncf .bf16 W bitsLt_bf16_f32)
        (truncf .bf16 (shapeCast S256x256 sb shapeCasts_S1x256x256_S256x256) bitsLt_bf16_f32)
        (constant (F := Ideal) S256x256 .f32 0x00000000#32) (ix2 h i)
      = ∑ k : Fin 256, W (ix2 k h) * sb (ix3 (0 : Fin 1) i k) := by
  refine (MatmulColsByRows.matmul_zero_apply dot_S256x256_S256x256_S256x256_0_1_1_0_n_n rfl rfl w1dot_l0 w1dot_l1 w1dot_r0 w1dot_r1
    none _ _ h i).trans ?_
  refine Finset.sum_congr rfl fun k _ => ?_
  rw [truncf_apply, truncf_apply, shapeCast_1ab_ab_apply]

/-- AT(h, i) on the extended reals. -/
theorem preA_apply (W : FVec Ideal S256x256 .f32) (sb : FVec Ideal S1x256x256 .f32) (bc : FVec Ideal S256x1 .f32) (h i : Fin 256) :
    preA (F := Ideal) W sb bc (ix2 h i) = (∑ k : Fin 256, W (ix2 k h) * sb (ix3 (0 : Fin 1) i k)) + bc (ix2 h (0 : Fin 1)) := by
  unfold preA
  rw [truncf_apply, addf_apply, w1dot_apply, broadcastTo_a1_ab_apply, shapeCast_self]

/-- BT(h, j) on the extended reals. -/
theorem preB_apply (W : FVec Ideal S256x256 .f32) (sb : FVec Ideal S1x256x256 .f32) (h j : Fin 256) :
    preB (F := Ideal) W sb (ix2 h j) = ∑ k : Fin 256, W (ix2 k h) * sb (ix3 (0 : Fin 1) j k) := by
  unfold preB
  rw [truncf_apply, w1dot_apply]

/-- The indicator at (i, j). -/
theorem preM_apply (sb : FVec Ideal S1x256x256 .f32) (i j : Fin 256) :
    preM (F := Ideal) sb (ix2 i j) = Cert.EdgeScore.maskOf (sb (ix3 (0 : Fin 1) i j)) := by
  unfold preM
  rw [sitofp_apply, extui_apply, cmpf_apply, broadcast_apply, shapeCast_1ab_ab_apply]
  exact Cert.EdgeScore.mask_signed _

end Cert.KernelIdeal.Row

end
-- ==== Proof.RowOf.lean ====
/-
  Row i of graph b, as a function of the five input blocks, is row (b, i) of the score array.

  The body holds the whole input arrays: `x0` the graphs `[2, 256, 256]`, `x1` the stacked first-layer weight
  `[512, 256]`, `x2` the first-layer bias as a column `[256, 1]`, `x3` the second-layer weight as a row `[1, 256]`
  and `x4` the second-layer bias `[1, 1]`. `rowOf b i` is the row it stores at `(b, i, 0)`: the weight's two halves
  are its rows 0–255 and 256–511, graph b is the slab at `(b, 0, 0)`, and the rest is `rowPay` over `preA`, `preB`,
  `preM`. `rowOf_spec`: on the extended reals its entry q is the score of the ordered pair (i, q) of graph b.
-/
import proofs.«129616_g89077621719711_cont_sun_m_405_24_alg».proof.Proof.RowPayload
import proofs.«129616_g89077621719711_cont_sun_m_405_24_alg».proof.Proof.Prologue
import proofs.«129616_g89077621719711_cont_sun_m_405_24_alg».proof.Proof.Score
import Idealize.ShloMosaic.Lib.Pipeline.FrameBody

noncomputable section

open scoped BigOperators

namespace Cert.KernelIdeal.Row

open Cert.KernelIdeal Cert.KernelIdeal.Gen Idealize.ShloMosaic Idealize.ShloMosaic.ValueIdx Cert.EdgeScore

variable {F : FTy → Type} [FloatOps F]

/-- The row stored at `(b, i, 0)`, from the five input blocks. -/
def rowOf (b i : ℕ) (hb : ∀ a, (![b, 0, 0] : Fin 3 → ℕ) a + S1x256x256.size a ≤ S2x256x256.size a)
    (hc : S256x256.Slices ![0, i] S256x1) (hr : S256x256.Slices ![i, 0] S1x256)
    (x0 : Vec F S2x256x256 .f32) (x1 : Vec F S512x256 .f32) (x2 : Vec F S256x1 .f32) (x3 : Vec F S1x256 .f32)
    (x4 : Vec F S1x1 .f32) : FVec F S1x1x256 .f32 :=
  rowPay i hc hr
    (truncf .bf16 (shapeCast S1x256 (View.ld x3 (Rect.unit (s := S1x256) ![0, 0] S1x256.size inb_S1x256_S1x256_0_0))
      shapeCasts_S1x256_S1x256) bitsLt_bf16_f32)
    (extractAt ![0, 0] (View.ld x4 (Rect.unit (s := S1x1) ![0, 0] S1x1.size inb_S1x1_S1x1_0_0)) inpos_S1x1_p0_0)
    (preA (View.ld x1 (Rect.unit (s := S512x256) ![0, 0] S256x256.size inb_S512x256_S256x256_0_0))
      (View.ld x0 (Rect.unit (s := S2x256x256) ![b, 0, 0] S1x256x256.size hb))
      (View.ld x2 (Rect.unit (s := S256x1) ![0, 0] S256x1.size inb_S256x1_S256x1_0_0)))
    (preB (View.ld x1 (Rect.unit (s := S512x256) ![256, 0] S256x256.size inb_S512x256_S256x256_256_0))
      (View.ld x0 (Rect.unit (s := S2x256x256) ![b, 0, 0] S1x256x256.size hb)))
    (preM (View.ld x0 (Rect.unit (s := S2x256x256) ![b, 0, 0] S1x256x256.size hb)))

theorem zeros2 : (![0, 0] : Fin 2 → ℕ) = fun _ => 0 := funext fun a => by
  match a with
  | ⟨0, _⟩ => rfl
  | ⟨1, _⟩ => rfl

/-- The upper half of the weight, loaded, at (k, h) is the weight at (k, h). -/
theorem ld_upper (x1 : Vec Ideal S512x256 .f32) (inb : ∀ a, (![0, 0] : Fin 2 → ℕ) a + S256x256.size a ≤ S512x256.size a)
    (k h : Fin 256) :
    View.ld (Val := Elt Ideal) x1 (Rect.unit (s := S512x256) ![0, 0] S256x256.size inb) (ix2 k h) = x1 (ix2 (upper k) h) :=
  congrArg x1 (funext fun d => Fin.ext (by
    match d with
    | ⟨0, _⟩ => show 0 + 1 * k.val = k.val; omega
    | ⟨1, _⟩ => show 0 + 1 * h.val = h.val; omega))

/-- The lower half, loaded, at (k, h) is the weight at (256 + k, h). -/
theorem ld_lower (x1 : Vec Ideal S512x256 .f32) (inb : ∀ a, (![256, 0] : Fin 2 → ℕ) a + S256x256.size a ≤ S512x256.size a)
    (k h : Fin 256) :
    View.ld (Val := Elt Ideal) x1 (Rect.unit (s := S512x256) ![256, 0] S256x256.size inb) (ix2 k h) = x1 (ix2 (lower k) h) :=
  congrArg x1 (funext fun d => Fin.ext (by
    match d with
    | ⟨0, _⟩ => show 256 + 1 * k.val = 256 + k.val; omega
    | ⟨1, _⟩ => show 0 + 1 * h.val = h.val; omega))

/-- Graph b's slab, loaded, at (0, i, k) is the graphs' array at (b, i, k). -/
theorem ld_graph (x0 : Vec Ideal S2x256x256 .f32) (b : ℕ) (hb2 : b < 2)
    (hb : ∀ a, (![b, 0, 0] : Fin 3 → ℕ) a + S1x256x256.size a ≤ S2x256x256.size a) (i k : Fin 256) :
    View.ld (Val := Elt Ideal) x0 (Rect.unit (s := S2x256x256) ![b, 0, 0] S1x256x256.size hb) (ix3 (0 : Fin 1) i k)
      = x0 (ix3 (⟨b, hb2⟩ : Fin 2) i k) :=
  congrArg x0 (funext fun d => Fin.ext (by
    match d with
    | ⟨0, _⟩ => show b + 1 * 0 = b; omega
    | ⟨1, _⟩ => show 0 + 1 * i.val = i.val; omega
    | ⟨2, _⟩ => show 0 + 1 * k.val = k.val; omega))

/-- Entry q of the row stored at `(b, i, 0)` is the score of the ordered pair (i, q) of graph b. -/
theorem rowOf_spec (b i : ℕ) (hb : ∀ a, (![b, 0, 0] : Fin 3 → ℕ) a + S1x256x256.size a ≤ S2x256x256.size a)
    (hc : S256x256.Slices ![0, i] S256x1) (hr : S256x256.Slices ![i, 0] S1x256)
    (hinb : ∀ a, (![b, i, 0] : Fin 3 → ℕ) a + S1x1x256.size a ≤ S2x256x256.size a)
    (x0 : Vec Ideal S2x256x256 .f32) (x1 : Vec Ideal S512x256 .f32) (x2 : Vec Ideal S256x1 .f32)
    (x3 : Vec Ideal S1x256 .f32) (x4 : Vec Ideal S1x1 .f32) (y : S1x1x256.Idx) :
    rowOf (F := Ideal) b i hb hc hr x0 x1 x2 x3 x4 y
      = score x0 x1 (fun h => x2 (ix2 h (0 : Fin 1))) (fun h => x3 (ix2 (0 : Fin 1) h)) (x4 (ix2 (0 : Fin 1) (0 : Fin 1)))
          ((Rect.unit (s := S2x256x256) ![b, i, 0] S1x1x256.size hinb).emb y) := by
  have hb2 : b < 2 := by
    have h' : b + 1 ≤ 2 := hinb 0
    omega
  have hi : i < 256 := by
    have h' : i + 1 ≤ 256 := hinb 1
    omega
  obtain ⟨u, v, q, rfl⟩ : ∃ (u v : Fin 1) (q : Fin 256), y = ix3 u v q := ⟨y 0, y 1, y 2, eq_ix3 y⟩
  have hu : u.val = 0 := by omega
  have hv : v.val = 0 := by omega
  have he : (Rect.unit (s := S2x256x256) ![b, i, 0] S1x1x256.size hinb).emb (ix3 u v q)
      = ix3 (⟨b, hb2⟩ : Fin 2) (⟨i, hi⟩ : Fin 256) q := funext fun d => Fin.ext (by
    match d with
    | ⟨0, _⟩ => show b + 1 * u.val = b; omega
    | ⟨1, _⟩ => show i + 1 * v.val = i; omega
    | ⟨2, _⟩ => show 0 + 1 * q.val = q.val; omega)
  rw [he]
  unfold rowOf
  refine (rowPay_apply i hi hc hr _ _ _ _ _ u v q).trans ?_
  refine Eq.trans ?_ (score_apply x0 x1 _ _ _ ⟨b, hb2⟩ ⟨i, hi⟩ q).symm
  have eW : ∀ h : Fin 256, (truncf .bf16 (shapeCast S1x256 (View.ld (Val := Elt Ideal) x3
        (Rect.unit (s := S1x256) ![0, 0] S1x256.size inb_S1x256_S1x256_0_0)) shapeCasts_S1x256_S1x256) bitsLt_bf16_f32
        : FVec Ideal S1x256 .bf16) (ix2 (0 : Fin 1) h) = x3 (ix2 (0 : Fin 1) h) := fun h => by
    rw [truncf_apply]
    refine (shapeCast_apply _ shapeCasts_S1x256_S1x256 (ix2 (0 : Fin 1) h) (ix2 (0 : Fin 1) h) rfl).trans ?_
    exact congrFun (View.ld_unit_zero zeros2 _ x3) _
  have eB : ∀ h : Fin 256, preB (F := Ideal) (View.ld (Val := Elt Ideal) x1 (Rect.unit (s := S512x256) ![256, 0] S256x256.size inb_S512x256_S256x256_256_0))
        (View.ld (Val := Elt Ideal) x0 (Rect.unit (s := S2x256x256) ![b, 0, 0] S1x256x256.size hb)) (ix2 h q)
      = ∑ k : Fin 256, x1 (ix2 (lower k) h) * x0 (ix3 (⟨b, hb2⟩ : Fin 2) q k) := fun h => by
    rw [preB_apply]
    exact Finset.sum_congr rfl fun k _ => congrArg₂ (· * ·) (ld_lower x1 _ k h) (ld_graph x0 b hb2 hb q k)
  have eA : ∀ h : Fin 256, preA (F := Ideal) (View.ld (Val := Elt Ideal) x1 (Rect.unit (s := S512x256) ![0, 0] S256x256.size inb_S512x256_S256x256_0_0))
        (View.ld (Val := Elt Ideal) x0 (Rect.unit (s := S2x256x256) ![b, 0, 0] S1x256x256.size hb))
        (View.ld (Val := Elt Ideal) x2 (Rect.unit (s := S256x1) ![0, 0] S256x1.size inb_S256x1_S256x1_0_0)) (ix2 h (⟨i, hi⟩ : Fin 256))
      = (∑ k : Fin 256, x1 (ix2 (upper k) h) * x0 (ix3 (⟨b, hb2⟩ : Fin 2) (⟨i, hi⟩ : Fin 256) k)) + x2 (ix2 h (0 : Fin 1)) := fun h => by
    rw [preA_apply, View.ld_unit_zero zeros2]
    exact congrArg (· + x2 (ix2 h (0 : Fin 1)))
      (Finset.sum_congr rfl fun k _ => congrArg₂ (· * ·) (ld_upper x1 _ k h) (ld_graph x0 b hb2 hb ⟨i, hi⟩ k))
  have eM : preM (F := Ideal) (View.ld (Val := Elt Ideal) x0 (Rect.unit (s := S2x256x256) ![b, 0, 0] S1x256x256.size hb))
        (ix2 (⟨i, hi⟩ : Fin 256) q) = maskOf (x0 (ix3 (⟨b, hb2⟩ : Fin 2) (⟨i, hi⟩ : Fin 256) q)) := by
    rw [preM_apply, ld_graph x0 b hb2 hb]
  have e4 : extractAt ![0, 0] (View.ld (Val := Elt Ideal) x4 (Rect.unit (s := S1x1) ![0, 0] S1x1.size inb_S1x1_S1x1_0_0)) inpos_S1x1_p0_0
      = x4 (ix2 (0 : Fin 1) (0 : Fin 1)) := by
    rw [View.ld_unit_zero zeros2]
    exact congrArg x4 (funext fun a => Fin.ext (by
      match a with
      | ⟨0, _⟩ => rfl
      | ⟨1, _⟩ => rfl))
  rw [eM, e4]
  refine congrArg (fun t => Ideal.logistic (t + x4 (ix2 (0 : Fin 1) (0 : Fin 1))) * maskOf (x0 (ix3 (⟨b, hb2⟩ : Fin 2) (⟨i, hi⟩ : Fin 256) q)))
    (Finset.sum_congr rfl fun h _ => ?_)
  rw [eW h, eB h, eA h]

end Cert.KernelIdeal.Row

end
-- ==== Proof.OutBlock.lean ====
/-
  What the body leaves in the output buffer is the score array of its input blocks.

  The body stores 512 rows, row i of graph b through the rectangle of sizes `[1, 1, 256]` at `(b, i, 0)`. Every stored
  row is the corresponding row of ONE function of the five input blocks — the score array (`rowOf_spec`) — and the
  rows cover the buffer, so the buffer's contents after the last store are that function, entry by entry, whatever
  the order of the stores.
-/
import proofs.«129616_g89077621719711_cont_sun_m_405_24_alg».proof.Proof.FrameKernelIdeal
import proofs.«129616_g89077621719711_cont_sun_m_405_24_alg».proof.Proof.RowOf
import Idealize.ShloMosaic.Lib.Pipeline.Value

noncomputable section

namespace Cert.KernelIdeal.Row

open Cert.KernelIdeal Cert.KernelIdeal.Gen Cert.KernelIdeal.GenP Idealize.ShloMosaic Idealize.ShloMosaic.ValueIdx Cert.EdgeScore

/-- The score array of the five input blocks: the bias column, the weight row and the scalar bias read where the
    blocks hold them. -/
abbrev blockScore (x0 : Vec Ideal S2x256x256 .f32) (x1 : Vec Ideal S512x256 .f32) (x2 : Vec Ideal S256x1 .f32)
    (x3 : Vec Ideal S1x256 .f32) (x4 : Vec Ideal S1x1 .f32) : S2x256x256.Idx → Elt Ideal .f32 :=
  score x0 x1 (fun h => x2 (ix2 h (0 : Fin 1))) (fun h => x3 (ix2 (0 : Fin 1) h)) (x4 (ix2 (0 : Fin 1) (0 : Fin 1)))

section Agree
variable {Val : EltTy → Type} {S : Shape} {e : EltTy}

/-- No store disagrees with a function. -/
theorem agree_nil {G : S.Idx → Val e} :
    ∀ p ∈ ([] : List (View.Piece Val S e)), ∀ x : p.1.shape.Idx, p.2 x = G (p.1.emb x) :=
  fun _ h => absurd h List.not_mem_nil

/-- One more store that agrees with the function. -/
theorem agree_cons {G : S.Idx → Val e} {p : View.Piece Val S e} {L : List (View.Piece Val S e)}
    (hp : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) :=
  List.forall_mem_cons.mpr ⟨hp, hL⟩

end Agree

set_option maxHeartbeats 4000000 in
/-- The buffer after the body: the score array of the input blocks. -/
theorem out0_5_eq (x0 : Vec Ideal S2x256x256 .f32) (x1 : Vec Ideal S512x256 .f32) (x2 : Vec Ideal S256x1 .f32)
    (x3 : Vec Ideal S1x256 .f32) (x4 : Vec Ideal S1x1 .f32) :
    out0_5 (F := Ideal) x0 x1 x2 x3 x4 = blockScore x0 x1 x2 x3 x4 := by
  funext y
  unfold out0_5
  refine View.canon_apply_of_pieces (blockScore x0 x1 x2 x3 x4) _ ?_ y (cover0_5 ..)
  repeat (first
    | exact agree_nil
    | refine agree_cons (rowOf_spec _ _ (by decide) (by decide) (by decide) (by decide) x0 x1 x2 x3 x4) ?_)

end Cert.KernelIdeal.Row

end
-- ==== Proof.KernelValue.lean ====
/-
  The kernel's result array after the run is the score array of the argument arrays.

  The grid has one point and every window's block is its whole array, so each input block is the array the region
  finds (`iblk*_eq`), what the one point writes back is the score array of those (`flushed_eq`), and that one block
  covers the result (`final5`). Three of the five arrays the region finds are reshapes the host made of arguments:
  the first-layer bias `[256]` as a column `[256, 1]`, the second-layer weight `[256, 1]` as a row `[1, 256]`, and the
  second-layer bias `[1]` as `[1, 1]`; each is read back at an index (`V_bias_col`, `V_weight_row`, `V_bias2`).
  `run` re-posts the frame run with the result array named.
-/
import proofs.«129616_g89077621719711_cont_sun_m_405_24_alg».proof.Proof.FrameKernelIdeal
import proofs.«129616_g89077621719711_cont_sun_m_405_24_alg».proof.Proof.OutBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.GenP Cert.KernelIdeal.Row Idealize.ShloMosaic.ValueIdx Cert.EdgeScore

variable (m : (ℓ : Loc nD τ sig) → Buf (Elt Ideal) ℓ) (ρ : Dev nD → PrngReg)

/-! ## Each input block is the whole array the region finds -/

theorem iblk0_eq (c : Dev nD) (t : Fin cfg0.N) : (iblk m c 0 t : Vec Ideal S2x256x256 .f32) = V m c main_arg0 := by
  obtain rfl : t = t0_0 := fin_N0 t
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V m c main_arg0)

theorem iblk1_eq (c : Dev nD) (t : Fin cfg0.N) : (iblk m c 1 t : Vec Ideal S512x256 .f32) = V m c main_arg1 := by
  obtain rfl : t = t0_0 := fin_N0 t
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V m c main_arg1)

theorem iblk2_eq (c : Dev nD) (t : Fin cfg0.N) : (iblk m c 2 t : Vec Ideal S256x1 .f32) = V m c main_v0 := by
  obtain rfl : t = t0_0 := fin_N0 t
  have hz' : (fun a => win0_2.index t0_0 a * main_v0.ty.shape.size a) = fun _ => 0 := funext fun a => by fin_cases a <;> decide
  exact Memref.read_access_unit_zero (Elt Ideal) main_v0 hz' (fun a => by rw [congrFun hz' a]; simp) (V m c main_v0)

theorem iblk3_eq (c : Dev nD) (t : Fin cfg0.N) : (iblk m c 3 t : Vec Ideal S1x256 .f32) = V m c main_v2 := by
  obtain rfl : t = t0_0 := fin_N0 t
  have hz' : (fun a => win0_3.index t0_0 a * main_v2.ty.shape.size a) = fun _ => 0 := funext fun a => by fin_cases a <;> decide
  exact Memref.read_access_unit_zero (Elt Ideal) main_v2 hz' (fun a => by rw [congrFun hz' a]; simp) (V m c main_v2)

theorem iblk4_eq (c : Dev nD) (t : Fin cfg0.N) : (iblk m c 4 t : Vec Ideal S1x1 .f32) = V m c main_v1 := by
  obtain rfl : t = t0_0 := fin_N0 t
  have hz' : (fun a => win0_4.index t0_0 a * main_v1.ty.shape.size a) = fun _ => 0 := funext fun a => by fin_cases a <;> decide
  exact Memref.read_access_unit_zero (Elt Ideal) main_v1 hz' (fun a => by rw [congrFun hz' a]; simp) (V m c main_v1)

/-! ## The host's reshapes of three arguments, read at an index -/

/-- The first-layer bias as the region finds it, a column: entry (h, 0) is the argument's entry h. -/
theorem V_bias_col (c : Dev nD) (h : Fin 256) :
    (V m c main_v0 : S256x1.Idx → Elt Ideal .f32) (ix2 h (0 : Fin 1)) = (m ((c : Thread nD τ).loc main_arg2) : S256.Idx → Elt Ideal .f32) (ix1 h) := by
  have e : (V m c main_v0 : S256x1.Idx → Elt Ideal .f32) = shapeCast S256x1 (m ((c : Thread nD τ).loc main_arg2)) shapeCasts_S256_S256x1 := by
    dsimp only [V, hostOps0]; after_results; rfl
  rw [e]
  exact shapeCast_apply _ shapeCasts_S256_S256x1 _ _ (by
    rw [Shape.rowMajor_val_one, Shape.rowMajor_val_two]
    show h.val = h.val * 1 + 0
    omega)

/-- The second-layer weight as the region finds it, a row: entry (0, h) is the argument's entry (h, 0). -/
theorem V_weight_row (c : Dev nD) (h : Fin 256) :
    (V m c main_v2 : S1x256.Idx → Elt Ideal .f32) (ix2 (0 : Fin 1) h) = (m ((c : Thread nD τ).loc main_arg3) : S256x1.Idx → Elt Ideal .f32) (ix2 h (0 : Fin 1)) := by
  have e : (V m c main_v2 : S1x256.Idx → Elt Ideal .f32) = shapeCast S1x256 (m ((c : Thread nD τ).loc main_arg3)) shapeCasts_S256x1_S1x256 := by
    dsimp only [V, hostOps0]; after_results; rfl
  rw [e]
  exact shapeCast_apply _ shapeCasts_S256x1_S1x256 _ _ (by
    rw [Shape.rowMajor_val_two, Shape.rowMajor_val_two]
    show h.val * 1 + 0 = 0 * 256 + h.val
    omega)

/-- The second-layer bias as the region finds it: its one entry is the argument's one entry. -/
theorem V_bias2 (c : Dev nD) :
    (V m c main_v1 : S1x1.Idx → Elt Ideal .f32) (ix2 (0 : Fin 1) (0 : Fin 1)) = (m ((c : Thread nD τ).loc main_arg4) : S1.Idx → Elt Ideal .f32) (ix1 (0 : Fin 1)) := by
  have e : (V m c main_v1 : S1x1.Idx → Elt Ideal .f32) = shapeCast S1x1 (m ((c : Thread nD τ).loc main_arg4)) shapeCasts_S1_S1x1 := by
    dsimp only [V, hostOps0]; after_results; rfl
  rw [e]
  exact shapeCast_apply _ shapeCasts_S1_S1x1 _ _ (by
    rw [Shape.rowMajor_val_one, Shape.rowMajor_val_two]
    rfl)

/-! ## The result array -/

/-- The score array of the argument arrays. -/
abbrev result (c : Dev nD) : Buf (Elt Ideal) ((c : Thread nD τ).loc main_v3) :=
  score (m ((c : Thread nD τ).loc main_arg0)) (m ((c : Thread nD τ).loc main_arg1))
    (fun h => (m ((c : Thread nD τ).loc main_arg2) : S256.Idx → Elt Ideal .f32) (ix1 h))
    (fun h => (m ((c : Thread nD τ).loc main_arg3) : S256x1.Idx → Elt Ideal .f32) (ix2 h (0 : Fin 1)))
    ((m ((c : Thread nD τ).loc main_arg4) : S1.Idx → Elt Ideal .f32) (ix1 (0 : Fin 1)))

/-- What the body leaves, at the one point, is the score array of the arguments. -/
theorem after_eq (c : Dev nD) (t : Fin cfg0.N) : (dats m 0 c).after 5 t = result m c := by
  rw [after0_5, out0_5_eq, iblk0_eq, iblk1_eq, iblk2_eq, iblk3_eq, iblk4_eq]
  unfold blockScore result
  rw [V_main_arg0, V_main_arg1, V_bias2]
  refine congrArg₂ (fun u w => score _ _ u w _) (funext fun h => V_bias_col m c h) (funext fun h => V_weight_row m c h)

/-- The one write-back writes the score array: the output's block is the whole array read through zero offsets. -/
theorem flushed_eq (c : Dev nD) (t : Fin cfg0.N) :
    (dats m 0 c).flushed 5 t = ((cfg0.win 5).blk t).view.read (Elt Ideal) (result m c) := by
  obtain rfl : t = t0_0 := fin_N0 t
  show (cfg0.win 5).cut (grid0.coords t0_0) ((dats m 0 c).after 5 t0_0) = _
  rw [after_eq]
  have hz' : (fun a => win0_5.index t0_0 a * main_v3.ty.shape.size a) = fun _ => 0 := funext fun a => by fin_cases a <;> decide
  exact (Memref.read_access_unit_zero (Elt Ideal) main_v3 hz' (fun a => by rw [congrFun hz' a]; simp) (result m c)).symm

/-- So the result array ends holding the score array: the one point's block covers it. -/
theorem final5 (c : Dev nD) : (dats m 0 c).arrAt 5 cfg0.N = result m c :=
  (dats m 0 c).arrAt_eq_of_cover 5 (result m c) (fun t _ => flushed_eq m c t) fun i =>
    ⟨t0_0, flush0_5 t0_0, by
      show i ∈ ((View.whole main_v3).slice (win0_5.rect t0_0)).set
      rw [View.set_slice_whole, Rect.mem_set_unit]
      intro a
      have h0 : (i 0 : Nat) < 2 := (i 0).isLt
      have h1 : (i 1 : Nat) < 256 := (i 1).isLt
      have h2 : (i 2 : Nat) < 256 := (i 2).isLt
      match a with
      | ⟨0, _⟩ =>
        show win0_5.index t0_0 0 * win0_5.size 0 ≤ (i 0 : Nat) ∧ (i 0 : Nat) < win0_5.index t0_0 0 * win0_5.size 0 + win0_5.xsize (grid0.coords t0_0) 0
        rw [show win0_5.index t0_0 0 * win0_5.size 0 = 0 from by decide +kernel, show win0_5.xsize (grid0.coords t0_0) 0 = 2 from by decide +kernel]; omega
      | ⟨1, _⟩ =>
        show win0_5.index t0_0 1 * win0_5.size 1 ≤ (i 1 : Nat) ∧ (i 1 : Nat) < win0_5.index t0_0 1 * win0_5.size 1 + win0_5.xsize (grid0.coords t0_0) 1
        rw [show win0_5.index t0_0 1 * win0_5.size 1 = 0 from by decide +kernel, show win0_5.xsize (grid0.coords t0_0) 1 = 256 from by decide +kernel]; omega
      | ⟨2, _⟩ =>
        show win0_5.index t0_0 2 * win0_5.size 2 ≤ (i 2 : Nat) ∧ (i 2 : Nat) < win0_5.index t0_0 2 * win0_5.size 2 + win0_5.xsize (grid0.coords t0_0) 2
        rw [show win0_5.index t0_0 2 * win0_5.size 2 = 0 from by decide +kernel, show win0_5.xsize (grid0.coords t0_0) 2 = 256 from by decide +kernel]; omega⟩

/-! ## The run, read -/

/-- The frame run re-posted: the result array at the score array of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Whole

end
-- ==== Proof.LibLogisticExpanded.lean ====
/-
  The logistic function on the extended reals in its expanded spelling.

  A program that does not use a logistic operation writes σ(z) as 1.0 / (1.0 + exp (-z)), with the f32 word of 1.0 for
  both ones. On the extended reals (division, exponential and negation extended to ±∞ as the ideal instance extends
  them) this is the ideal instance's logistic function, which is what a logistic operation denotes there: the word of
  1.0 is the real number 1, and the rest is the definition. Imports only the ideal instance.
-/
import Idealize.ShloMosaic.PureOps.Ideal

noncomputable section

namespace Cert.Lib.Logistic

open Idealize.ShloMosaic

/-- The f32 word of 1.0 is the extended real 1. -/
theorem one_word : Ideal.ofBits .f32 0x3F800000#32 = 1 := by
  simp [Ideal.ofBits, Ideal.ieee, -EReal.coe_mul]; norm_num

/-- The expanded logistic 1.0 / (1.0 + exp (-z)), both ones the f32 word of 1.0, is the logistic function, for every
    extended real `z` (the infinities included). -/
theorem logistic_expanded (z : EReal) :
    Ideal.div (Ideal.ofBits .f32 0x3F800000#32) (Ideal.ofBits .f32 0x3F800000#32 + Ideal.exp (-z)) = Ideal.logistic z := by
  rw [one_word]; rfl

/-- The same read through the operations of the float interface at the ideal instance, host side: divide, add,
    exponential and negate of the host program. -/
theorem host_logistic_expanded (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = FloatOps.logistic z :=
  logistic_expanded z

end Cert.Lib.Logistic

end
-- ==== Proof.RefValue.lean ====
/-
  The reference's result, read entry by entry, is the score array of the arguments.

  The reference forms, for every graph b and every ordered pair (i, j), the hidden vector
  max( (A(b, i, h) + B(b, j, h)) + b₁(h), 0 ) with A = s · W₁[0:256] and B = s · W₁[256:512], contracts it with the
  second-layer weight, adds the second-layer bias, applies the logistic function in its expanded spelling
  1 / (1 + exp(-z)), and multiplies by the indicator of a nonzero entry. Read at entry (b, i, j) through the generated
  one-operation-at-a-time lemmas this is the score with every product in the other order and the pre-activation
  grouped as (row i + row j) + bias: `Cert.EdgeScore.score_regrouped` joins it to the score array.
-/
import proofs.«129616_g89077621719711_cont_sun_m_405_24_alg».proof.Proof.Gen.ReferenceIdeal.Read
import proofs.«129616_g89077621719711_cont_sun_m_405_24_alg».proof.Proof.Score
import proofs.«129616_g89077621719711_cont_sun_m_405_24_alg».proof.Proof.LibLogisticExpanded
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeScore

variable (x0 : (⟨S2x256x256, .f32⟩ : BufTy).Contents (Elt Ideal)) (x1 : (⟨S512x256, .f32⟩ : BufTy).Contents (Elt Ideal))
  (x2 : (⟨S256, .f32⟩ : BufTy).Contents (Elt Ideal)) (x3 : (⟨S256x1, .f32⟩ : BufTy).Contents (Elt Ideal))
  (x4 : (⟨S1, .f32⟩ : BufTy).Contents (Elt Ideal))

/-- Node p's features through the upper half of the weight, at hidden unit h. -/
theorem upperPart (b : Fin 2) (p h : Fin 256) :
    val_main_v2 (F := Ideal) x0 x1 (ix3 b p h) = ∑ k : Fin 256, x0 (ix3 b p k) * x1 (ix2 (upper k) h) := by
  rw [val_main_v2_apply]
  refine Finset.sum_congr rfl fun k _ => ?_
  rw [val_main_v0_apply]
  refine congrArg₂ (· * ·) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

/-- Node p's features through the lower half of the weight, at hidden unit h. -/
theorem lowerPart (b : Fin 2) (p h : Fin 256) :
    val_main_v3 (F := Ideal) x0 x1 (ix3 b p h) = ∑ k : Fin 256, x0 (ix3 b p k) * x1 (ix2 (lower k) h) := by
  rw [val_main_v3_apply]
  refine Finset.sum_congr rfl fun k _ => ?_
  rw [val_main_v1_apply]
  refine congrArg₂ (· * ·) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

/-- The rectified hidden vector of the ordered pair (p, q) of graph b, at hidden unit h. -/
theorem hidden (b : Fin 2) (p q h : Fin 256) :
    val_main_v12 (F := Ideal) x0 x1 x2 (ix4 b p q h)
      = max (((∑ k : Fin 256, x0 (ix3 b p k) * x1 (ix2 (upper k) h)) + (∑ k : Fin 256, x0 (ix3 b q k) * x1 (ix2 (lower k) h)))
          + x2 (ix1 h)) 0 := by
  rw [val_main_v12_apply, val_main_v11_apply, val_main_v8_apply, val_main_v6_apply, val_main_v4_apply, val_main_v7_apply,
    val_main_v5_apply, val_main_v10_apply, val_main_v9_apply, val_main_call0_v0_apply, val_main_call0_cst_apply]
  have e1 : idx_main_v4 (idx_main_v6 (ix4 b p q h)) = ix3 b p h := funext fun a => by
    match a with
    | ⟨0, _⟩ => rfl
    | ⟨1, _⟩ => rfl
    | ⟨2, _⟩ => rfl
  have e2 : idx_main_v5 (idx_main_v7 (ix4 b p q h)) = ix3 b q h := funext fun a => by
    match a with
    | ⟨0, _⟩ => rfl
    | ⟨1, _⟩ => rfl
    | ⟨2, _⟩ => rfl
  have e3 : idx_main_v9 (idx_main_v10 (ix4 b p q h)) = ix1 h := funext fun a => by
    match a with
    | ⟨0, _⟩ => rfl
  rw [e1, e2, e3, upperPart, lowerPart]
  show max (((∑ k : Fin 256, x0 (ix3 b p k) * x1 (ix2 (upper k) h)) + (∑ k : Fin 256, x0 (ix3 b q k) * x1 (ix2 (lower k) h)))
      + x2 (ix1 h)) (Ideal.ofBits .f32 0x00000000#32) = _
  rw [Ideal.ofBits_zero_f32]

/-- The hidden vector contracted with the second-layer weight. -/
theorem contracted (b : Fin 2) (p q : Fin 256) :
    val_main_v14 (F := Ideal) x0 x1 x2 x3 (ix3 b p q)
      = ∑ h : Fin 256, max (((∑ k : Fin 256, x0 (ix3 b p k) * x1 (ix2 (upper k) h)) + (∑ k : Fin 256, x0 (ix3 b q k) * x1 (ix2 (lower k) h)))
          + x2 (ix1 h)) 0 * x3 (ix2 h (0 : Fin 1)) := by
  rw [val_main_v14_apply]
  have e : idx_main_v14 (ix3 b p q) = ix4 b p q (0 : Fin 1) := funext fun a => Fin.ext (by
    have hb := b.isLt
    have hp := p.isLt
    have hq := q.isLt
    match a with
    | ⟨0, _⟩ => show ((b.val * 256 + p.val) * 256 + q.val) / 65536 = b.val; omega
    | ⟨1, _⟩ => show ((b.val * 256 + p.val) * 256 + q.val) / 256 % 256 = p.val; omega
    | ⟨2, _⟩ => show ((b.val * 256 + p.val) * 256 + q.val) / 1 % 256 = q.val; omega
    | ⟨3, _⟩ => rfl)
  rw [e, val_main_v13_apply]
  refine Finset.sum_congr rfl fun h _ => ?_
  have e1 : lidx_main_v13 (ix4 b p q (0 : Fin 1)) h = ix4 b p q h := funext fun a => by
    match a with
    | ⟨0, _⟩ => rfl
    | ⟨1, _⟩ => rfl
    | ⟨2, _⟩ => rfl
    | ⟨3, _⟩ => rfl
  have e2 : ridx_main_v13 (ix4 b p q (0 : Fin 1)) h = ix2 h (0 : Fin 1) := funext fun a => by
    match a with
    | ⟨0, _⟩ => rfl
    | ⟨1, _⟩ => rfl
  rw [e1, e2, hidden]

/-- The second-layer bias, reshaped to a scalar, is its one entry. -/
theorem bias2 (j : S_.Idx) : val_main_v15 (F := Ideal) x4 j = x4 (ix1 (0 : Fin 1)) := by
  have hsub : ∀ u v : S1.Idx, u = v := fun u v => funext fun a => Fin.ext (by
    have hu : (u 0).val < 1 := (u 0).isLt
    have hv : (v 0).val < 1 := (v 0).isLt
    match a with
    | ⟨0, _⟩ => show (u 0).val = (v 0).val; omega)
  unfold val_main_v15 shapeCast
  exact congrArg x4 (hsub _ _)

/-- THE REFERENCE IS THE SCORE ARRAY. -/
theorem result_eq :
    val_main_v27 (F := Ideal) x0 x1 x2 x3 x4
      = score x0 x1 (fun h => x2 (ix1 h)) (fun h => x3 (ix2 h (0 : Fin 1))) (x4 (ix1 (0 : Fin 1))) := by
  funext i
  obtain ⟨b, p, q, rfl⟩ : ∃ (b : Fin 2) (p q : Fin 256), i = ix3 b p q := ⟨i 0, i 1, i 2, eq_ix3 i⟩
  rw [val_main_v27_apply, val_main_v26_apply, val_main_v25_apply, val_main_v24_apply, val_main_cst_1_apply,
    val_main_v23_apply, val_main_v22_apply, val_main_cst_0_apply, val_main_v21_apply, val_main_v20_apply, val_main_cst_apply,
    val_main_v19_apply, val_main_v18_apply, val_main_v17_apply, val_main_v16_apply, contracted, bias2]
  show FloatOps.hostDivf (FloatOps.ofBits (F := Ideal) .f32 0x3F800000#32)
        (FloatOps.addf (FloatOps.ofBits (F := Ideal) .f32 0x3F800000#32) (FloatOps.hostUnary .exp (FloatOps.hostNegf
          ((∑ h : Fin 256, max (((∑ k : Fin 256, x0 (ix3 b p k) * x1 (ix2 (upper k) h)) + (∑ k : Fin 256, x0 (ix3 b q k) * x1 (ix2 (lower k) h)))
            + x2 (ix1 h)) 0 * x3 (ix2 h (0 : Fin 1))) + x4 (ix1 (0 : Fin 1))))))
      * FloatOps.uitofp (F := Ideal) .f32 (FloatOps.cmpf (F := Ideal) (φ := .f32) .une (x0 (ix3 b p q)) (Ideal.ofBits .f32 0x00000000#32))
      = _
  rw [Cert.Lib.Logistic.host_logistic_expanded, mask_unsigned]
  exact score_regrouped x0 x1 (fun h => x2 (ix1 h)) (fun h => x3 (ix2 h (0 : Fin 1))) (x4 (ix1 (0 : Fin 1))) (ix3 b p q)

end Cert.ReferenceIdeal.RefValue

end
-- ==== Proof.lean ====
/-
  The edge-score kernel against its reference, on the extended reals.

  Both programs compute, for two graphs on 256 nodes, the array

      out(b, i, j) = σ( ∑ₕ w₂(h) · max( pre(b, i, j, h), 0 ) + b₂ ) · [ s(b, i, j) ≠ 0 ],
      pre(b, i, j, h) = ∑ₖ W₁(256 + k, h) · s(b, j, k) + ( ∑ₖ W₁(k, h) · s(b, i, k) + b₁(h) )

  (`Cert.EdgeScore.score`). The kernel keeps the hidden unit on the first axis: it forms the two tables
  AT(h, i) = ∑ₖ W₁(k, h) s(b, i, k) + b₁(h) and BT(h, j) = ∑ₖ W₁(256 + k, h) s(b, j, k) once per graph, and then, row by
  row, adds column i of AT to BT, rectifies, contracts the hidden axis against w₂, adds b₂, applies the logistic
  function and masks; its 512 stored rows cover the result (Proof/RowPayload, Prologue, RowOf, OutBlock, KernelValue).
  The reference forms (A + B) + b₁ with A = s · W₁[0:256], B = s · W₁[256:512] for every ordered pair at once, with every
  product in the other order, and spells the logistic function as 1 / (1 + exp(-z)) (Proof/RefValue). Addition and
  multiplication of extended reals are commutative and associative and the two spellings of the logistic function and of
  the indicator denote the same functions there, so the two arrays are equal entry by entry; finiteness of the inputs
  is not used. The roundings to sixteen bits in the kernel are the identity on the extended reals, and the ideal pass
  rewrote nothing, so `preserves` is trivial. The three frames are the frame runs of the two kernel programs and the
  reference's run with its result dropped.
-/
import proofs.«129616_g89077621719711_cont_sun_m_405_24_alg».proof.Defs
import proofs.«129616_g89077621719711_cont_sun_m_405_24_alg».proof.Proof.Gen.Kernel
import proofs.«129616_g89077621719711_cont_sun_m_405_24_alg».proof.Proof.Gen.Kernel.Skeleton
import proofs.«129616_g89077621719711_cont_sun_m_405_24_alg».proof.Proof.Gen.Kernel.Launch
import proofs.«129616_g89077621719711_cont_sun_m_405_24_alg».proof.Proof.Gen.Kernel.Points
import proofs.«129616_g89077621719711_cont_sun_m_405_24_alg».proof.Proof.FrameKernel
import proofs.«129616_g89077621719711_cont_sun_m_405_24_alg».proof.Proof.Gen.KernelIdeal
import proofs.«129616_g89077621719711_cont_sun_m_405_24_alg».proof.Proof.Gen.KernelIdeal.Skeleton
import proofs.«129616_g89077621719711_cont_sun_m_405_24_alg».proof.Proof.Gen.KernelIdeal.Launch
import proofs.«129616_g89077621719711_cont_sun_m_405_24_alg».proof.Proof.Gen.KernelIdeal.Points
import proofs.«129616_g89077621719711_cont_sun_m_405_24_alg».proof.Proof.FrameKernelIdeal
import proofs.«129616_g89077621719711_cont_sun_m_405_24_alg».proof.Proof.Gen.ReferenceIdeal
import proofs.«129616_g89077621719711_cont_sun_m_405_24_alg».proof.Proof.Gen.Pre_finite_inputs
import proofs.«129616_g89077621719711_cont_sun_m_405_24_alg».proof.Proof.Gen.ReferenceIdeal.Run
import proofs.«129616_g89077621719711_cont_sun_m_405_24_alg».proof.Proof.Gen.ReferenceIdeal.Read
import proofs.«129616_g89077621719711_cont_sun_m_405_24_alg».proof.Proof.KernelValue
import proofs.«129616_g89077621719711_cont_sun_m_405_24_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both programs end with the score array of the arguments: the kernel by its 512 rows, the reference entry by entry,
    joined by commutativity and associativity of the extended reals' sum and product. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
